-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v229)) (v1 : (c : Dev Cert.KernelIdeal.nD) → Buf (Elt Ideal) ((c.tc : Thread Cert.KernelIdeal.nD Cert.KernelIdeal.τ).loc Cert.KernelIdeal.main_v249)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v229) = v0 c
          ∧ r.2.mem ((c.tc : Thread Cert.KernelIdeal.nD Cert.KernelIdeal.τ).loc Cert.KernelIdeal.main_v249) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_v269) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1280 : Shape := ⟨2, ![50000, 1280]⟩
abbrev S256x1280 : Shape := ⟨2, ![256, 1280]⟩
abbrev S256 : Shape := ⟨1, ![256]⟩
abbrev S3x256x256 : Shape := ⟨3, ![3, 256, 256]⟩
abbrev S3x256 : Shape := ⟨2, ![3, 256]⟩
abbrev S2x300000 : Shape := ⟨2, ![2, 300000]⟩
abbrev S2x200000 : Shape := ⟨2, ![2, 200000]⟩
abbrev S_ : Shape := ⟨0, ![]⟩

class Facts : Prop where
  bcast_S_S50000x1280 : S_.BroadcastsInDim S50000x1280 (![] : Fin 0 → Fin S50000x1280.rank)
  reducesTo_S50000x1280_S_d0_1 : S50000x1280.ReducesTo [0, 1] S_
  h_S_ : 0 < S_.numel
  bcast_S_S256x1280 : S_.BroadcastsInDim S256x1280 (![] : Fin 0 → Fin S256x1280.rank)
  reducesTo_S256x1280_S_d0_1 : S256x1280.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part3 {F : FTy → Type} [FloatOps F] (main_arg11 : FVec F S3x256x256 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S3x256x256 .f32 := Host.absf main_arg11
  let main_cst_20 : FVec F S_ .f32 := constant S_ .f32 0x7F800000#32
  let main_v55 : FVec F S3x256x256 .f32 := broadcastInDim S3x256x256 ![] bcast_S_S3x256x256 main_cst_20
  let main_v56 : IVec S3x256x256 1 := cmpf .olt main_v54 main_v55
  let main_c_21 : IVec S_ 1 := constantI S_ 1 1#1
  let main_v57 : IVec S_ 1 := (fun x v => Host.reduce IntOp.andi x v reducesTo_S3x256x256_S_d0_1_2 h_S_) main_v56 main_c_21
  let main_v58 : IVec S_ 1 := andi main_v53 main_v57
  main_v58

def fn_part2 {F : FTy → Type} [FloatOps F] (main_arg7 : FVec F S3x256 .f32) (main_arg8 : FVec F S3x256x256 .f32) (main_arg9 : FVec F S3x256x256 .f32) (main_arg10 : FVec F S3x256 .f32) (main_arg11 : FVec F S3x256x256 .f32) (main_v33 : IVec S_ 1) : IVec S_ 1 :=
  let main_v34 : FVec F S3x256 .f32 := Host.absf main_arg7
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x256 .f32 := Host.absf main_arg8
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256x256 .f32 := Host.absf main_arg9
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : FVec F S3x256 .f32 := Host.absf main_arg10
  let main_cst_18 : FVec F S_ .f32 := constant S_ .f32 0x7F800000#32
  let main_v50 : FVec F S3x256 .f32 := broadcastInDim S3x256 ![] bcast_S_S3x256 main_cst_18
  fn_part3 (F := F) main_arg11 main_v48 main_v49 main_v50

def fn_part1 {F : FTy → Type} [FloatOps F] (main_arg4 : FVec F S256x1280 .f32) (main_arg5 : FVec F S256 .f32) (main_arg6 : FVec F S3x256x256 .f32) (main_arg7 : FVec F S3x256 .f32) (main_arg8 : FVec F S3x256x256 .f32) (main_arg9 : FVec F S3x256x256 .f32) (main_arg10 : FVec F S3x256 .f32) (main_arg11 : FVec F S3x256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1280 .f32 := Host.absf main_arg4
  let main_cst_6 : FVec F S_ .f32 := constant S_ .f32 0x7F800000#32
  let main_v20 : FVec F S256x1280 .f32 := broadcastInDim S256x1280 ![] bcast_S_S256x1280 main_cst_6
  let main_v21 : IVec S256x1280 1 := cmpf .olt main_v19 main_v20
  let main_c_7 : IVec S_ 1 := constantI S_ 1 1#1
  let main_v22 : IVec S_ 1 := (fun x v => Host.reduce IntOp.andi x v reducesTo_S256x1280_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S3x256x256 .f32 := Host.absf main_arg6
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x1280 .f32) (main_arg1 : FVec F S50000x1280 .f32) (main_arg2 : FVec F S256x1280 .f32) (main_arg3 : FVec F S256 .f32) (main_arg4 : FVec F S256x1280 .f32) (main_arg5 : FVec F S256 .f32) (main_arg6 : FVec F S3x256x256 .f32) (main_arg7 : FVec F S3x256 .f32) (main_arg8 : FVec F S3x256x256 .f32) (main_arg9 : FVec F S3x256x256 .f32) (main_arg10 : FVec F S3x256 .f32) (main_arg11 : FVec F S3x256x256 .f32) (main_arg12 : IVec S2x300000 32) (main_arg13 : IVec S2x300000 32) (main_arg14 : IVec S2x300000 32) (main_arg15 : IVec S2x200000 32) (main_arg16 : IVec S2x200000 32) : IVec S_ 1 :=
  let main_v0 : FVec F S50000x1280 .f32 := Host.absf main_arg0
  let main_cst : FVec F S_ .f32 := constant S_ .f32 0x7F800000#32
  let main_v1 : FVec F S50000x1280 .f32 := broadcastInDim S50000x1280 ![] bcast_S_S50000x1280 main_cst
  let main_v2 : IVec S50000x1280 1 := cmpf .olt main_v0 main_v1
  let main_c : IVec S_ 1 := constantI S_ 1 1#1
  let main_v3 : IVec S_ 1 := (fun x v => Host.reduce IntOp.andi x v reducesTo_S50000x1280_S_d0_1 h_S_) main_v2 main_c
  let main_v4 : FVec F S50000x1280 .f32 := Host.absf main_arg1
  let main_cst_0 : FVec F S_ .f32 := constant S_ .f32 0x7F800000#32
  let main_v5 : FVec F S50000x1280 .f32 := broadcastInDim S50000x1280 ![] bcast_S_S50000x1280 main_cst_0
  let main_v6 : IVec S50000x1280 1 := cmpf .olt main_v4 main_v5
  let main_c_1 : IVec S_ 1 := constantI S_ 1 1#1
  let main_v7 : IVec S_ 1 := (fun x v => Host.reduce IntOp.andi x v reducesTo_S50000x1280_S_d0_1 h_S_) main_v6 main_c_1
  let main_v8 : IVec S_ 1 := andi main_v3 main_v7
  let main_v9 : FVec F S256x1280 .f32 := Host.absf main_arg2
  let main_cst_2 : FVec F S_ .f32 := constant S_ .f32 0x7F800000#32
  let main_v10 : FVec F S256x1280 .f32 := broadcastInDim S256x1280 ![] bcast_S_S256x1280 main_cst_2
  let main_v11 : IVec S256x1280 1 := cmpf .olt main_v9 main_v10
  let main_c_3 : IVec S_ 1 := constantI S_ 1 1#1
  let main_v12 : IVec S_ 1 := (fun x v => Host.reduce IntOp.andi x v reducesTo_S256x1280_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S50000x1280 : Shape := ⟨2, ![50000, 1280]⟩
abbrev S256x1280 : Shape := ⟨2, ![256, 1280]⟩
abbrev S256 : Shape := ⟨1, ![256]⟩
abbrev S3x256x256 : Shape := ⟨3, ![3, 256, 256]⟩
abbrev S3x256 : Shape := ⟨2, ![3, 256]⟩
abbrev S2x300000 : Shape := ⟨2, ![2, 300000]⟩
abbrev S2x200000 : Shape := ⟨2, ![2, 200000]⟩
abbrev S1280x256 : Shape := ⟨2, ![1280, 256]⟩
abbrev S1x256 : Shape := ⟨2, ![1, 256]⟩
abbrev S50000x256 : Shape := ⟨2, ![50000, 256]⟩
abbrev S2000x1280 : Shape := ⟨2, ![2000, 1280]⟩
abbrev S2000x256 : Shape := ⟨2, ![2000, 256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S50000x1 : Shape := ⟨2, ![50000, 1]⟩
abbrev S1x256x256 : Shape := ⟨3, ![1, 256, 256]⟩
abbrev S256x256 : Shape := ⟨2, ![256, 256]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩
abbrev S2000x1 : Shape := ⟨2, ![2000, 1]⟩
abbrev S2000 : Shape := ⟨1, ![2000]⟩

abbrev nBuf : Space → Nat
  | .hbm => 311
  | .vmem => 68
  | .smem => 0
  | _ => 0

abbrev hbmTy0_0 (i : Nat) : BufTy := match i % 128 with
  | 0 => ⟨S50000x1280, .f32⟩
  | 1 => ⟨S50000x1280, .f32⟩
  | 2 => ⟨S256x1280, .f32⟩
  | 3 => ⟨S256, .f32⟩
  | 4 => ⟨S256x1280, .f32⟩
  | 5 => ⟨S256, .f32⟩
  | 6 => ⟨S3x256x256, .f32⟩
  | 7 => ⟨S3x256, .f32⟩
  | 8 => ⟨S3x256x256, .f32⟩
  | 9 => ⟨S3x256x256, .f32⟩
  | 10 => ⟨S3x256, .f32⟩
  | 11 => ⟨S3x256x256, .f32⟩
  | 12 => ⟨S2x300000, .i32⟩
  | 13 => ⟨S2x300000, .i32⟩
  | 14 => ⟨S2x300000, .i32⟩
  | 15 => ⟨S2x200000, .i32⟩
  | 16 => ⟨S2x200000, .i32⟩
  | 17 => ⟨S1280x256, .f32⟩
  | 18 => ⟨S1280x256, .bf16⟩
  | 19 => ⟨S1x256, .f32⟩
  | 20 => ⟨S50000x256, .f32⟩
  | 21 => ⟨S1280x256, .f32⟩
  | 22 => ⟨S1280x256, .bf16⟩
  | 23 => ⟨S1x256, .f32⟩
  | 24 => ⟨S50000x256, .f32⟩
  | 25 => ⟨S1x300000, .i32⟩
  | 26 => ⟨S300000, .i32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000x256, .f32⟩
  | 36 => ⟨S1x300000, .i32⟩
  | 37 => ⟨S300000, .i32⟩
  | 38 => ⟨S_, .f32⟩
  | 39 => ⟨S50000x256, .f32⟩
  | 40 => ⟨S300000x1, .i32⟩
  | 41 => ⟨S50000x256, .f32⟩
  | 42 => ⟨S_, .f32⟩
  | 43 => ⟨S300000x1, .f32⟩
  | 44 => ⟨S_, .f32⟩
  | 45 => ⟨S50000x1, .f32⟩
  | 46 => ⟨S300000x1, .i32⟩
  | 47 => ⟨S50000x1, .f32⟩
  | 48 => ⟨S_, .f32⟩
  | 49 => ⟨S50000x1, .f32⟩
  | 50 => ⟨S50000x1, .f32⟩
  | 51 => ⟨S50000x256, .f32⟩
  | 52 => ⟨S50000x256, .f32⟩
  | 53 => ⟨S1x256x256, .f32⟩
  | 54 => ⟨S256x256, .f32⟩
  | 55 => ⟨S1x256, .f32⟩
  | 56 => ⟨S256, .f32⟩
  | 57 => ⟨S1x256x256, .f32⟩
  | 58 => ⟨S256x256, .f32⟩
  | 59 => ⟨S256x256, .f32⟩
  | 60 => ⟨S256x256, .bf16⟩
  | 61 => ⟨S256x256, .f32⟩
  | 62 => ⟨S256x256, .bf16⟩
  | 63 => ⟨S1x256, .f32⟩
  | 64 => ⟨S50000x256, .f32⟩
  | 65 => ⟨S1x300000, .i32⟩
  | 66 => ⟨S300000, .i32⟩
  | 67 => ⟨S_, .i32⟩
  | 68 => ⟨S300000, .i32⟩
  | 69 => ⟨S300000, .i1⟩
  | 70 => ⟨S_, .i32⟩
  | 71 => ⟨S300000, .i32⟩
  | 72 => ⟨S300000, .i32⟩
  | 73 => ⟨S300000, .i32⟩
  | 74 => ⟨S300000x1, .i32⟩
  | 75 => ⟨S300000x256, .f32⟩
  | 76 => ⟨S1x300000, .i32⟩
  | 77 => ⟨S300000, .i32⟩
  | 78 => ⟨S_, .f32⟩
  | 79 => ⟨S50000x256, .f32⟩
  | 80 => ⟨S300000x1, .i32⟩
  | 81 => ⟨S50000x256, .f32⟩
  | 82 => ⟨S_, .f32⟩
  | 83 => ⟨S300000x1, .f32⟩
  | 84 => ⟨S_, .f32⟩
  | 85 => ⟨S50000x1, .f32⟩
  | 86 => ⟨S300000x1, .i32⟩
  | 87 => ⟨S50000x1, .f32⟩
  | 88 => ⟨S_, .f32⟩
  | 89 => ⟨S50000x1, .f32⟩
  | 90 => ⟨S50000x1, .f32⟩
  | 91 => ⟨S50000x256, .f32⟩
  | 92 => ⟨S50000x256, .f32⟩
  | 93 => ⟨S1x300000, .i32⟩
  | 94 => ⟨S300000, .i32⟩
  | 95 => ⟨S_, .i32⟩
  | 96 => ⟨S300000, .i32⟩
  | 97 => ⟨S300000, .i1⟩
  | 98 => ⟨S_, .i32⟩
  | 99 => ⟨S300000, .i32⟩
  | 100 => ⟨S300000, .i32⟩
  | 101 => ⟨S300000, .i32⟩
  | 102 => ⟨S300000x1, .i32⟩
  | 103 => ⟨S300000x256, .f32⟩
  | 104 => ⟨S1x300000, .i32⟩
  | 105 => ⟨S300000, .i32⟩
  | 106 => ⟨S_, .f32⟩
  | 107 => ⟨S50000x256, .f32⟩
  | 108 => ⟨S300000x1, .i32⟩
  | 109 => ⟨S50000x256, .f32⟩
  | 110 => ⟨S_, .f32⟩
  | 111 => ⟨S300000x1, .f32⟩
  | 112 => ⟨S_, .f32⟩
  | 113 => ⟨S50000x1, .f32⟩
  | 114 => ⟨S300000x1, .i32⟩
  | 115 => ⟨S50000x1, .f32⟩
  | 116 => ⟨S_, .f32⟩
  | 117 => ⟨S50000x1, .f32⟩
  | 118 => ⟨S50000x1, .f32⟩
  | 119 => ⟨S50000x256, .f32⟩
  | 120 => ⟨S50000x256, .f32⟩
  | 121 => ⟨S1x256x256, .f32⟩
  | 122 => ⟨S256x256, .f32⟩
  | 123 => ⟨S1x256, .f32⟩
  | 124 => ⟨S256, .f32⟩
  | 125 => ⟨S1x256x256, .f32⟩
  | 126 => ⟨S256x256, .f32⟩
  | 127 => ⟨S1x256x256, .f32⟩
  | _ => ⟨S50000x1280, .f32⟩

abbrev hbmTy0_1 (i : Nat) : BufTy := match i % 128 with
  | 0 => ⟨S256x256, .f32⟩
  | 1 => ⟨S1x256, .f32⟩
  | 2 => ⟨S256, .f32⟩
  | 3 => ⟨S1x256x256, .f32⟩
  | 4 => ⟨S256x256, .f32⟩
  | 5 => ⟨S256x256, .f32⟩
  | 6 => ⟨S256x256, .bf16⟩
  | 7 => ⟨S256x256, .f32⟩
  | 8 => ⟨S256x256, .bf16⟩
  | 9 => ⟨S256x256, .f32⟩
  | 10 => ⟨S256x256, .bf16⟩
  | 11 => ⟨S256x256, .f32⟩
  | 12 => ⟨S256x256, .bf16⟩
  | 13 => ⟨S256, .f32⟩
  | 14 => ⟨S1x256, .f32⟩
  | 15 => ⟨S50000x256, .f32⟩
  | 16 => ⟨S1x300000, .i32⟩
  | 17 => ⟨S300000, .i32⟩
  | 18 => ⟨S_, .i32⟩
  | 19 => ⟨S300000, .i32⟩
  | 20 => ⟨S300000, .i1⟩
  | 21 => ⟨S_, .i32⟩
  | 22 => ⟨S300000, .i32⟩
  | 23 => ⟨S300000, .i32⟩
  | 24 => ⟨S300000, .i32⟩
  | 25 => ⟨S300000x1, .i32⟩
  | 26 => ⟨S300000x256, .f32⟩
  | 27 => ⟨S1x300000, .i32⟩
  | 28 => ⟨S300000, .i32⟩
  | 29 => ⟨S_, .f32⟩
  | 30 => ⟨S50000x256, .f32⟩
  | 31 => ⟨S300000x1, .i32⟩
  | 32 => ⟨S50000x256, .f32⟩
  | 33 => ⟨S_, .f32⟩
  | 34 => ⟨S300000x1, .f32⟩
  | 35 => ⟨S_, .f32⟩
  | 36 => ⟨S50000x1, .f32⟩
  | 37 => ⟨S300000x1, .i32⟩
  | 38 => ⟨S50000x1, .f32⟩
  | 39 => ⟨S_, .f32⟩
  | 40 => ⟨S50000x1, .f32⟩
  | 41 => ⟨S50000x1, .f32⟩
  | 42 => ⟨S50000x256, .f32⟩
  | 43 => ⟨S50000x256, .f32⟩
  | 44 => ⟨S1x256x256, .f32⟩
  | 45 => ⟨S256x256, .f32⟩
  | 46 => ⟨S1x256, .f32⟩
  | 47 => ⟨S256, .f32⟩
  | 48 => ⟨S1x256x256, .f32⟩
  | 49 => ⟨S256x256, .f32⟩
  | 50 => ⟨S256x256, .f32⟩
  | 51 => ⟨S256x256, .bf16⟩
  | 52 => ⟨S256x256, .f32⟩
  | 53 => ⟨S256x256, .bf16⟩
  | 54 => ⟨S1x256, .f32⟩
  | 55 => ⟨S50000x256, .f32⟩
  | 56 => ⟨S1x300000, .i32⟩
  | 57 => ⟨S300000, .i32⟩
  | 58 => ⟨S_, .i32⟩
  | 59 => ⟨S300000, .i32⟩
  | 60 => ⟨S300000, .i1⟩
  | 61 => ⟨S_, .i32⟩
  | 62 => ⟨S300000, .i32⟩
  | 63 => ⟨S300000, .i32⟩
  | 64 => ⟨S300000, .i32⟩
  | 65 => ⟨S300000x1, .i32⟩
  | 66 => ⟨S300000x256, .f32⟩
  | 67 => ⟨S1x300000, .i32⟩
  | 68 => ⟨S300000, .i32⟩
  | 69 => ⟨S_, .f32⟩
  | 70 => ⟨S50000x256, .f32⟩
  | 71 => ⟨S300000x1, .i32⟩
  | 72 => ⟨S50000x256, .f32⟩
  | 73 => ⟨S_, .f32⟩
  | 74 => ⟨S300000x1, .f32⟩
  | 75 => ⟨S_, .f32⟩
  | 76 => ⟨S50000x1, .f32⟩
  | 77 => ⟨S300000x1, .i32⟩
  | 78 => ⟨S50000x1, .f32⟩
  | 79 => ⟨S_, .f32⟩
  | 80 => ⟨S50000x1, .f32⟩
  | 81 => ⟨S50000x1, .f32⟩
  | 82 => ⟨S50000x256, .f32⟩
  | 83 => ⟨S50000x256, .f32⟩
  | 84 => ⟨S1x300000, .i32⟩
  | 85 => ⟨S300000, .i32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S300000x1, .i32⟩
  | 94 => ⟨S300000x256, .f32⟩
  | 95 => ⟨S1x300000, .i32⟩
  | 96 => ⟨S300000, .i32⟩
  | 97 => ⟨S_, .f32⟩
  | 98 => ⟨S50000x256, .f32⟩
  | 99 => ⟨S300000x1, .i32⟩
  | 100 => ⟨S50000x256, .f32⟩
  | 101 => ⟨S_, .f32⟩
  | 102 => ⟨S300000x1, .f32⟩
  | 103 => ⟨S_, .f32⟩
  | 104 => ⟨S50000x1, .f32⟩
  | 105 => ⟨S300000x1, .i32⟩
  | 106 => ⟨S50000x1, .f32⟩
  | 107 => ⟨S_, .f32⟩
  | 108 => ⟨S50000x1, .f32⟩
  | 109 => ⟨S50000x1, .f32⟩
  | 110 => ⟨S50000x256, .f32⟩
  | 111 => ⟨S50000x256, .f32⟩
  | 112 => ⟨S1x256x256, .f32⟩
  | 113 => ⟨S256x256, .f32⟩
  | 114 => ⟨S1x256, .f32⟩
  | 115 => ⟨S256, .f32⟩
  | 116 => ⟨S1x256x256, .f32⟩
  | 117 => ⟨S256x256, .f32⟩
  | 118 => ⟨S1x256x256, .f32⟩
  | 119 => ⟨S256x256, .f32⟩
  | 120 => ⟨S1x256, .f32⟩
  | 121 => ⟨S256, .f32⟩
  | 122 => ⟨S1x256x256, .f32⟩
  | 123 => ⟨S256x256, .f32⟩
  | 124 => ⟨S256x256, .f32⟩
  | 125 => ⟨S256x256, .bf16⟩
  | 126 => ⟨S256x256, .f32⟩
  | 127 => ⟨S256x256, .bf16⟩
  | _ => ⟨S50000x1280, .f32⟩

abbrev hbmTy0_2 (i : Nat) : BufTy := match i % 128 with
  | 0 => ⟨S256x256, .f32⟩
  | 1 => ⟨S256x256, .bf16⟩
  | 2 => ⟨S256x256, .f32⟩
  | 3 => ⟨S256x256, .bf16⟩
  | 4 => ⟨S256, .f32⟩
  | 5 => ⟨S1x256, .f32⟩
  | 6 => ⟨S50000x256, .f32⟩
  | 7 => ⟨S1x200000, .i32⟩
  | 8 => ⟨S200000, .i32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S200000x256, .f32⟩
  | 18 => ⟨S1x200000, .i32⟩
  | 19 => ⟨S200000, .i32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x256, .f32⟩
  | 29 => ⟨S200000x1, .f32⟩
  | 30 => ⟨S200000, .f32⟩
  | 31 => ⟨S1x200000, .i32⟩
  | 32 => ⟨S200000, .i32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x256, .f32⟩
  | 42 => ⟨S1x200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x256, .f32⟩
  | 53 => ⟨S200000x1, .f32⟩
  | 54 => ⟨S200000, .f32⟩
  | _ => ⟨S50000x1280, .f32⟩

abbrev hbmTy (i : Nat) : BufTy := match i / 128 with
  | 0 => hbmTy0_0 i
  | 1 => hbmTy0_1 i
  | 2 => hbmTy0_2 i
  | _ => ⟨S50000x1280, .f32⟩

abbrev bufTy : (tb : Table) → Fin (tcTables nBuf tb) → BufTy
  | .hbm, ⟨i, _⟩ => hbmTy i
  | .local _ .vmem, ⟨0, _⟩ => ⟨S2000x1280, .f32⟩
  | .local _ .vmem, ⟨1, _⟩ => ⟨S2000x1280, .f32⟩
  | .local _ .vmem, ⟨2, _⟩ => ⟨S1280x256, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x1280, .f32⟩
  | .local _ .vmem, ⟨7, _⟩ => ⟨S2000x1280, .f32⟩
  | .local _ .vmem, ⟨8, _⟩ => ⟨S1280x256, .bf16⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .bf16⟩
  | .local _ .vmem, ⟨17, _⟩ => ⟨S256x256, .bf16⟩
  | .local _ .vmem, ⟨18, _⟩ => ⟨S1x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S256x256, .bf16⟩
  | .local _ .vmem, ⟨28, _⟩ => ⟨S256x256, .bf16⟩
  | .local _ .vmem, ⟨29, _⟩ => ⟨S256x256, .bf16⟩
  | .local _ .vmem, ⟨30, _⟩ => ⟨S256x256, .bf16⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x256, .bf16⟩
  | .local _ .vmem, ⟨39, _⟩ => ⟨S256x256, .bf16⟩
  | .local _ .vmem, ⟨40, _⟩ => ⟨S1x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S256x256, .bf16⟩
  | .local _ .vmem, ⟨50, _⟩ => ⟨S256x256, .bf16⟩
  | .local _ .vmem, ⟨51, _⟩ => ⟨S256x256, .bf16⟩
  | .local _ .vmem, ⟨52, _⟩ => ⟨S256x256, .bf16⟩
  | .local _ .vmem, ⟨53, _⟩ => ⟨S1x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S2000x256, .f32⟩
  | .local _ .vmem, ⟨59, _⟩ => ⟨S2000x256, .f32⟩
  | .local _ .vmem, ⟨60, _⟩ => ⟨S2000x1, .f32⟩
  | .local _ .vmem, ⟨61, _⟩ => ⟨S2000x1, .f32⟩
  | .local _ .vmem, ⟨62, _⟩ => ⟨S2000x256, .f32⟩
  | .local _ .vmem, ⟨63, _⟩ => ⟨S2000x256, .f32⟩
  | .local _ .vmem, ⟨64, _⟩ => ⟨S2000x256, .f32⟩
  | .local _ .vmem, ⟨65, _⟩ => ⟨S2000x256, .f32⟩
  | .local _ .vmem, ⟨66, _⟩ => ⟨S2000x1, .f32⟩
  | .local _ .vmem, ⟨67, _⟩ => ⟨S2000x1, .f32⟩
  | _, _ => ⟨S50000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_4 : Ref sig .tc := ⟨.hbm, 67, rfl⟩
abbrev main_v44 : Ref sig .tc := ⟨.hbm, 68, rfl⟩
abbrev main_v45 : Ref sig .tc := ⟨.hbm, 69, rfl⟩
abbrev main_c_5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_10 : Ref sig .tc := ⟨.hbm, 95, rfl⟩
abbrev main_v66 : Ref sig .tc := ⟨.hbm, 96, rfl⟩
abbrev main_v67 : Ref sig .tc := ⟨.hbm, 97, rfl⟩
abbrev main_c_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_12 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_16 : Ref sig .tc := ⟨.hbm, 146, rfl⟩
abbrev main_v111 : Ref sig .tc := ⟨.hbm, 147, rfl⟩
abbrev main_v112 : Ref sig .tc := ⟨.hbm, 148, rfl⟩
abbrev main_c_17 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_18 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_19 : Ref sig .tc := ⟨.hbm, 161, rfl⟩
abbrev main_v123 : Ref sig .tc := ⟨.hbm, 162, rfl⟩
abbrev main_cst_20 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_21 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_c_22 : Ref sig .tc := ⟨.hbm, 186, rfl⟩
abbrev main_v145 : Ref sig .tc := ⟨.hbm, 187, rfl⟩
abbrev main_v146 : Ref sig .tc := ⟨.hbm, 188, rfl⟩
abbrev main_c_23 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_24 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_25 : Ref sig .tc := ⟨.hbm, 201, rfl⟩
abbrev main_v157 : Ref sig .tc := ⟨.hbm, 202, rfl⟩
abbrev main_cst_26 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_27 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_c_28 : Ref sig .tc := ⟨.hbm, 214, rfl⟩
abbrev main_v167 : Ref sig .tc := ⟨.hbm, 215, rfl⟩
abbrev main_v168 : Ref sig .tc := ⟨.hbm, 216, rfl⟩
abbrev main_c_29 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_30 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_cst_31 : Ref sig .tc := ⟨.hbm, 229, rfl⟩
abbrev main_v179 : Ref sig .tc := ⟨.hbm, 230, rfl⟩
abbrev main_cst_32 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_cst_33 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_c_34 : Ref sig .tc := ⟨.hbm, 265, rfl⟩
abbrev main_v212 : Ref sig .tc := ⟨.hbm, 266, rfl⟩
abbrev main_v213 : Ref sig .tc := ⟨.hbm, 267, rfl⟩
abbrev main_c_35 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_c_36 : Ref sig .tc := ⟨.hbm, 276, rfl⟩
abbrev main_v221 : Ref sig .tc := ⟨.hbm, 277, rfl⟩
abbrev main_v222 : Ref sig .tc := ⟨.hbm, 278, rfl⟩
abbrev main_c_37 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_c_38 : Ref sig .tc := ⟨.hbm, 289, rfl⟩
abbrev main_v232 : Ref sig .tc := ⟨.hbm, 290, rfl⟩
abbrev main_v233 : Ref sig .tc := ⟨.hbm, 291, rfl⟩
abbrev main_c_39 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_c_40 : Ref sig .tc := ⟨.hbm, 300, rfl⟩
abbrev main_v241 : Ref sig .tc := ⟨.hbm, 301, rfl⟩
abbrev main_v242 : Ref sig .tc := ⟨.hbm, 302, rfl⟩
abbrev main_c_41 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg8_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg7_0 : Ref sig .tc := ⟨.vmem, 53, rfl⟩
abbrev cc5_stg8_0 : Ref sig .tc := ⟨.vmem, 54, rfl⟩
abbrev cc5_stg8_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem8_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem7_0 : DmaSem sig := 53
abbrev cc5_sem8_0 : DmaSem sig := 54
abbrev cc5_sem8_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1280x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x256 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  transposes_S256x1280_S1280x256_1_0 : S256x1280.Transposes [1, 0] S1280x256
  bitsLt_bf16_f32 : FTy.bits .bf16 < FTy.bits .f32
  shapeCasts_S256_S1x256 : S256.ShapeCasts S1x256
  inb_S2000x1280_S2000x1280_0_0 : ∀ a, (![0, 0] : Fin 2 → Nat) a + S2000x1280.size a ≤ S2000x1280.size a
  h_S2000x1280 : 0 < S2000x1280.numel
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  bcast_S_S50000x256 : S_.BroadcastsInDim S50000x256 (![] : Fin 0 → Fin S50000x256.rank)
  bcast_S_S300000x1 : S_.BroadcastsInDim S300000x1 (![] : Fin 0 → Fin S300000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  slices_S3x256x256_S1x256x256_1_0_0 : S3x256x256.Slices ![1, 0, 0] S1x256x256
  shapeCasts_S1x256x256_S256x256 : S1x256x256.ShapeCasts S256x256
  slices_S3x256_S1x256_1_0 : S3x256.Slices ![1, 0] S1x256
  shapeCasts_S1x256_S256 : S1x256.ShapeCasts S256
  transposes_S256x256_S256x256_1_0 : S256x256.Transposes [1, 0] S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x256x256_S1x256x256_0_0_0 : S3x256x256.Slices ![0, 0, 0] S1x256x256
  slices_S3x256_S1x256_0_0 : S3x256.Slices ![0, 0] S1x256
  slices_S3x256x256_S1x256x256_2_0_0 : S3x256x256.Slices ![2, 0, 0] S1x256x256
  slices_S3x256_S1x256_2_0 : S3x256.Slices ![2, 0] S1x256
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reduces_S2000x256_S2000 : S2000x256.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  dot_S2000x1280_S1280x256_S2000x256_1_0_0_1_n_n_wf : DotDims.WF S2000x1280 S1280x256 S2000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000x1_S300000x1_S300000x1_1_0_0_1_wf : ScatterDims.WF S50000x1 S300000x1 S300000x1 [1] [0] [0] 1
  dot_S2000x256_S256x256_S2000x256_1_0_0_1_n_n_wf : DotDims.WF S2000x256 S256x256 S2000x256 [1] [0] [0] [1] [] []
  gather_S50000x256_S200000x1_S200000x256_1_0_n_n_0_1_1256_wf : GatherDims.WF S50000x256 S200000x1 S200000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1280.size a ≤ S50000x1280.size a
  hwx0_0 : ∀ i : grid0.Coords, EltTy.bits .f32 = 32 ∨ (Rect.block (s := S50000x1280) S2000x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S1280x256.size a
  hwx0_1 : ∀ i : grid0.Coords, EltTy.bits .bf16 = 32 ∨ (Rect.block (s := S1280x256) S1280x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1280.size a ≤ S50000x1280.size a
  hwx1_0 : ∀ i : grid1.Coords, EltTy.bits .f32 = 32 ∨ (Rect.block (s := S50000x1280) S2000x1280.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1280x256.size a ≤ S1280x256.size a
  hwx1_1 : ∀ i : grid1.Coords, EltTy.bits .bf16 = 32 ∨ (Rect.block (s := S1280x256) S1280x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .bf16 = 32 ∨ (Rect.block (s := S256x256) S256x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .bf16 = 32 ∨ (Rect.block (s := S256x256) S256x256.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S50000x256.size a
  hwx3_8 : ∀ i : grid3.Coords, EltTy.bits .f32 = 32 ∨ (Rect.block (s := S50000x256) S2000x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .bf16 = 32 ∨ (Rect.block (s := S256x256) S256x256.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .bf16 = 32 ∨ (Rect.block (s := S256x256) S256x256.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .bf16 = 32 ∨ (Rect.block (s := S256x256) S256x256.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .bf16 = 32 ∨ (Rect.block (s := S256x256) S256x256.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x256.size a ≤ S256x256.size a
  hwx5_6 : ∀ i : grid5.Coords, EltTy.bits .bf16 = 32 ∨ (Rect.block (s := S256x256) S256x256.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x256.size a ≤ S50000x256.size a
  hwx5_8 : ∀ i : grid5.Coords, EltTy.bits .f32 = 32 ∨ (Rect.block (s := S50000x256) S2000x256.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S200000x256.size a
  hwx6_0 : ∀ i : grid6.Coords, EltTy.bits .f32 = 32 ∨ (Rect.block (s := S200000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S200000x256.size a
  hwx6_1 : ∀ i : grid6.Coords, EltTy.bits .f32 = 32 ∨ (Rect.block (s := S200000x256) S2000x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S200000x1.size a
  hwx6_2 : ∀ i : grid6.Coords, EltTy.bits .f32 = 32 ∨ (Rect.block (s := S200000x1) S2000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S200000x256.size a
  hwx7_0 : ∀ i : grid7.Coords, EltTy.bits .f32 = 32 ∨ (Rect.block (s := S200000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S200000x256.size a
  hwx7_1 : ∀ i : grid7.Coords, EltTy.bits .f32 = 32 ∨ (Rect.block (s := S200000x256) S2000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S200000x1.size a
  hwx7_2 : ∀ i : grid7.Coords, EltTy.bits .f32 = 32 ∨ (Rect.block (s := S200000x1) S2000x1.size (cc7_transform_2 i) (hinb7_2 i)).WholeWords (EltTy.packing .f32)

variable [Facts₀]

def dot_S2000x1280_S1280x256_S2000x256_1_0_0_1_n_n : DotDims S2000x1280 S1280x256 S2000x256 where
  lhsContracting := [1]
  rhsContracting := [0]
  lhsNonContracting := [0]
  rhsNonContracting := [1]
  lhsBatch := []
  rhsBatch := []
  wf := dot_S2000x1280_S1280x256_S2000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000x1_S300000x1_S300000x1_1_0_0_1 : ScatterDims S50000x1 S300000x1 S300000x1 where
  updateWindowDims := [1]
  insertedWindowDims := [0]
  scatterDimsToOperandDims := [0]
  indexVectorDim := 1
  wf := scatter_S50000x1_S300000x1_S300000x1_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf

abbrev win0_0 : Pipeline.Window sig grid0 :=
  Pipeline.Window.ofSpec (Memref.whole main_arg0) S2000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1280x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v63) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v99) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v101) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v105) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v107) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v108) S2000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v130) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v138) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v140) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v141) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v142) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v164) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v186) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v108) S2000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v200) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v202) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v204) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v206) S256x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v208) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v209) S2000x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v218) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v227) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v228) S2000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v238) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v247) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v248) S2000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x1280 : Shape := ⟨2, ![50000, 1280]⟩
abbrev S256x1280 : Shape := ⟨2, ![256, 1280]⟩
abbrev S256 : Shape := ⟨1, ![256]⟩
abbrev S3x256x256 : Shape := ⟨3, ![3, 256, 256]⟩
abbrev S3x256 : Shape := ⟨2, ![3, 256]⟩
abbrev S2x300000 : Shape := ⟨2, ![2, 300000]⟩
abbrev S2x200000 : Shape := ⟨2, ![2, 200000]⟩
abbrev S1280x256 : Shape := ⟨2, ![1280, 256]⟩
abbrev S50000x256 : Shape := ⟨2, ![50000, 256]⟩
abbrev S1x256 : Shape := ⟨2, ![1, 256]⟩
abbrev S1x256x256 : Shape := ⟨3, ![1, 256, 256]⟩
abbrev S256x256 : Shape := ⟨2, ![256, 256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S50000x1 : Shape := ⟨2, ![50000, 1]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩

abbrev nBuf : Space → Nat
  | .hbm => 337
  | .vmem => 0
  | .smem => 0
  | _ => 0

abbrev hbmTy0_0 (i : Nat) : BufTy := match i % 128 with
  | 0 => ⟨S50000x1280, .f32⟩
  | 1 => ⟨S50000x1280, .f32⟩
  | 2 => ⟨S256x1280, .f32⟩
  | 3 => ⟨S256, .f32⟩
  | 4 => ⟨S256x1280, .f32⟩
  | 5 => ⟨S256, .f32⟩
  | 6 => ⟨S3x256x256, .f32⟩
  | 7 => ⟨S3x256, .f32⟩
  | 8 => ⟨S3x256x256, .f32⟩
  | 9 => ⟨S3x256x256, .f32⟩
  | 10 => ⟨S3x256, .f32⟩
  | 11 => ⟨S3x256x256, .f32⟩
  | 12 => ⟨S2x300000, .i32⟩
  | 13 => ⟨S2x300000, .i32⟩
  | 14 => ⟨S2x300000, .i32⟩
  | 15 => ⟨S2x200000, .i32⟩
  | 16 => ⟨S2x200000, .i32⟩
  | 17 => ⟨S1280x256, .f32⟩
  | 18 => ⟨S50000x256, .f32⟩
  | 19 => ⟨S1x256, .f32⟩
  | 20 => ⟨S50000x256, .f32⟩
  | 21 => ⟨S50000x256, .f32⟩
  | 22 => ⟨S1280x256, .f32⟩
  | 23 => ⟨S50000x256, .f32⟩
  | 24 => ⟨S1x256, .f32⟩
  | 25 => ⟨S50000x256, .f32⟩
  | 26 => ⟨S50000x256, .f32⟩
  | 27 => ⟨S1x256x256, .f32⟩
  | 28 => ⟨S256x256, .f32⟩
  | 29 => ⟨S1x256, .f32⟩
  | 30 => ⟨S256, .f32⟩
  | 31 => ⟨S1x256x256, .f32⟩
  | 32 => ⟨S256x256, .f32⟩
  | 33 => ⟨S1x300000, .i32⟩
  | 34 => ⟨S300000, .i32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S300000x256, .f32⟩
  | 44 => ⟨S1x300000, .i32⟩
  | 45 => ⟨S300000, .i32⟩
  | 46 => ⟨S_, .f32⟩
  | 47 => ⟨S50000x256, .f32⟩
  | 48 => ⟨S300000x1, .i32⟩
  | 49 => ⟨S50000x256, .f32⟩
  | 50 => ⟨S_, .f32⟩
  | 51 => ⟨S300000x1, .f32⟩
  | 52 => ⟨S_, .f32⟩
  | 53 => ⟨S50000x1, .f32⟩
  | 54 => ⟨S300000x1, .i32⟩
  | 55 => ⟨S50000x1, .f32⟩
  | 56 => ⟨S_, .f32⟩
  | 57 => ⟨S50000x1, .f32⟩
  | 58 => ⟨S50000x1, .f32⟩
  | 59 => ⟨S50000x256, .f32⟩
  | 60 => ⟨S50000x256, .f32⟩
  | 61 => ⟨S256x256, .f32⟩
  | 62 => ⟨S50000x256, .f32⟩
  | 63 => ⟨S1x256, .f32⟩
  | 64 => ⟨S50000x256, .f32⟩
  | 65 => ⟨S50000x256, .f32⟩
  | 66 => ⟨S256x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S1x256x256, .f32⟩
  | 73 => ⟨S256x256, .f32⟩
  | 74 => ⟨S1x256, .f32⟩
  | 75 => ⟨S256, .f32⟩
  | 76 => ⟨S1x256x256, .f32⟩
  | 77 => ⟨S256x256, .f32⟩
  | 78 => ⟨S1x300000, .i32⟩
  | 79 => ⟨S300000, .i32⟩
  | 80 => ⟨S_, .i32⟩
  | 81 => ⟨S300000, .i32⟩
  | 82 => ⟨S300000, .i1⟩
  | 83 => ⟨S_, .i32⟩
  | 84 => ⟨S300000, .i32⟩
  | 85 => ⟨S300000, .i32⟩
  | 86 => ⟨S300000, .i32⟩
  | 87 => ⟨S300000x1, .i32⟩
  | 88 => ⟨S300000x256, .f32⟩
  | 89 => ⟨S1x300000, .i32⟩
  | 90 => ⟨S300000, .i32⟩
  | 91 => ⟨S_, .f32⟩
  | 92 => ⟨S50000x256, .f32⟩
  | 93 => ⟨S300000x1, .i32⟩
  | 94 => ⟨S50000x256, .f32⟩
  | 95 => ⟨S_, .f32⟩
  | 96 => ⟨S300000x1, .f32⟩
  | 97 => ⟨S_, .f32⟩
  | 98 => ⟨S50000x1, .f32⟩
  | 99 => ⟨S300000x1, .i32⟩
  | 100 => ⟨S50000x1, .f32⟩
  | 101 => ⟨S_, .f32⟩
  | 102 => ⟨S50000x1, .f32⟩
  | 103 => ⟨S50000x1, .f32⟩
  | 104 => ⟨S50000x256, .f32⟩
  | 105 => ⟨S50000x256, .f32⟩
  | 106 => ⟨S256x256, .f32⟩
  | 107 => ⟨S50000x256, .f32⟩
  | 108 => ⟨S1x256, .f32⟩
  | 109 => ⟨S50000x256, .f32⟩
  | 110 => ⟨S50000x256, .f32⟩
  | 111 => ⟨S256x256, .f32⟩
  | 112 => ⟨S50000x256, .f32⟩
  | 113 => ⟨S50000x256, .f32⟩
  | 114 => ⟨S1x256x256, .f32⟩
  | 115 => ⟨S256x256, .f32⟩
  | 116 => ⟨S1x256, .f32⟩
  | 117 => ⟨S256, .f32⟩
  | 118 => ⟨S1x256x256, .f32⟩
  | 119 => ⟨S256x256, .f32⟩
  | 120 => ⟨S1x300000, .i32⟩
  | 121 => ⟨S300000, .i32⟩
  | 122 => ⟨S_, .i32⟩
  | 123 => ⟨S300000, .i32⟩
  | 124 => ⟨S300000, .i1⟩
  | 125 => ⟨S_, .i32⟩
  | 126 => ⟨S300000, .i32⟩
  | 127 => ⟨S300000, .i32⟩
  | _ => ⟨S50000x1280, .f32⟩

abbrev hbmTy0_1 (i : Nat) : BufTy := match i % 128 with
  | 0 => ⟨S300000, .i32⟩
  | 1 => ⟨S300000x1, .i32⟩
  | 2 => ⟨S300000x256, .f32⟩
  | 3 => ⟨S1x300000, .i32⟩
  | 4 => ⟨S300000, .i32⟩
  | 5 => ⟨S_, .f32⟩
  | 6 => ⟨S50000x256, .f32⟩
  | 7 => ⟨S300000x1, .i32⟩
  | 8 => ⟨S50000x256, .f32⟩
  | 9 => ⟨S_, .f32⟩
  | 10 => ⟨S300000x1, .f32⟩
  | 11 => ⟨S_, .f32⟩
  | 12 => ⟨S50000x1, .f32⟩
  | 13 => ⟨S300000x1, .i32⟩
  | 14 => ⟨S50000x1, .f32⟩
  | 15 => ⟨S_, .f32⟩
  | 16 => ⟨S50000x1, .f32⟩
  | 17 => ⟨S50000x1, .f32⟩
  | 18 => ⟨S50000x256, .f32⟩
  | 19 => ⟨S50000x256, .f32⟩
  | 20 => ⟨S256x256, .f32⟩
  | 21 => ⟨S50000x256, .f32⟩
  | 22 => ⟨S1x256, .f32⟩
  | 23 => ⟨S50000x256, .f32⟩
  | 24 => ⟨S50000x256, .f32⟩
  | 25 => ⟨S256x256, .f32⟩
  | 26 => ⟨S50000x256, .f32⟩
  | 27 => ⟨S50000x256, .f32⟩
  | 28 => ⟨S50000x256, .f32⟩
  | 29 => ⟨S_, .f32⟩
  | 30 => ⟨S50000x256, .f32⟩
  | 31 => ⟨S50000x256, .f32⟩
  | 32 => ⟨S1x256x256, .f32⟩
  | 33 => ⟨S256x256, .f32⟩
  | 34 => ⟨S1x256, .f32⟩
  | 35 => ⟨S256, .f32⟩
  | 36 => ⟨S1x256x256, .f32⟩
  | 37 => ⟨S256x256, .f32⟩
  | 38 => ⟨S1x300000, .i32⟩
  | 39 => ⟨S300000, .i32⟩
  | 40 => ⟨S_, .i32⟩
  | 41 => ⟨S300000, .i32⟩
  | 42 => ⟨S300000, .i1⟩
  | 43 => ⟨S_, .i32⟩
  | 44 => ⟨S300000, .i32⟩
  | 45 => ⟨S300000, .i32⟩
  | 46 => ⟨S300000, .i32⟩
  | 47 => ⟨S300000x1, .i32⟩
  | 48 => ⟨S300000x256, .f32⟩
  | 49 => ⟨S1x300000, .i32⟩
  | 50 => ⟨S300000, .i32⟩
  | 51 => ⟨S_, .f32⟩
  | 52 => ⟨S50000x256, .f32⟩
  | 53 => ⟨S300000x1, .i32⟩
  | 54 => ⟨S50000x256, .f32⟩
  | 55 => ⟨S_, .f32⟩
  | 56 => ⟨S300000x1, .f32⟩
  | 57 => ⟨S_, .f32⟩
  | 58 => ⟨S50000x1, .f32⟩
  | 59 => ⟨S300000x1, .i32⟩
  | 60 => ⟨S50000x1, .f32⟩
  | 61 => ⟨S_, .f32⟩
  | 62 => ⟨S50000x1, .f32⟩
  | 63 => ⟨S50000x1, .f32⟩
  | 64 => ⟨S50000x256, .f32⟩
  | 65 => ⟨S50000x256, .f32⟩
  | 66 => ⟨S256x256, .f32⟩
  | 67 => ⟨S50000x256, .f32⟩
  | 68 => ⟨S1x256, .f32⟩
  | 69 => ⟨S50000x256, .f32⟩
  | 70 => ⟨S50000x256, .f32⟩
  | 71 => ⟨S256x256, .f32⟩
  | 72 => ⟨S50000x256, .f32⟩
  | 73 => ⟨S50000x256, .f32⟩
  | 74 => ⟨S1x256x256, .f32⟩
  | 75 => ⟨S256x256, .f32⟩
  | 76 => ⟨S1x256, .f32⟩
  | 77 => ⟨S256, .f32⟩
  | 78 => ⟨S1x256x256, .f32⟩
  | 79 => ⟨S256x256, .f32⟩
  | 80 => ⟨S1x300000, .i32⟩
  | 81 => ⟨S300000, .i32⟩
  | 82 => ⟨S_, .i32⟩
  | 83 => ⟨S300000, .i32⟩
  | 84 => ⟨S300000, .i1⟩
  | 85 => ⟨S_, .i32⟩
  | 86 => ⟨S300000, .i32⟩
  | 87 => ⟨S300000, .i32⟩
  | 88 => ⟨S300000, .i32⟩
  | 89 => ⟨S300000x1, .i32⟩
  | 90 => ⟨S300000x256, .f32⟩
  | 91 => ⟨S1x300000, .i32⟩
  | 92 => ⟨S300000, .i32⟩
  | 93 => ⟨S_, .f32⟩
  | 94 => ⟨S50000x256, .f32⟩
  | 95 => ⟨S300000x1, .i32⟩
  | 96 => ⟨S50000x256, .f32⟩
  | 97 => ⟨S_, .f32⟩
  | 98 => ⟨S300000x1, .f32⟩
  | 99 => ⟨S_, .f32⟩
  | 100 => ⟨S50000x1, .f32⟩
  | 101 => ⟨S300000x1, .i32⟩
  | 102 => ⟨S50000x1, .f32⟩
  | 103 => ⟨S_, .f32⟩
  | 104 => ⟨S50000x1, .f32⟩
  | 105 => ⟨S50000x1, .f32⟩
  | 106 => ⟨S50000x256, .f32⟩
  | 107 => ⟨S50000x256, .f32⟩
  | 108 => ⟨S256x256, .f32⟩
  | 109 => ⟨S50000x256, .f32⟩
  | 110 => ⟨S1x256, .f32⟩
  | 111 => ⟨S50000x256, .f32⟩
  | 112 => ⟨S50000x256, .f32⟩
  | 113 => ⟨S256x256, .f32⟩
  | 114 => ⟨S50000x256, .f32⟩
  | 115 => ⟨S50000x256, .f32⟩
  | 116 => ⟨S1x256x256, .f32⟩
  | 117 => ⟨S256x256, .f32⟩
  | 118 => ⟨S1x256, .f32⟩
  | 119 => ⟨S256, .f32⟩
  | 120 => ⟨S1x256x256, .f32⟩
  | 121 => ⟨S256x256, .f32⟩
  | 122 => ⟨S1x300000, .i32⟩
  | 123 => ⟨S300000, .i32⟩
  | 124 => ⟨S_, .i32⟩
  | 125 => ⟨S300000, .i32⟩
  | 126 => ⟨S300000, .i1⟩
  | 127 => ⟨S_, .i32⟩
  | _ => ⟨S50000x1280, .f32⟩

abbrev hbmTy0_2 (i : Nat) : BufTy := match i % 128 with
  | 0 => ⟨S300000, .i32⟩
  | 1 => ⟨S300000, .i32⟩
  | 2 => ⟨S300000, .i32⟩
  | 3 => ⟨S300000x1, .i32⟩
  | 4 => ⟨S300000x256, .f32⟩
  | 5 => ⟨S1x300000, .i32⟩
  | 6 => ⟨S300000, .i32⟩
  | 7 => ⟨S_, .f32⟩
  | 8 => ⟨S50000x256, .f32⟩
  | 9 => ⟨S300000x1, .i32⟩
  | 10 => ⟨S50000x256, .f32⟩
  | 11 => ⟨S_, .f32⟩
  | 12 => ⟨S300000x1, .f32⟩
  | 13 => ⟨S_, .f32⟩
  | 14 => ⟨S50000x1, .f32⟩
  | 15 => ⟨S300000x1, .i32⟩
  | 16 => ⟨S50000x1, .f32⟩
  | 17 => ⟨S_, .f32⟩
  | 18 => ⟨S50000x1, .f32⟩
  | 19 => ⟨S50000x1, .f32⟩
  | 20 => ⟨S50000x256, .f32⟩
  | 21 => ⟨S50000x256, .f32⟩
  | 22 => ⟨S256x256, .f32⟩
  | 23 => ⟨S50000x256, .f32⟩
  | 24 => ⟨S1x256, .f32⟩
  | 25 => ⟨S50000x256, .f32⟩
  | 26 => ⟨S50000x256, .f32⟩
  | 27 => ⟨S256x256, .f32⟩
  | 28 => ⟨S50000x256, .f32⟩
  | 29 => ⟨S50000x256, .f32⟩
  | 30 => ⟨S50000x256, .f32⟩
  | 31 => ⟨S1x200000, .i32⟩
  | 32 => ⟨S200000, .i32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x256, .f32⟩
  | 42 => ⟨S1x200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x256, .f32⟩
  | 53 => ⟨S200000x256, .f32⟩
  | 54 => ⟨S_, .f32⟩
  | 55 => ⟨S200000, .f32⟩
  | 56 => ⟨S1x200000, .i32⟩
  | 57 => ⟨S200000, .i32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S200000x256, .f32⟩
  | 67 => ⟨S1x200000, .i32⟩
  | 68 => ⟨S200000, .i32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S200000x256, .f32⟩
  | 78 => ⟨S200000x256, .f32⟩
  | 79 => ⟨S_, .f32⟩
  | 80 => ⟨S200000, .f32⟩
  | _ => ⟨S50000x1280, .f32⟩

abbrev hbmTy (i : Nat) : BufTy := match i / 128 with
  | 0 => hbmTy0_0 i
  | 1 => hbmTy0_1 i
  | 2 => hbmTy0_2 i
  | _ => ⟨S50000x1280, .f32⟩

abbrev bufTy : (tb : Table) → Fin (tcTables nBuf tb) → BufTy
  | .hbm, ⟨i, _⟩ => hbmTy i
  | _, _ => ⟨S50000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_4 : Ref sig .tc := ⟨.hbm, 80, rfl⟩
abbrev main_v55 : Ref sig .tc := ⟨.hbm, 81, rfl⟩
abbrev main_v56 : Ref sig .tc := ⟨.hbm, 82, rfl⟩
abbrev main_c_5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_6 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_7 : Ref sig .tc := ⟨.hbm, 95, rfl⟩
abbrev main_v67 : Ref sig .tc := ⟨.hbm, 96, rfl⟩
abbrev main_cst_8 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_9 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_10 : Ref sig .tc := ⟨.hbm, 122, rfl⟩
abbrev main_v91 : Ref sig .tc := ⟨.hbm, 123, rfl⟩
abbrev main_v92 : Ref sig .tc := ⟨.hbm, 124, rfl⟩
abbrev main_c_11 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_12 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_13 : Ref sig .tc := ⟨.hbm, 137, rfl⟩
abbrev main_v103 : Ref sig .tc := ⟨.hbm, 138, rfl⟩
abbrev main_cst_14 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_15 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_call1_cst : Ref sig .tc := ⟨.hbm, 157, rfl⟩
abbrev main_call1_v0 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_c_16 : Ref sig .tc := ⟨.hbm, 168, rfl⟩
abbrev main_v129 : Ref sig .tc := ⟨.hbm, 169, rfl⟩
abbrev main_v130 : Ref sig .tc := ⟨.hbm, 170, rfl⟩
abbrev main_c_17 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_18 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_19 : Ref sig .tc := ⟨.hbm, 183, rfl⟩
abbrev main_v141 : Ref sig .tc := ⟨.hbm, 184, rfl⟩
abbrev main_cst_20 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_21 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_c_22 : Ref sig .tc := ⟨.hbm, 210, rfl⟩
abbrev main_v165 : Ref sig .tc := ⟨.hbm, 211, rfl⟩
abbrev main_v166 : Ref sig .tc := ⟨.hbm, 212, rfl⟩
abbrev main_c_23 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_24 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_cst_25 : Ref sig .tc := ⟨.hbm, 225, rfl⟩
abbrev main_v177 : Ref sig .tc := ⟨.hbm, 226, rfl⟩
abbrev main_cst_26 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_cst_27 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_c_28 : Ref sig .tc := ⟨.hbm, 252, rfl⟩
abbrev main_v201 : Ref sig .tc := ⟨.hbm, 253, rfl⟩
abbrev main_v202 : Ref sig .tc := ⟨.hbm, 254, rfl⟩
abbrev main_c_29 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_cst_30 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_cst_31 : Ref sig .tc := ⟨.hbm, 267, rfl⟩
abbrev main_v213 : Ref sig .tc := ⟨.hbm, 268, rfl⟩
abbrev main_cst_32 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_cst_33 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_c_34 : Ref sig .tc := ⟨.hbm, 289, rfl⟩
abbrev main_v232 : Ref sig .tc := ⟨.hbm, 290, rfl⟩
abbrev main_v233 : Ref sig .tc := ⟨.hbm, 291, rfl⟩
abbrev main_c_35 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_c_36 : Ref sig .tc := ⟨.hbm, 300, rfl⟩
abbrev main_v241 : Ref sig .tc := ⟨.hbm, 301, rfl⟩
abbrev main_v242 : Ref sig .tc := ⟨.hbm, 302, rfl⟩
abbrev main_c_37 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_cst_38 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_c_39 : Ref sig .tc := ⟨.hbm, 314, rfl⟩
abbrev main_v252 : Ref sig .tc := ⟨.hbm, 315, rfl⟩
abbrev main_v253 : Ref sig .tc := ⟨.hbm, 316, rfl⟩
abbrev main_c_40 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_c_41 : Ref sig .tc := ⟨.hbm, 325, rfl⟩
abbrev main_v261 : Ref sig .tc := ⟨.hbm, 326, rfl⟩
abbrev main_v262 : Ref sig .tc := ⟨.hbm, 327, rfl⟩
abbrev main_c_42 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_cst_43 : Ref sig .tc := ⟨.hbm, 335, rfl⟩
abbrev main_v269 : Ref sig .tc := ⟨.hbm, 336, rfl⟩

abbrev nD : Nat := 1
abbrev τ : Topo := Topo.v7x

variable {F : FTy → Type} [FloatOps F]

class Facts₀ : Prop where
  transposes_S256x1280_S1280x256_1_0 : S256x1280.Transposes [1, 0] S1280x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_1_0_0 : S3x256x256.Slices ![1, 0, 0] S1x256x256
  shapeCasts_S1x256x256_S256x256 : S1x256x256.ShapeCasts S256x256
  slices_S3x256_S1x256_1_0 : S3x256.Slices ![1, 0] S1x256
  shapeCasts_S1x256_S256 : S1x256.ShapeCasts S256
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  bcast_S_S50000x256 : S_.BroadcastsInDim S50000x256 (![] : Fin 0 → Fin S50000x256.rank)
  bcast_S_S300000x1 : S_.BroadcastsInDim S300000x1 (![] : Fin 0 → Fin S300000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  slices_S3x256x256_S1x256x256_0_0_0 : S3x256x256.Slices ![0, 0, 0] S1x256x256
  slices_S3x256_S1x256_0_0 : S3x256.Slices ![0, 0] S1x256
  slices_S3x256x256_S1x256x256_2_0_0 : S3x256x256.Slices ![2, 0, 0] S1x256x256
  slices_S3x256_S1x256_2_0 : S3x256.Slices ![2, 0] S1x256
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x256_S200000_d1 : S200000x256.ReducesTo [1] S200000
  h_S_ : 0 < S_.numel
  dot_S50000x1280_S1280x256_S50000x256_1_0_0_1_n_n_wf : DotDims.WF S50000x1280 S1280x256 S50000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000x1_S300000x1_S300000x1_1_0_0_1_wf : ScatterDims.WF S50000x1 S300000x1 S300000x1 [1] [0] [0] 1
  dot_S50000x256_S256x256_S50000x256_1_0_0_1_n_n_wf : DotDims.WF S50000x256 S256x256 S50000x256 [1] [0] [0] [1] [] []
  gather_S50000x256_S200000x1_S200000x256_1_0_n_n_0_1_1256_wf : GatherDims.WF S50000x256 S200000x1 S200000x256 [1] [0] [] [0] [] 1 ![1, 256]

variable [Facts₀]

def dot_S50000x1280_S1280x256_S50000x256_1_0_0_1_n_n : DotDims S50000x1280 S1280x256 S50000x256 where
  lhsContracting := [1]
  rhsContracting := [0]
  lhsNonContracting := [0]
  rhsNonContracting := [1]
  lhsBatch := []
  rhsBatch := []
  wf := dot_S50000x1280_S1280x256_S50000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000x1_S300000x1_S300000x1_1_0_0_1 : ScatterDims S50000x1 S300000x1 S300000x1 where
  updateWindowDims := [1]
  insertedWindowDims := [0]
  scatterDimsToOperandDims := [0]
  indexVectorDim := 1
  wf := scatter_S50000x1_S300000x1_S300000x1_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf

class Facts : Prop extends Facts₀ where

variable [Facts]
-- ==== Proof.Boundary.lean ====
/-
  The idealized kernel's run, with every buffer named.

  @main is seventeen segments: nine stretches of host operations and, between them, eight kernel regions.  The
  contents of the TensorCore's buffers at each boundary are a fold from the launch memory: a stretch applies its
  operations, a region replaces its windows' arrays by what its write-backs leave.  The last boundary's contents
  are `W17`.  Every weakly fair execution of @main terminates, nothing faulting, with EVERY unscoped buffer at its
  `W17` contents — in particular both results, which the value proof reads back through the fold.
-/
import proofs.«103163_j26482768347972_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters, every weakly fair execution of @main terminates without a fault,
    and in the final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

end Cert.KernelIdeal.Boundary

end
-- ==== Proof.PayProj.lean ====
/-
  The projection body's arithmetic at a row and a column.

  One grid point holds 2000 rows of the input.  Row r, column j of what it stores is the product of row r of the
  block with column j of the (already transposed) weight, summed over the 1280 features, plus the bias of column j.
  On the extended reals a change of float format is the identity and the accumulator starts at zero, so nothing
  else is left of the body.
-/
import proofs.«103163_j26482768347972_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The dimension numbers of a 2000 × 1280 block times the 1280 × 256 weight. -/
abbrev dProj := dot_S2000x1280_S1280x256_S2000x256_1_0_0_1_n_n

/-- The left operand's row is the result's row. -/
theorem dProj_lhs0 (i : S2000x256.Idx) (q : dProj.contr.Idx) : (dProj.lhsIdx i q 0).val = (i 0).val := by
  unfold DotDims.lhsIdx
  rw [dif_neg (show ¬(0 : Fin S2000x1280.rank) ∈ dProj.lhsBatch by decide), dif_pos (show (0 : Fin S2000x1280.rank) ∈ dProj.lhsNonContracting by decide)]
  rfl

/-- The right operand's column is the result's column. -/
theorem dProj_rhs1 (i : S2000x256.Idx) (q : dProj.contr.Idx) : (dProj.rhsIdx i q 1).val = (i 1).val := by
  unfold DotDims.rhsIdx
  rw [dif_neg (show ¬(1 : Fin S1280x256.rank) ∈ dProj.rhsBatch by decide), dif_pos (show (1 : Fin S1280x256.rank) ∈ dProj.rhsNonContracting by decide)]
  rfl

/-- A block product into the zero accumulator, at row r and column j: the sum over the 1280 features. -/
theorem matmulProj_apply (x : FVec Ideal S2000x1280 .bf16) (w : FVec Ideal S1280x256 .bf16) (r : Fin 2000) (j : Fin 256) :
    matmul dProj none x w (constant (F := Ideal) S2000x256 .f32 0x00000000#32) (ix2 r j)
      = ∑ k : Fin 1280, x (ix2 r k) * w (ix2 k j) := by
  simp only [matmul]
  rw [Ideal.matmul_constant_zero_apply, ← Equiv.sum_comp (contrEquiv1 dProj 1280 rfl rfl).symm]
  refine Finset.sum_congr rfl fun k _ => ?_
  have hk := contrEquiv1_symm_val dProj 1280 rfl rfl k
  have el : dProj.lhsIdx (ix2 r j) ((contrEquiv1 dProj 1280 rfl rfl).symm k) = ix2 r k := funext fun a => Fin.ext (by
    match a with
    | ⟨0, _⟩ => exact dProj_lhs0 _ _
    | ⟨1, _⟩ => exact (dProj.lhsIdx_val_of_single rfl _ _).trans hk)
  have er : dProj.rhsIdx (ix2 r j) ((contrEquiv1 dProj 1280 rfl rfl).symm k) = ix2 k j := funext fun a => Fin.ext (by
    match a with
    | ⟨0, _⟩ => exact (dProj.rhsIdx_val_of_single rfl _ _).trans hk
    | ⟨1, _⟩ => exact dProj_rhs1 _ _)
  rw [el, er]

/-- The first projection's body at row r, column j. -/
theorem k0_pay1_apply (x : Vec Ideal S2000x1280 .f32) (w : Vec Ideal S1280x256 .bf16) (b : Vec Ideal S1x256 .f32)
    (r : Fin 2000) (j : Fin 256) :
    k0_pay1 (F := Ideal) x w b (ix2 r j) = (∑ k : Fin 1280, x (ix2 r k) * w (ix2 k j)) + b (ix2 (0 : Fin 1) j) := by
  unfold k0_pay1
  show FloatOps.addf (matmul dProj none (truncf .bf16 x bitsLt_bf16_f32) (shapeCast S1280x256 w shapeCasts_S1280x256_S1280x256)
      (constant (F := Ideal) S2000x256 .f32 0x00000000#32) (ix2 r j))
      (broadcastTo S2000x256 (shapeCast S1x256 b shapeCasts_S1x256_S1x256) broadcasts_S1x256_S2000x256 (ix2 r j)) = _
  rw [shapeCast_self, shapeCast_self, matmulProj_apply, broadcastTo_1b_ab_apply]
  rfl

/-- The second projection's body is the same arithmetic. -/
theorem k1_pay1_apply (x : Vec Ideal S2000x1280 .f32) (w : Vec Ideal S1280x256 .bf16) (b : Vec Ideal S1x256 .f32)
    (r : Fin 2000) (j : Fin 256) :
    k1_pay1 (F := Ideal) x w b (ix2 r j) = (∑ k : Fin 1280, x (ix2 r k) * w (ix2 k j)) + b (ix2 (0 : Fin 1) j) :=
  k0_pay1_apply x w b r j

end Cert.KernelIdeal.Pay

end
-- ==== Proof.Spec.lean ====
/-
  The specification: what each of the eight kernel regions computes, as ONE function of whole arrays, index by index,
  on the extended reals.  No program is imported here; both the kernel's side and the reference's side state their
  results with these terms.

  * a projection: node p's feature j is its 1280 input features against column j of the transposed weight, plus the bias;
  * a one-relation combine: the neighbour mean's row against the left weight, plus the node's own row against the right
    weight, plus the bias — and, in the first layer, the larger of that and zero;
  * a two-relation combine: both relations' pairs of products, in the order the body adds them, plus the summed bias;
  * an edge score: the sum over the 256 hidden features of the two gathered rows' products.

  The rectifier's zero is kept as the literal it is printed as: the reference compares against the same word.
-/
import Idealize.ShloMosaic.PureOps.Ideal
import Idealize.ShloMosaic.Lib.ValueIdx

noncomputable section

namespace Cert.Spec

open Idealize.ShloMosaic Idealize.ShloMosaic.ValueIdx

/-- An array of extended reals with a rows and b columns. -/
abbrev Mat (a b : Nat) : Type := (⟨2, ![a, b]⟩ : Shape).Idx → EReal

/-- The zero the rectifier compares against, as printed. -/
abbrev zeroWord : EReal := Ideal.ofBits .f32 0x00000000#32

/-- Row p of x against column j of w, over n contracted entries. -/
def dotAt {a n b : Nat} (x : Mat a n) (w : Mat n b) (p : Fin a) (j : Fin b) : EReal :=
  ∑ k : Fin n, x (ix2 p k) * w (ix2 k j)

/-- An array from its entries at a row and a column. -/
def ofEntries {a b : Nat} (f : Fin a → Fin b → EReal) : Mat a b :=
  fun i => f ⟨(i 0).val, idx2_lt0 i⟩ ⟨(i 1).val, idx2_lt1 i⟩

theorem ofEntries_ix2 {a b : Nat} (f : Fin a → Fin b → EReal) (p : Fin a) (j : Fin b) : ofEntries f (ix2 p j) = f p j := rfl

/-- A projection: x · w + b. -/
def proj (x : Mat 50000 1280) (w : Mat 1280 256) (b : Mat 1 256) : Mat 50000 256 :=
  ofEntries fun p j => dotAt x w p j + b (ix2 (0 : Fin 1) j)

/-- One relation: m · wl + xd · wr + b, before the rectifier. -/
def lin2At (m xd : Mat 50000 256) (wl wr : Mat 256 256) (b : Mat 1 256) (p : Fin 50000) (j : Fin 256) : EReal :=
  (dotAt m wl p j + dotAt xd wr p j) + b (ix2 (0 : Fin 1) j)

def comb2 (m xd : Mat 50000 256) (wl wr : Mat 256 256) (b : Mat 1 256) : Mat 50000 256 :=
  ofEntries fun p j => lin2At m xd wl wr b p j

def comb2relu (m xd : Mat 50000 256) (wl wr : Mat 256 256) (b : Mat 1 256) : Mat 50000 256 :=
  ofEntries fun p j => max (lin2At m xd wl wr b p j) zeroWord

/-- Two relations into one node type, in the body's order of addition, before the rectifier. -/
def lin4At (m0 m1 xd : Mat 50000 256) (wl0 wr0 wl1 wr1 : Mat 256 256) (b : Mat 1 256) (p : Fin 50000) (j : Fin 256) : EReal :=
  (((dotAt m0 wl0 p j + dotAt xd wr0 p j) + dotAt m1 wl1 p j) + dotAt xd wr1 p j) + b (ix2 (0 : Fin 1) j)

def comb4 (m0 m1 xd : Mat 50000 256) (wl0 wr0 wl1 wr1 : Mat 256 256) (b : Mat 1 256) : Mat 50000 256 :=
  ofEntries fun p j => lin4At m0 m1 xd wl0 wr0 wl1 wr1 b p j

def comb4relu (m0 m1 xd : Mat 50000 256) (wl0 wr0 wl1 wr1 : Mat 256 256) (b : Mat 1 256) : Mat 50000 256 :=
  ofEntries fun p j => max (lin4At m0 m1 xd wl0 wr0 wl1 wr1 b p j) zeroWord

/-- An edge score per labelled edge: the two gathered rows' products, summed. -/
def rowdot (u v : Mat 200000 256) : Mat 200000 1 :=
  ofEntries fun e _ => ∑ k : Fin 256, u (ix2 e k) * v (ix2 e k)

end Cert.Spec

end
-- ==== Proof.Arr0.lean ====
/-
  The first projection's result array as ONE function of the arrays the region finds.

  The region has 25 grid points.  Point t fetches rows 2000·t … 2000·t + 1999 of the node features, the whole
  transposed weight and the whole bias row, and writes back rows 2000·t … 2000·t + 1999 of the result.  So the
  result's entry at node p and column j is the sum over the 1280 input features of feature k of node p times
  the weight at (k, j), plus the bias at j — whichever point wrote it — and the 25 blocks tile the 50000 rows.
-/
import proofs.«103163_j26482768347972_1_alg».proof.Proof.Gen.KernelIdeal.Frame
import proofs.«103163_j26482768347972_1_alg».proof.Proof.PayProj
import proofs.«103163_j26482768347972_1_alg».proof.Proof.Spec
import Idealize.ShloMosaic.Lib.Pipeline.Value

set_option maxRecDepth 16384

noncomputable section

namespace Cert.KernelIdeal.Arr0

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node-feature window and the result window sit at block row t, the
    weight and the bias at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 25 := Nat.lt_of_lt_of_eq t.isLt N_0

/-- The node that row r of point t's block is. -/
def row (t : Fin cfg0.N) (r : Fin 2000) : Fin 50000 := ⟨t.val * 2000 + r.val, by have := t_lt t; have := r.isLt; omega⟩

/-- Point t's block of the node features, at row r and feature k, is node `row t r`'s feature k. -/
theorem read_x (c : Dev nD) (t : Fin cfg0.N) (r : Fin 2000) (k : Fin 1280) :
    iblk0 V c 0 t (ix2 r k) = V c main_arg0 (ix2 (row t r) k) := by
  obtain ⟨e0, e1, -⟩ := idx_facts t
  show V c main_arg0 (((cfg0.win 0).blk t).view.emb (ix2 r k)) = _
  refine congrArg (V c main_arg0) (funext fun a => Fin.ext ?_)
  match a with
  | ⟨0, _⟩ => show win0_0.index t (0 : Fin 2) * 2000 + 1 * r.val = t.val * 2000 + r.val; omega
  | ⟨1, _⟩ => show win0_0.index t (1 : Fin 2) * 1280 + 1 * k.val = k.val; omega

/-- Every point's block of the weight is the weight. -/
theorem read_w (c : Dev nD) (t : Fin cfg0.N) (k : Fin 1280) (j : Fin 256) :
    iblk0 V c 1 t (ix2 k j) = V c main_v1 (ix2 k j) := by
  obtain ⟨-, -, e2, e3, -⟩ := idx_facts t
  show V c main_v1 (((cfg0.win 1).blk t).view.emb (ix2 k j)) = _
  refine congrArg (V c main_v1) (funext fun a => Fin.ext ?_)
  match a with
  | ⟨0, _⟩ => show win0_1.index t (0 : Fin 2) * 1280 + 1 * k.val = k.val; omega
  | ⟨1, _⟩ => show win0_1.index t (1 : Fin 2) * 256 + 1 * j.val = j.val; omega

/-- Every point's block of the bias row is the bias row. -/
theorem read_b (c : Dev nD) (t : Fin cfg0.N) (j : Fin 256) :
    iblk0 V c 2 t (ix2 (0 : Fin 1) j) = V c main_v2 (ix2 (0 : Fin 1) j) := by
  obtain ⟨-, -, -, -, e4, e5, -⟩ := idx_facts t
  show V c main_v2 (((cfg0.win 2).blk t).view.emb (ix2 (0 : Fin 1) j)) = _
  refine congrArg (V c main_v2) (funext fun a => Fin.ext ?_)
  match a with
  | ⟨0, _⟩ => show win0_2.index t (0 : Fin 2) * 1 + 1 * 0 = 0; omega
  | ⟨1, _⟩ => show win0_2.index t (1 : Fin 2) * 256 + 1 * j.val = j.val; omega

/-- Row r, column j of point t's result block is the result's entry at node `row t r`, column j. -/
theorem emb_out (t : Fin cfg0.N) (r : Fin 2000) (j : Fin 256) :
    ((cfg0.win 3).blk t).view.emb (ix2 r j) = ix2 (row t r) j := by
  obtain ⟨-, -, -, -, -, -, e6, e7⟩ := idx_facts t
  refine funext fun a => Fin.ext ?_
  match a with
  | ⟨0, _⟩ => show win0_3.index t (0 : Fin 2) * 2000 + 1 * r.val = t.val * 2000 + r.val; omega
  | ⟨1, _⟩ => show win0_3.index t (1 : Fin 2) * 256 + 1 * j.val = j.val; omega

/-- WHAT POINT t WRITES BACK is block t of the projection of the arrays as the region finds them. -/
theorem flushed_eq (c : Dev nD) (t : Fin cfg0.N) :
    (dat0 V c).flushed 3 t
      = ((cfg0.win 3).blk t).view.read (Elt Ideal) (Spec.proj (V c main_arg0) (V c main_v1) (V c main_v2)) := by
  show (cfg0.win 3).cut (grid0.coords t) ((dat0 V c).after 3 t) = _
  rw [after0_3]
  unfold out0_3
  rw [View.canon_unit_zero hz]
  simp only [View.ld_unit_zero (S := S2000x1280) hz, View.ld_unit_zero (S := S1280x256) hz, View.ld_unit_zero (S := S1x256) hz]
  funext y
  obtain ⟨r, j, rfl⟩ : ∃ (r : Fin 2000) (j : Fin 256), (y : S2000x256.Idx) = ix2 r j := ⟨y 0, y 1, eq_ix2 y⟩
  show k0_pay1 (F := Ideal) (iblk0 V c 0 t) (iblk0 V c 1 t) (iblk0 V c 2 t) (ix2 r j)
    = Spec.proj (V c main_arg0) (V c main_v1) (V c main_v2) (((cfg0.win 3).blk t).view.emb (ix2 r j))
  rw [emb_out t r j]
  refine (k0_pay1_apply (iblk0 V c 0 t) (iblk0 V c 1 t) (iblk0 V c 2 t) r j).trans ?_
  show _ = Spec.dotAt (V c main_arg0) (V c main_v1) (row t r) j + (V c main_v2 (ix2 (0 : Fin 1) j) : EReal)
  unfold Spec.dotAt
  simp only [read_x V c t r, read_w V c t, read_b V c t j]

/-- An entry of the result is in point t's block iff each coordinate is in the block's range on its axis. -/
theorem mem_blk (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v3).slice (win0_3.rect t)).set ↔ _
  rw [View.set_slice_whole, Rect.mem_set_unit]
  exact Iff.rfl

/-- The 25 blocks tile the result: node p's row is in the block of point p / 2000. -/
theorem cover (i : S50000x256.Idx) :
    ∃ t : Fin cfg0.N, (cfg0.win 3).flush t = true ∧ i ∈ ((cfg0.win 3).blk t).view.set := by
  have hi0 : (i 0).val < 50000 := idx2_lt0 i
  have hi1 : (i 1).val < 256 := idx2_lt1 i
  have hN : cfg0.N = 25 := N_0
  refine ⟨⟨(i 0).val / 2000, by rw [hN]; omega⟩, flush0_3 _, ?_⟩
  obtain ⟨-, -, -, -, -, -, e6, e7⟩ := idx_facts ⟨(i 0).val / 2000, by rw [hN]; omega⟩
  rw [mem_blk]
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e7]; omega

/-- THE RESULT ARRAY after the region: the projection of the arrays the region found. -/
theorem final (c : Dev nD) :
    (dat0 V c).arrAt 3 cfg0.N = Spec.proj (V c main_arg0) (V c main_v1) (V c main_v2) :=
  (dat0 V c).arrAt_eq_of_cover 3 _ (fun t _ => flushed_eq V c t) cover

end Cert.KernelIdeal.Arr0

end
-- ==== Proof.Arr1.lean ====
/-
  The second projection's result array (the protein side) as ONE function of the arrays the region finds.

  The region has 25 grid points.  Point t fetches rows 2000·t … 2000·t + 1999 of the node features, the whole
  transposed weight and the whole bias row, and writes back rows 2000·t … 2000·t + 1999 of the result.  So the
  result's entry at node p and column j is the sum over the 1280 input features of feature k of node p times
  the weight at (k, j), plus the bias at j — whichever point wrote it — and the 25 blocks tile the 50000 rows.
-/
import proofs.«103163_j26482768347972_1_alg».proof.Proof.Gen.KernelIdeal.Frame
import proofs.«103163_j26482768347972_1_alg».proof.Proof.PayProj
import proofs.«103163_j26482768347972_1_alg».proof.Proof.Spec
import Idealize.ShloMosaic.Lib.Pipeline.Value

set_option maxRecDepth 16384

noncomputable section

namespace Cert.KernelIdeal.Arr1

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node-feature window and the result window sit at block row t, the
    weight and the bias at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 25 := Nat.lt_of_lt_of_eq t.isLt N_1

/-- The node that row r of point t's block is. -/
def row (t : Fin cfg1.N) (r : Fin 2000) : Fin 50000 := ⟨t.val * 2000 + r.val, by have := t_lt t; have := r.isLt; omega⟩

/-- Point t's block of the node features, at row r and feature k, is node `row t r`'s feature k. -/
theorem read_x (c : Dev nD) (t : Fin cfg1.N) (r : Fin 2000) (k : Fin 1280) :
    iblk1 V c 0 t (ix2 r k) = V c main_arg1 (ix2 (row t r) k) := by
  obtain ⟨e0, e1, -⟩ := idx_facts t
  show V c main_arg1 (((cfg1.win 0).blk t).view.emb (ix2 r k)) = _
  refine congrArg (V c main_arg1) (funext fun a => Fin.ext ?_)
  match a with
  | ⟨0, _⟩ => show win1_0.index t (0 : Fin 2) * 2000 + 1 * r.val = t.val * 2000 + r.val; omega
  | ⟨1, _⟩ => show win1_0.index t (1 : Fin 2) * 1280 + 1 * k.val = k.val; omega

/-- Every point's block of the weight is the weight. -/
theorem read_w (c : Dev nD) (t : Fin cfg1.N) (k : Fin 1280) (j : Fin 256) :
    iblk1 V c 1 t (ix2 k j) = V c main_v5 (ix2 k j) := by
  obtain ⟨-, -, e2, e3, -⟩ := idx_facts t
  show V c main_v5 (((cfg1.win 1).blk t).view.emb (ix2 k j)) = _
  refine congrArg (V c main_v5) (funext fun a => Fin.ext ?_)
  match a with
  | ⟨0, _⟩ => show win1_1.index t (0 : Fin 2) * 1280 + 1 * k.val = k.val; omega
  | ⟨1, _⟩ => show win1_1.index t (1 : Fin 2) * 256 + 1 * j.val = j.val; omega

/-- Every point's block of the bias row is the bias row. -/
theorem read_b (c : Dev nD) (t : Fin cfg1.N) (j : Fin 256) :
    iblk1 V c 2 t (ix2 (0 : Fin 1) j) = V c main_v6 (ix2 (0 : Fin 1) j) := by
  obtain ⟨-, -, -, -, e4, e5, -⟩ := idx_facts t
  show V c main_v6 (((cfg1.win 2).blk t).view.emb (ix2 (0 : Fin 1) j)) = _
  refine congrArg (V c main_v6) (funext fun a => Fin.ext ?_)
  match a with
  | ⟨0, _⟩ => show win1_2.index t (0 : Fin 2) * 1 + 1 * 0 = 0; omega
  | ⟨1, _⟩ => show win1_2.index t (1 : Fin 2) * 256 + 1 * j.val = j.val; omega

/-- Row r, column j of point t's result block is the result's entry at node `row t r`, column j. -/
theorem emb_out (t : Fin cfg1.N) (r : Fin 2000) (j : Fin 256) :
    ((cfg1.win 3).blk t).view.emb (ix2 r j) = ix2 (row t r) j := by
  obtain ⟨-, -, -, -, -, -, e6, e7⟩ := idx_facts t
  refine funext fun a => Fin.ext ?_
  match a with
  | ⟨0, _⟩ => show win1_3.index t (0 : Fin 2) * 2000 + 1 * r.val = t.val * 2000 + r.val; omega
  | ⟨1, _⟩ => show win1_3.index t (1 : Fin 2) * 256 + 1 * j.val = j.val; omega

/-- WHAT POINT t WRITES BACK is block t of the projection of the arrays as the region finds them. -/
theorem flushed_eq (c : Dev nD) (t : Fin cfg1.N) :
    (dat1 V c).flushed 3 t
      = ((cfg1.win 3).blk t).view.read (Elt Ideal) (Spec.proj (V c main_arg1) (V c main_v5) (V c main_v6)) := by
  show (cfg1.win 3).cut (grid1.coords t) ((dat1 V c).after 3 t) = _
  rw [after1_3]
  unfold out1_3
  rw [View.canon_unit_zero hz]
  simp only [View.ld_unit_zero (S := S2000x1280) hz, View.ld_unit_zero (S := S1280x256) hz, View.ld_unit_zero (S := S1x256) hz]
  funext y
  obtain ⟨r, j, rfl⟩ : ∃ (r : Fin 2000) (j : Fin 256), (y : S2000x256.Idx) = ix2 r j := ⟨y 0, y 1, eq_ix2 y⟩
  show k1_pay1 (F := Ideal) (iblk1 V c 0 t) (iblk1 V c 1 t) (iblk1 V c 2 t) (ix2 r j)
    = Spec.proj (V c main_arg1) (V c main_v5) (V c main_v6) (((cfg1.win 3).blk t).view.emb (ix2 r j))
  rw [emb_out t r j]
  refine (k1_pay1_apply (iblk1 V c 0 t) (iblk1 V c 1 t) (iblk1 V c 2 t) r j).trans ?_
  show _ = Spec.dotAt (V c main_arg1) (V c main_v5) (row t r) j + (V c main_v6 (ix2 (0 : Fin 1) j) : EReal)
  unfold Spec.dotAt
  simp only [read_x V c t r, read_w V c t, read_b V c t j]

/-- An entry of the result is in point t's block iff each coordinate is in the block's range on its axis. -/
theorem mem_blk (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v7).slice (win1_3.rect t)).set ↔ _
  rw [View.set_slice_whole, Rect.mem_set_unit]
  exact Iff.rfl

/-- The 25 blocks tile the result: node p's row is in the block of point p / 2000. -/
theorem cover (i : S50000x256.Idx) :
    ∃ t : Fin cfg1.N, (cfg1.win 3).flush t = true ∧ i ∈ ((cfg1.win 3).blk t).view.set := by
  have hi0 : (i 0).val < 50000 := idx2_lt0 i
  have hi1 : (i 1).val < 256 := idx2_lt1 i
  have hN : cfg1.N = 25 := N_1
  refine ⟨⟨(i 0).val / 2000, by rw [hN]; omega⟩, flush1_3 _, ?_⟩
  obtain ⟨-, -, -, -, -, -, e6, e7⟩ := idx_facts ⟨(i 0).val / 2000, by rw [hN]; omega⟩
  rw [mem_blk]
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 256 ≤ (i 1).val ∧ (i 1).val < win1_3.index _ (1 : Fin 2) * 256 + 256
    rw [e7]; omega

/-- THE RESULT ARRAY after the region: the projection of the arrays the region found. -/
theorem final (c : Dev nD) :
    (dat1 V c).arrAt 3 cfg1.N = Spec.proj (V c main_arg1) (V c main_v5) (V c main_v6) :=
  (dat1 V c).arrAt_eq_of_cover 3 _ (fun t _ => flushed_eq V c t) cover

end Cert.KernelIdeal.Arr1

end
-- ==== Proof.SpecLaws.lean ====
/-
  The laws that join the two programs' arrangements of one quantity.

  The kernel adds a layer's terms in the order its body computes them and reads its bias from a 1 × 256 row; the
  reference adds each relation's bias right after that relation's first product and reads it from a vector of 256
  entries.  On the extended reals addition is commutative and associative at infinities too, so the rearrangements
  below need no finiteness.  The projection is also brought to the arguments themselves: the kernel multiplies by a
  transposed copy of the weight, which read back is the weight with its coordinates swapped.
-/
import proofs.«103163_j26482768347972_1_alg».proof.Proof.Spec

noncomputable section

namespace Cert.Spec

open Idealize.ShloMosaic Idealize.ShloMosaic.ValueIdx

/-- A vector of n extended reals. -/
abbrev Vec1 (n : Nat) : Type := (⟨1, ![n]⟩ : Shape).Idx → EReal

/-! ## The projection in the arguments -/

/-- Node p's feature j from the untransposed weight and the bias vector. -/
def projN (a0 : Mat 50000 1280) (a2 : Mat 256 1280) (a3 : Vec1 256) : Mat 50000 256 :=
  ofEntries fun p j => (∑ k : Fin 1280, a0 (ix2 p k) * a2 (ix2 j k)) + a3 (ix1 j)

/-- Multiplying by a copy of the weight with its coordinates swapped, and adding the bias as a one-row array. -/
theorem proj_eq_projN (x : Mat 50000 1280) (w : Mat 1280 256) (b : Mat 1 256) (a2 : Mat 256 1280) (a3 : Vec1 256)
    (hw : ∀ (k : Fin 1280) (j : Fin 256), w (ix2 k j) = a2 (ix2 j k)) (hb : ∀ j : Fin 256, b (ix2 (0 : Fin 1) j) = a3 (ix1 j)) :
    proj x w b = projN x a2 a3 := by
  funext i
  unfold proj projN ofEntries dotAt
  simp only [hw, hb]

/-! ## One relation, in the reference's order -/

/-- (m · wl + bias) + xd · wr. -/
def lin2RAt (m xd : Mat 50000 256) (wl wr : Mat 256 256) (b1 : Vec1 256) (p : Fin 50000) (j : Fin 256) : EReal :=
  (dotAt m wl p j + b1 (ix1 j)) + dotAt xd wr p j

def comb2R (m xd : Mat 50000 256) (wl wr : Mat 256 256) (b1 : Vec1 256) : Mat 50000 256 :=
  ofEntries fun p j => lin2RAt m xd wl wr b1 p j

def comb2reluR (m xd : Mat 50000 256) (wl wr : Mat 256 256) (b1 : Vec1 256) : Mat 50000 256 :=
  ofEntries fun p j => max (lin2RAt m xd wl wr b1 p j) zeroWord

theorem lin2At_eq (m xd : Mat 50000 256) (wl wr : Mat 256 256) (b : Mat 1 256) (b1 : Vec1 256)
    (hb : ∀ j : Fin 256, b (ix2 (0 : Fin 1) j) = b1 (ix1 j)) (p : Fin 50000) (j : Fin 256) :
    lin2At m xd wl wr b p j = lin2RAt m xd wl wr b1 p j := by
  unfold lin2At lin2RAt
  rw [hb]
  exact add_right_comm _ _ _

theorem comb2_eq_comb2R (m xd : Mat 50000 256) (wl wr : Mat 256 256) (b : Mat 1 256) (b1 : Vec1 256)
    (hb : ∀ j : Fin 256, b (ix2 (0 : Fin 1) j) = b1 (ix1 j)) : comb2 m xd wl wr b = comb2R m xd wl wr b1 := by
  funext i
  unfold comb2 comb2R ofEntries
  exact lin2At_eq m xd wl wr b b1 hb _ _

theorem comb2relu_eq_comb2reluR (m xd : Mat 50000 256) (wl wr : Mat 256 256) (b : Mat 1 256) (b1 : Vec1 256)
    (hb : ∀ j : Fin 256, b (ix2 (0 : Fin 1) j) = b1 (ix1 j)) : comb2relu m xd wl wr b = comb2reluR m xd wl wr b1 := by
  funext i
  unfold comb2relu comb2reluR ofEntries
  exact congrArg (max · zeroWord) (lin2At_eq m xd wl wr b b1 hb _ _)

/-! ## Two relations, in the reference's order -/

/-- ((m0 · wl0 + bias0) + xd · wr0) + ((m1 · wl1 + bias1) + xd · wr1). -/
def lin4RAt (m0 m1 xd : Mat 50000 256) (wl0 wr0 wl1 wr1 : Mat 256 256) (b0 b1 : Vec1 256) (p : Fin 50000) (j : Fin 256) : EReal :=
  ((dotAt m0 wl0 p j + b0 (ix1 j)) + dotAt xd wr0 p j) + ((dotAt m1 wl1 p j + b1 (ix1 j)) + dotAt xd wr1 p j)

def comb4R (m0 m1 xd : Mat 50000 256) (wl0 wr0 wl1 wr1 : Mat 256 256) (b0 b1 : Vec1 256) : Mat 50000 256 :=
  ofEntries fun p j => lin4RAt m0 m1 xd wl0 wr0 wl1 wr1 b0 b1 p j

def comb4reluR (m0 m1 xd : Mat 50000 256) (wl0 wr0 wl1 wr1 : Mat 256 256) (b0 b1 : Vec1 256) : Mat 50000 256 :=
  ofEntries fun p j => max (lin4RAt m0 m1 xd wl0 wr0 wl1 wr1 b0 b1 p j) zeroWord

/-- Six terms of a sum, regrouped. -/
theorem six_terms (a0 c0 a1 c1 b0 b1 : EReal) :
    (((a0 + c0) + a1) + c1) + (b0 + b1) = ((a0 + b0) + c0) + ((a1 + b1) + c1) := by
  abel

theorem lin4At_eq (m0 m1 xd : Mat 50000 256) (wl0 wr0 wl1 wr1 : Mat 256 256) (b : Mat 1 256) (b0 b1 : Vec1 256)
    (hb : ∀ j : Fin 256, b (ix2 (0 : Fin 1) j) = b0 (ix1 j) + b1 (ix1 j)) (p : Fin 50000) (j : Fin 256) :
    lin4At m0 m1 xd wl0 wr0 wl1 wr1 b p j = lin4RAt m0 m1 xd wl0 wr0 wl1 wr1 b0 b1 p j := by
  unfold lin4At lin4RAt
  rw [hb]
  exact six_terms _ _ _ _ _ _

theorem comb4_eq_comb4R (m0 m1 xd : Mat 50000 256) (wl0 wr0 wl1 wr1 : Mat 256 256) (b : Mat 1 256) (b0 b1 : Vec1 256)
    (hb : ∀ j : Fin 256, b (ix2 (0 : Fin 1) j) = b0 (ix1 j) + b1 (ix1 j)) :
    comb4 m0 m1 xd wl0 wr0 wl1 wr1 b = comb4R m0 m1 xd wl0 wr0 wl1 wr1 b0 b1 := by
  funext i
  unfold comb4 comb4R ofEntries
  exact lin4At_eq m0 m1 xd wl0 wr0 wl1 wr1 b b0 b1 hb _ _

theorem comb4relu_eq_comb4reluR (m0 m1 xd : Mat 50000 256) (wl0 wr0 wl1 wr1 : Mat 256 256) (b : Mat 1 256) (b0 b1 : Vec1 256)
    (hb : ∀ j : Fin 256, b (ix2 (0 : Fin 1) j) = b0 (ix1 j) + b1 (ix1 j)) :
    comb4relu m0 m1 xd wl0 wr0 wl1 wr1 b = comb4reluR m0 m1 xd wl0 wr0 wl1 wr1 b0 b1 := by
  funext i
  unfold comb4relu comb4reluR ofEntries
  exact congrArg (max · zeroWord) (lin4At_eq m0 m1 xd wl0 wr0 wl1 wr1 b b0 b1 hb _ _)

end Cert.Spec

end
-- ==== Proof.Chain0.lean ====
/-
  The two projected feature arrays, in the arguments.

  Before each projection region the host transposes that node type's weight (and changes its float format, which
  moves nothing on the extended reals) and lays its bias out as one row.  The region then leaves, at node p and
  column j, the node's 1280 input features against the weight's row j, plus the bias at j: the reference's
  `x · Wᵀ + b`, for the peptide nodes and for the protein nodes.
-/
import proofs.«103163_j26482768347972_1_alg».proof.Proof.Gen.KernelIdeal.Frame
import proofs.«103163_j26482768347972_1_alg».proof.Proof.Arr0
import proofs.«103163_j26482768347972_1_alg».proof.Proof.Arr1
import proofs.«103163_j26482768347972_1_alg».proof.Proof.SpecLaws
import Idealize.ShloMosaic.Lib.Pipeline.Value
import Idealize.ShloMosaic.Lib.ValueLayout
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.Spec (Mat Vec1)

variable (m : (ℓ : Loc nD τ sig) → Buf (Elt Ideal) ℓ) (ρ : Dev nD → PrngReg)

/-- The transposed weight (in the narrower float format) read back: the weight with its coordinates swapped. -/
theorem transposedWeight_apply (a : Mat 256 1280) (k : Fin 1280) (j : Fin 256) :
    truncf (F := Ideal) .bf16 (transpose S1280x256 [1, 0] a transposes_S256x1280_S1280x256_1_0) bitsLt_bf16_f32 (ix2 k j)
      = a (ix2 j k) := by
  show transpose S1280x256 [1, 0] a transposes_S256x1280_S1280x256_1_0 (ix2 k j) = _
  exact transpose_apply [1, 0] a transposes_S256x1280_S1280x256_1_0 (ix2 k j) (ix2 j k)
    (fun b => match b with | ⟨0, _⟩ => rfl | ⟨1, _⟩ => rfl)

/-- A vector of 256 entries laid out as one row, read at column j. -/
theorem biasRow_apply (a : Vec1 256) (j : Fin 256) :
    shapeCast S1x256 a shapeCasts_S256_S1x256 (ix2 (0 : Fin 1) j) = a (ix1 j) :=
  shapeCast_apply a shapeCasts_S256_S1x256 (ix2 (0 : Fin 1) j) (ix1 j) (by
    rw [Shape.rowMajor_val_one, Shape.rowMajor_val_two]; show j.val = 0 * 256 + j.val; omega)

/-! ## The first stretch and the peptide projection -/

theorem V1_arg0 (c : Dev nD) : V1 m ρ c main_arg0 = (m ((c : Thread nD τ).loc main_arg0)) := by
  show StableHlo.after hostOps0 (W0 m ρ c) (Proc.devRef .tc main_arg0) = _
  after_results; try rfl

theorem V1_v1 (c : Dev nD) : V1 m ρ c main_v1
    = truncf (F := Ideal) .bf16 (transpose S1280x256 [1, 0] (m ((c : Thread nD τ).loc main_arg2)) transposes_S256x1280_S1280x256_1_0) bitsLt_bf16_f32 := by
  show StableHlo.after hostOps0 (W0 m ρ c) (Proc.devRef .tc main_v1) = _
  after_results; try rfl

theorem V1_v2 (c : Dev nD) : V1 m ρ c main_v2 = shapeCast S1x256 (m ((c : Thread nD τ).loc main_arg3)) shapeCasts_S256_S1x256 := by
  show StableHlo.after hostOps0 (W0 m ρ c) (Proc.devRef .tc main_v2) = _
  after_results; try rfl

/-- The peptide nodes' projected features after the first region. -/
theorem hpep (c : Dev nD) :
    V2 m ρ c main_v3 = Spec.projN (m ((c : Thread nD τ).loc main_arg0)) (m ((c : Thread nD τ).loc main_arg2)) (m ((c : Thread nD τ).loc main_arg3)) := by
  refine ((hF0 m ρ c 3).symm.trans (Arr0.final (V1 m ρ) c)).trans ?_
  rw [V1_arg0, V1_v1, V1_v2]
  exact Spec.proj_eq_projN _ _ _ _ _ (fun k j => transposedWeight_apply _ k j) (fun j => biasRow_apply _ j)

/-! ## The second stretch and the protein projection

The second stretch reads arguments that the first stretch and the first region leave alone, so each is walked back to
the launch memory: a stretch changes only the buffers its operations write, a region only its result array. -/

theorem V3_arg1 (c : Dev nD) : V3 m ρ c main_arg1 = (m ((c : Thread nD τ).loc main_arg1)) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results; try rfl

theorem W2_arg4 (c : Dev nD) : W2 m ρ c (Proc.devRef .tc main_arg4) = (m ((c : Thread nD τ).loc main_arg4)) := by
  rw [W2_of_ne m ρ c main_arg4 (by decide)]
  show StableHlo.after hostOps0 (W0 m ρ c) (Proc.devRef .tc main_arg4) = _
  after_results; try rfl

theorem W2_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results; try rfl

theorem V3_v5 (c : Dev nD) : V3 m ρ c main_v5
    = truncf (F := Ideal) .bf16 (transpose S1280x256 [1, 0] (m ((c : Thread nD τ).loc main_arg4)) transposes_S256x1280_S1280x256_1_0) bitsLt_bf16_f32 := by
  show StableHlo.after hostOps1 (W2 m ρ c) (Proc.devRef .tc main_v5) = _
  after_results
  rw [W2_arg4]

theorem V3_v6 (c : Dev nD) : V3 m ρ c main_v6 = shapeCast S1x256 (m ((c : Thread nD τ).loc main_arg5)) shapeCasts_S256_S1x256 := by
  show StableHlo.after hostOps1 (W2 m ρ c) (Proc.devRef .tc main_v6) = _
  after_results
  rw [W2_arg5]
  rfl

/-- The protein nodes' projected features after the second region. -/
theorem hprot (c : Dev nD) :
    V4 m ρ c main_v7 = Spec.projN (m ((c : Thread nD τ).loc main_arg1)) (m ((c : Thread nD τ).loc main_arg4)) (m ((c : Thread nD τ).loc main_arg5)) := by
  refine ((hF1 m ρ c 3).symm.trans (Arr1.final (V3 m ρ) c)).trans ?_
  rw [V3_arg1, V3_v5, V3_v6]
  exact Spec.proj_eq_projN _ _ _ _ _ (fun k j => transposedWeight_apply _ k j) (fun j => biasRow_apply _ j)

end Cert.KernelIdeal.Chain

end
-- ==== Proof.PayCombine.lean ====
/-
  The two combine bodies' arithmetic at a row and a column.

  A grid point holds 2000 rows of each node-feature operand.  Row r, column j of what the one-relation body stores
  is the neighbour mean's row times the left weight's column, plus the node's own row times the right weight's
  column, plus the bias of column j; the two-relation body adds the second relation's two products before the
  (already summed) bias.  The first layer's bodies then take the larger of that and zero.  The zero is kept as the
  literal it is printed as: the reference's rectifier compares against the same word.
-/
import proofs.«103163_j26482768347972_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The dimension numbers of a 2000 × 256 block times a 256 × 256 weight. -/
abbrev dC := dot_S2000x256_S256x256_S2000x256_1_0_0_1_n_n

/-- The left operand's row is the result's row. -/
theorem dC_lhs0 (i : S2000x256.Idx) (q : dC.contr.Idx) : (dC.lhsIdx i q 0).val = (i 0).val := by
  unfold DotDims.lhsIdx
  rw [dif_neg (show ¬(0 : Fin S2000x256.rank) ∈ dC.lhsBatch by decide), dif_pos (show (0 : Fin S2000x256.rank) ∈ dC.lhsNonContracting by decide)]
  rfl

/-- The right operand's column is the result's column. -/
theorem dC_rhs1 (i : S2000x256.Idx) (q : dC.contr.Idx) : (dC.rhsIdx i q 1).val = (i 1).val := by
  unfold DotDims.rhsIdx
  rw [dif_neg (show ¬(1 : Fin S256x256.rank) ∈ dC.rhsBatch by decide), dif_pos (show (1 : Fin S256x256.rank) ∈ dC.rhsNonContracting by decide)]
  rfl

/-- A block product into the zero accumulator, at row r and column j: the sum over the 256 hidden features. -/
theorem matmulC_apply (x : FVec Ideal S2000x256 .bf16) (w : FVec Ideal S256x256 .bf16) (r : Fin 2000) (j : Fin 256) :
    matmul dC none x w (constant (F := Ideal) S2000x256 .f32 0x00000000#32) (ix2 r j)
      = ∑ k : Fin 256, x (ix2 r k) * w (ix2 k j) := by
  simp only [matmul]
  rw [Ideal.matmul_constant_zero_apply, ← Equiv.sum_comp (contrEquiv1 dC 256 rfl rfl).symm]
  refine Finset.sum_congr rfl fun k _ => ?_
  have hk := contrEquiv1_symm_val dC 256 rfl rfl k
  have el : dC.lhsIdx (ix2 r j) ((contrEquiv1 dC 256 rfl rfl).symm k) = ix2 r k := funext fun a => Fin.ext (by
    match a with
    | ⟨0, _⟩ => exact dC_lhs0 _ _
    | ⟨1, _⟩ => exact (dC.lhsIdx_val_of_single rfl _ _).trans hk)
  have er : dC.rhsIdx (ix2 r j) ((contrEquiv1 dC 256 rfl rfl).symm k) = ix2 k j := funext fun a => Fin.ext (by
    match a with
    | ⟨0, _⟩ => exact (dC.rhsIdx_val_of_single rfl _ _).trans hk
    | ⟨1, _⟩ => exact dC_rhs1 _ _)
  rw [el, er]

/-- One relation, rectified (first layer, peptide side). -/
theorem k2_pay1_apply (m xd : Vec Ideal S2000x256 .f32) (wl wr : Vec Ideal S256x256 .bf16) (b : Vec Ideal S1x256 .f32) (r : Fin 2000) (j : Fin 256) :
    k2_pay1 (F := Ideal) m xd wl wr b (ix2 r j) = max (((∑ k : Fin 256, m (ix2 r k) * wl (ix2 k j)) + (∑ k : Fin 256, xd (ix2 r k) * wr (ix2 k j))) + b (ix2 (0 : Fin 1) j)) (Ideal.ofBits .f32 0x00000000#32) := by
  unfold k2_pay1
  show FloatOps.maximumf (FloatOps.addf (FloatOps.addf (matmul dC none (truncf .bf16 (shapeCast S2000x256 m shapeCasts_S2000x256_S2000x256) bitsLt_bf16_f32) (shapeCast S256x256 wl shapeCasts_S256x256_S256x256) (constant (F := Ideal) S2000x256 .f32 0x00000000#32) (ix2 r j)) (matmul dC none (truncf .bf16 (shapeCast S2000x256 xd shapeCasts_S2000x256_S2000x256) bitsLt_bf16_f32) (shapeCast S256x256 wr shapeCasts_S256x256_S256x256) (constant (F := Ideal) S2000x256 .f32 0x00000000#32) (ix2 r j))) (broadcastTo S2000x256 (shapeCast S1x256 b shapeCasts_S1x256_S1x256) broadcasts_S1x256_S2000x256 (ix2 r j))) (broadcast S2000x256 (Scalar.ofBits (F := Ideal) .f32 0x00000000#32) (ix2 r j)) = _
  simp only [shapeCast_self]
  rw [matmulC_apply, matmulC_apply, broadcastTo_1b_ab_apply]
  rfl

/-- One relation, not rectified (second layer, peptide side). -/
theorem k4_pay1_apply (m xd : Vec Ideal S2000x256 .f32) (wl wr : Vec Ideal S256x256 .bf16) (b : Vec Ideal S1x256 .f32) (r : Fin 2000) (j : Fin 256) :
    k4_pay1 (F := Ideal) m xd wl wr b (ix2 r j) = ((∑ k : Fin 256, m (ix2 r k) * wl (ix2 k j)) + (∑ k : Fin 256, xd (ix2 r k) * wr (ix2 k j))) + b (ix2 (0 : Fin 1) j) := by
  unfold k4_pay1
  show FloatOps.addf (FloatOps.addf (matmul dC none (truncf .bf16 (shapeCast S2000x256 m shapeCasts_S2000x256_S2000x256) bitsLt_bf16_f32) (shapeCast S256x256 wl shapeCasts_S256x256_S256x256) (constant (F := Ideal) S2000x256 .f32 0x00000000#32) (ix2 r j)) (matmul dC none (truncf .bf16 (shapeCast S2000x256 xd shapeCasts_S2000x256_S2000x256) bitsLt_bf16_f32) (shapeCast S256x256 wr shapeCasts_S256x256_S256x256) (constant (F := Ideal) S2000x256 .f32 0x00000000#32) (ix2 r j))) (broadcastTo S2000x256 (shapeCast S1x256 b shapeCasts_S1x256_S1x256) broadcasts_S1x256_S2000x256 (ix2 r j)) = _
  simp only [shapeCast_self]
  rw [matmulC_apply, matmulC_apply, broadcastTo_1b_ab_apply]
  rfl

/-- Two relations into one node type, rectified (first layer, protein side). -/
theorem k3_pay1_apply (m0 m1 xd : Vec Ideal S2000x256 .f32) (wl0 wr0 wl1 wr1 : Vec Ideal S256x256 .bf16) (b : Vec Ideal S1x256 .f32) (r : Fin 2000) (j : Fin 256) :
    k3_pay1 (F := Ideal) m0 m1 xd wl0 wr0 wl1 wr1 b (ix2 r j) = max (((((∑ k : Fin 256, m0 (ix2 r k) * wl0 (ix2 k j)) + (∑ k : Fin 256, xd (ix2 r k) * wr0 (ix2 k j))) + (∑ k : Fin 256, m1 (ix2 r k) * wl1 (ix2 k j))) + (∑ k : Fin 256, xd (ix2 r k) * wr1 (ix2 k j))) + b (ix2 (0 : Fin 1) j)) (Ideal.ofBits .f32 0x00000000#32) := by
  unfold k3_pay1
  show FloatOps.maximumf (FloatOps.addf (FloatOps.addf (FloatOps.addf (FloatOps.addf (matmul dC none (truncf .bf16 (shapeCast S2000x256 m0 shapeCasts_S2000x256_S2000x256) bitsLt_bf16_f32) (shapeCast S256x256 wl0 shapeCasts_S256x256_S256x256) (constant (F := Ideal) S2000x256 .f32 0x00000000#32) (ix2 r j)) (matmul dC none (truncf .bf16 (shapeCast S2000x256 xd shapeCasts_S2000x256_S2000x256) bitsLt_bf16_f32) (shapeCast S256x256 wr0 shapeCasts_S256x256_S256x256) (constant (F := Ideal) S2000x256 .f32 0x00000000#32) (ix2 r j))) (matmul dC none (truncf .bf16 (shapeCast S2000x256 m1 shapeCasts_S2000x256_S2000x256) bitsLt_bf16_f32) (shapeCast S256x256 wl1 shapeCasts_S256x256_S256x256) (constant (F := Ideal) S2000x256 .f32 0x00000000#32) (ix2 r j))) (matmul dC none (truncf .bf16 (shapeCast S2000x256 xd shapeCasts_S2000x256_S2000x256) bitsLt_bf16_f32) (shapeCast S256x256 wr1 shapeCasts_S256x256_S256x256) (constant (F := Ideal) S2000x256 .f32 0x00000000#32) (ix2 r j))) (broadcastTo S2000x256 (shapeCast S1x256 b shapeCasts_S1x256_S1x256) broadcasts_S1x256_S2000x256 (ix2 r j))) (broadcast S2000x256 (Scalar.ofBits (F := Ideal) .f32 0x00000000#32) (ix2 r j)) = _
  simp only [shapeCast_self]
  rw [matmulC_apply, matmulC_apply, matmulC_apply, matmulC_apply, broadcastTo_1b_ab_apply]
  rfl

/-- Two relations into one node type, not rectified (second layer, protein side). -/
theorem k5_pay1_apply (m0 m1 xd : Vec Ideal S2000x256 .f32) (wl0 wr0 wl1 wr1 : Vec Ideal S256x256 .bf16) (b : Vec Ideal S1x256 .f32) (r : Fin 2000) (j : Fin 256) :
    k5_pay1 (F := Ideal) m0 m1 xd wl0 wr0 wl1 wr1 b (ix2 r j) = ((((∑ k : Fin 256, m0 (ix2 r k) * wl0 (ix2 k j)) + (∑ k : Fin 256, xd (ix2 r k) * wr0 (ix2 k j))) + (∑ k : Fin 256, m1 (ix2 r k) * wl1 (ix2 k j))) + (∑ k : Fin 256, xd (ix2 r k) * wr1 (ix2 k j))) + b (ix2 (0 : Fin 1) j) := by
  unfold k5_pay1
  show FloatOps.addf (FloatOps.addf (FloatOps.addf (FloatOps.addf (matmul dC none (truncf .bf16 (shapeCast S2000x256 m0 shapeCasts_S2000x256_S2000x256) bitsLt_bf16_f32) (shapeCast S256x256 wl0 shapeCasts_S256x256_S256x256) (constant (F := Ideal) S2000x256 .f32 0x00000000#32) (ix2 r j)) (matmul dC none (truncf .bf16 (shapeCast S2000x256 xd shapeCasts_S2000x256_S2000x256) bitsLt_bf16_f32) (shapeCast S256x256 wr0 shapeCasts_S256x256_S256x256) (constant (F := Ideal) S2000x256 .f32 0x00000000#32) (ix2 r j))) (matmul dC none (truncf .bf16 (shapeCast S2000x256 m1 shapeCasts_S2000x256_S2000x256) bitsLt_bf16_f32) (shapeCast S256x256 wl1 shapeCasts_S256x256_S256x256) (constant (F := Ideal) S2000x256 .f32 0x00000000#32) (ix2 r j))) (matmul dC none (truncf .bf16 (shapeCast S2000x256 xd shapeCasts_S2000x256_S2000x256) bitsLt_bf16_f32) (shapeCast S256x256 wr1 shapeCasts_S256x256_S256x256) (constant (F := Ideal) S2000x256 .f32 0x00000000#32) (ix2 r j))) (broadcastTo S2000x256 (shapeCast S1x256 b shapeCasts_S1x256_S1x256) broadcasts_S1x256_S2000x256 (ix2 r j)) = _
  simp only [shapeCast_self]
  rw [matmulC_apply, matmulC_apply, matmulC_apply, matmulC_apply, broadcastTo_1b_ab_apply]
  rfl

end Cert.KernelIdeal.Pay

end
-- ==== Proof.Arr2.lean ====
/-
  The first layer's one-relation combine: its result array as ONE function of the arrays the region finds.

  The region has 25 grid points.  Point t fetches rows 2000·t … 2000·t + 1999 of the neighbour means and of the
  nodes' own features, the whole left and right weights and the whole bias row, and writes back rows
  2000·t … 2000·t + 1999 of the result.  So the result's entry at node p and column j is the larger of zero and
  (mean row p against column j of the left weight) + (own row p against column j of the right weight) + bias j,
  each product a sum over the 256 hidden features — whichever point wrote it — and the 25 blocks tile the
  50000 rows.
-/
import proofs.«103163_j26482768347972_1_alg».proof.Proof.Gen.KernelIdeal.Frame
import proofs.«103163_j26482768347972_1_alg».proof.Proof.PayCombine
import proofs.«103163_j26482768347972_1_alg».proof.Proof.Spec
import Idealize.ShloMosaic.Lib.Pipeline.Value

set_option maxRecDepth 16384

noncomputable section

namespace Cert.KernelIdeal.Arr2

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two node-feature windows and the result window sit at block row t;
    the two weights and the bias row are always at their single block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 25 := Nat.lt_of_lt_of_eq t.isLt N_2

/-- The node whose row is row r of point t's block. -/
def row (t : Fin cfg2.N) (r : Fin 2000) : Fin 50000 := ⟨t.val * 2000 + r.val, by have := t_lt t; have := r.isLt; omega⟩

/-- Point t's block of the neighbour means, at row r and feature k, is the mean of node `row t r` at feature k. -/
theorem read_m (c : Dev nD) (t : Fin cfg2.N) (r : Fin 2000) (k : Fin 256) :
    iblk2 V c 0 t (ix2 r k) = V c main_v29 (ix2 (row t r) k) := by
  obtain ⟨e0, e1, -⟩ := idx_facts t
  show V c main_v29 (((cfg2.win 0).blk t).view.emb (ix2 r k)) = _
  refine congrArg (V c main_v29) (funext fun a => Fin.ext ?_)
  match a with
  | ⟨0, _⟩ => show win2_0.index t (0 : Fin 2) * 2000 + 1 * r.val = t.val * 2000 + r.val; omega
  | ⟨1, _⟩ => show win2_0.index t (1 : Fin 2) * 256 + 1 * k.val = k.val; omega

/-- Point t's block of the nodes' own features, at row r and feature k, is node `row t r`'s feature k. -/
theorem read_x (c : Dev nD) (t : Fin cfg2.N) (r : Fin 2000) (k : Fin 256) :
    iblk2 V c 1 t (ix2 r k) = V c main_v3 (ix2 (row t r) k) := by
  obtain ⟨-, -, e2, e3, -⟩ := idx_facts t
  show V c main_v3 (((cfg2.win 1).blk t).view.emb (ix2 r k)) = _
  refine congrArg (V c main_v3) (funext fun a => Fin.ext ?_)
  match a with
  | ⟨0, _⟩ => show win2_1.index t (0 : Fin 2) * 2000 + 1 * r.val = t.val * 2000 + r.val; omega
  | ⟨1, _⟩ => show win2_1.index t (1 : Fin 2) * 256 + 1 * k.val = k.val; omega

/-- Every point's block of the left weight is the whole left weight. -/
theorem read_wl (c : Dev nD) (t : Fin cfg2.N) (k : Fin 256) (j : Fin 256) :
    iblk2 V c 2 t (ix2 k j) = V c main_v37 (ix2 k j) := by
  obtain ⟨-, -, -, -, e4, e5, -⟩ := idx_facts t
  show V c main_v37 (((cfg2.win 2).blk t).view.emb (ix2 k j)) = _
  refine congrArg (V c main_v37) (funext fun a => Fin.ext ?_)
  match a with
  | ⟨0, _⟩ => show win2_2.index t (0 : Fin 2) * 256 + 1 * k.val = k.val; omega
  | ⟨1, _⟩ => show win2_2.index t (1 : Fin 2) * 256 + 1 * j.val = j.val; omega

/-- Every point's block of the right weight is the whole right weight. -/
theorem read_wr (c : Dev nD) (t : Fin cfg2.N) (k : Fin 256) (j : Fin 256) :
    iblk2 V c 3 t (ix2 k j) = V c main_v39 (ix2 k j) := by
  obtain ⟨-, -, -, -, -, -, e6, e7, -⟩ := idx_facts t
  show V c main_v39 (((cfg2.win 3).blk t).view.emb (ix2 k j)) = _
  refine congrArg (V c main_v39) (funext fun a => Fin.ext ?_)
  match a with
  | ⟨0, _⟩ => show win2_3.index t (0 : Fin 2) * 256 + 1 * k.val = k.val; omega
  | ⟨1, _⟩ => show win2_3.index t (1 : Fin 2) * 256 + 1 * j.val = j.val; omega

/-- Every point's block of the bias row is the bias row. -/
theorem read_b (c : Dev nD) (t : Fin cfg2.N) (j : Fin 256) :
    iblk2 V c 4 t (ix2 (0 : Fin 1) j) = V c main_v40 (ix2 (0 : Fin 1) j) := by
  obtain ⟨-, -, -, -, -, -, -, -, e8, e9, -⟩ := idx_facts t
  show V c main_v40 (((cfg2.win 4).blk t).view.emb (ix2 (0 : Fin 1) j)) = _
  refine congrArg (V c main_v40) (funext fun a => Fin.ext ?_)
  match a with
  | ⟨0, _⟩ => show win2_4.index t (0 : Fin 2) * 1 + 1 * 0 = 0; omega
  | ⟨1, _⟩ => show win2_4.index t (1 : Fin 2) * 256 + 1 * j.val = j.val; omega

/-- Row r, column j of point t's result block is the result's entry at node `row t r`, column j. -/
theorem emb_out (t : Fin cfg2.N) (r : Fin 2000) (j : Fin 256) :
    ((cfg2.win 5).blk t).view.emb (ix2 r j) = ix2 (row t r) j := by
  obtain ⟨-, -, -, -, -, -, -, -, -, -, e10, e11⟩ := idx_facts t
  refine funext fun a => Fin.ext ?_
  match a with
  | ⟨0, _⟩ => show win2_5.index t (0 : Fin 2) * 2000 + 1 * r.val = t.val * 2000 + r.val; omega
  | ⟨1, _⟩ => show win2_5.index t (1 : Fin 2) * 256 + 1 * j.val = j.val; omega

/-- WHAT POINT t WRITES BACK is block t of the combine of the arrays as the region finds them. -/
theorem flushed_eq (c : Dev nD) (t : Fin cfg2.N) :
    (dat2 V c).flushed 5 t
      = ((cfg2.win 5).blk t).view.read (Elt Ideal)
          (Spec.comb2relu (V c main_v29) (V c main_v3) (V c main_v37) (V c main_v39) (V c main_v40)) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  funext y
  obtain ⟨r, j, rfl⟩ : ∃ (r : Fin 2000) (j : Fin 256), (y : S2000x256.Idx) = ix2 r j := ⟨y 0, y 1, eq_ix2 y⟩
  show k2_pay1 (F := Ideal) (iblk2 V c 0 t) (iblk2 V c 1 t) (iblk2 V c 2 t) (iblk2 V c 3 t) (iblk2 V c 4 t) (ix2 r j)
    = Spec.comb2relu (V c main_v29) (V c main_v3) (V c main_v37) (V c main_v39) (V c main_v40) (((cfg2.win 5).blk t).view.emb (ix2 r j))
  rw [emb_out t r j]
  refine (k2_pay1_apply (iblk2 V c 0 t) (iblk2 V c 1 t) (iblk2 V c 2 t) (iblk2 V c 3 t) (iblk2 V c 4 t) r j).trans ?_
  show _ = max ((Spec.dotAt (V c main_v29) (V c main_v37) (row t r) j + Spec.dotAt (V c main_v3) (V c main_v39) (row t r) j)
      + (V c main_v40 (ix2 (0 : Fin 1) j) : EReal)) Spec.zeroWord
  unfold Spec.dotAt
  simp only [read_m V c t r, read_x V c t r, read_wl V c t, read_wr V c t, read_b V c t j]

/-- An entry of the result is in point t's block iff each coordinate is in the block's range on its axis. -/
theorem mem_blk (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v41).slice (win2_5.rect t)).set ↔ _
  rw [View.set_slice_whole, Rect.mem_set_unit]
  exact Iff.rfl

/-- The 25 blocks tile the result: node p's row lies in the block of point p / 2000. -/
theorem cover (i : S50000x256.Idx) :
    ∃ t : Fin cfg2.N, (cfg2.win 5).flush t = true ∧ i ∈ ((cfg2.win 5).blk t).view.set := by
  have hi0 : (i 0).val < 50000 := idx2_lt0 i
  have hi1 : (i 1).val < 256 := idx2_lt1 i
  have hN : cfg2.N = 25 := N_2
  refine ⟨⟨(i 0).val / 2000, by rw [hN]; omega⟩, flush2_5 _, ?_⟩
  obtain ⟨-, -, -, -, -, -, -, -, -, -, e10, e11⟩ := idx_facts ⟨(i 0).val / 2000, by rw [hN]; omega⟩
  rw [mem_blk]
  intro a
  match a with
  | ⟨0, _⟩ =>
    show win2_5.index _ (0 : Fin 2) * 2000 ≤ (i 0).val ∧ (i 0).val < win2_5.index _ (0 : Fin 2) * 2000 + 2000
    rw [e10]; show (i 0).val / 2000 * 2000 ≤ (i 0).val ∧ (i 0).val < (i 0).val / 2000 * 2000 + 2000; omega
  | ⟨1, _⟩ =>
    show win2_5.index _ (1 : Fin 2) * 256 ≤ (i 1).val ∧ (i 1).val < win2_5.index _ (1 : Fin 2) * 256 + 256
    rw [e11]; omega

/-- THE RESULT ARRAY after the region: the combine of the arrays the region found. -/
theorem final (c : Dev nD) :
    (dat2 V c).arrAt 5 cfg2.N = Spec.comb2relu (V c main_v29) (V c main_v3) (V c main_v37) (V c main_v39) (V c main_v40) :=
  (dat2 V c).arrAt_eq_of_cover 5 _ (fun t _ => flushed_eq V c t) cover

end Cert.KernelIdeal.Arr2

end
-- ==== Proof.Arr3.lean ====
/-
  The first layer's two-relation combine: its result array as ONE function of the arrays the region finds.

  The region has 25 grid points.  Point t fetches rows 2000·t … 2000·t + 1999 of three 50000 × 256 arrays — the
  neighbour mean under each of the two relations, and the node's own features — together with the four whole
  256 × 256 weights and the whole (already summed) bias row, and writes back rows 2000·t … 2000·t + 1999 of the
  result.  So the result's entry at node p and column j is

      max ( m0[p,·]·wl0[·,j] + xd[p,·]·wr0[·,j] + m1[p,·]·wl1[·,j] + xd[p,·]·wr1[·,j] + b[j] , 0 )

  with the additions in the order the body makes them and the node's own row used against BOTH right weights —
  whichever point wrote it — and the 25 row blocks tile the 50000 rows.
-/
import proofs.«103163_j26482768347972_1_alg».proof.Proof.Gen.KernelIdeal.Frame
import proofs.«103163_j26482768347972_1_alg».proof.Proof.PayCombine
import proofs.«103163_j26482768347972_1_alg».proof.Proof.Spec
import Idealize.ShloMosaic.Lib.Pipeline.Value

set_option maxRecDepth 16384

noncomputable section

namespace Cert.KernelIdeal.Arr3

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid.  The three row-blocked operands (both neighbour means and the node's own
    features) and the result sit at block row t, block column 0; the four weights and the bias row have one block
    each, so their block indices are 0 on both axes at every point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

theorem t_lt (t : Fin cfg3.N) : t.val < 25 := Nat.lt_of_lt_of_eq t.isLt N_3

/-- The node that row r of point t's block is: 2000 rows per block, so node 2000·t + r. -/
def row (t : Fin cfg3.N) (r : Fin 2000) : Fin 50000 := ⟨t.val * 2000 + r.val, by have := t_lt t; have := r.isLt; omega⟩

/-- Point t's block of the first relation's neighbour mean, at row r and feature k, is node `row t r`'s entry k. -/
theorem read_m0 (c : Dev nD) (t : Fin cfg3.N) (r : Fin 2000) (k : Fin 256) :
    iblk3 V c 0 t (ix2 r k) = V c main_v63 (ix2 (row t r) k) := by
  obtain ⟨e0, e1, e2, e3, e4, e5, e6, e7, e8, e9, e10, e11, e12, e13, e14, e15, e16, e17⟩ := idx_facts t
  show V c main_v63 (((cfg3.win 0).blk t).view.emb (ix2 r k)) = _
  refine congrArg (V c main_v63) (funext fun a => Fin.ext ?_)
  match a with
  | ⟨0, _⟩ => show win3_0.index t (0 : Fin 2) * 2000 + 1 * r.val = t.val * 2000 + r.val; omega
  | ⟨1, _⟩ => show win3_0.index t (1 : Fin 2) * 256 + 1 * k.val = k.val; omega

/-- The same for the second relation's neighbour mean. -/
theorem read_m1 (c : Dev nD) (t : Fin cfg3.N) (r : Fin 2000) (k : Fin 256) :
    iblk3 V c 1 t (ix2 r k) = V c main_v85 (ix2 (row t r) k) := by
  obtain ⟨e0, e1, e2, e3, e4, e5, e6, e7, e8, e9, e10, e11, e12, e13, e14, e15, e16, e17⟩ := idx_facts t
  show V c main_v85 (((cfg3.win 1).blk t).view.emb (ix2 r k)) = _
  refine congrArg (V c main_v85) (funext fun a => Fin.ext ?_)
  match a with
  | ⟨0, _⟩ => show win3_1.index t (0 : Fin 2) * 2000 + 1 * r.val = t.val * 2000 + r.val; omega
  | ⟨1, _⟩ => show win3_1.index t (1 : Fin 2) * 256 + 1 * k.val = k.val; omega

/-- The same for the node's own features. -/
theorem read_xd (c : Dev nD) (t : Fin cfg3.N) (r : Fin 2000) (k : Fin 256) :
    iblk3 V c 2 t (ix2 r k) = V c main_v7 (ix2 (row t r) k) := by
  obtain ⟨e0, e1, e2, e3, e4, e5, e6, e7, e8, e9, e10, e11, e12, e13, e14, e15, e16, e17⟩ := idx_facts t
  show V c main_v7 (((cfg3.win 2).blk t).view.emb (ix2 r k)) = _
  refine congrArg (V c main_v7) (funext fun a => Fin.ext ?_)
  match a with
  | ⟨0, _⟩ => show win3_2.index t (0 : Fin 2) * 2000 + 1 * r.val = t.val * 2000 + r.val; omega
  | ⟨1, _⟩ => show win3_2.index t (1 : Fin 2) * 256 + 1 * k.val = k.val; omega

/-- Every point's block of the first relation's left weight is that whole weight. -/
theorem read_wl0 (c : Dev nD) (t : Fin cfg3.N) (k : Fin 256) (j : Fin 256) :
    iblk3 V c 3 t (ix2 k j) = V c main_v99 (ix2 k j) := by
  obtain ⟨e0, e1, e2, e3, e4, e5, e6, e7, e8, e9, e10, e11, e12, e13, e14, e15, e16, e17⟩ := idx_facts t
  show V c main_v99 (((cfg3.win 3).blk t).view.emb (ix2 k j)) = _
  refine congrArg (V c main_v99) (funext fun a => Fin.ext ?_)
  match a with
  | ⟨0, _⟩ => show win3_3.index t (0 : Fin 2) * 256 + 1 * k.val = k.val; omega
  | ⟨1, _⟩ => show win3_3.index t (1 : Fin 2) * 256 + 1 * j.val = j.val; omega

/-- Every point's block of the first relation's right weight is that whole weight. -/
theorem read_wr0 (c : Dev nD) (t : Fin cfg3.N) (k : Fin 256) (j : Fin 256) :
    iblk3 V c 4 t (ix2 k j) = V c main_v101 (ix2 k j) := by
  obtain ⟨e0, e1, e2, e3, e4, e5, e6, e7, e8, e9, e10, e11, e12, e13, e14, e15, e16, e17⟩ := idx_facts t
  show V c main_v101 (((cfg3.win 4).blk t).view.emb (ix2 k j)) = _
  refine congrArg (V c main_v101) (funext fun a => Fin.ext ?_)
  match a with
  | ⟨0, _⟩ => show win3_4.index t (0 : Fin 2) * 256 + 1 * k.val = k.val; omega
  | ⟨1, _⟩ => show win3_4.index t (1 : Fin 2) * 256 + 1 * j.val = j.val; omega

/-- Every point's block of the second relation's left weight is that whole weight. -/
theorem read_wl1 (c : Dev nD) (t : Fin cfg3.N) (k : Fin 256) (j : Fin 256) :
    iblk3 V c 5 t (ix2 k j) = V c main_v103 (ix2 k j) := by
  obtain ⟨e0, e1, e2, e3, e4, e5, e6, e7, e8, e9, e10, e11, e12, e13, e14, e15, e16, e17⟩ := idx_facts t
  show V c main_v103 (((cfg3.win 5).blk t).view.emb (ix2 k j)) = _
  refine congrArg (V c main_v103) (funext fun a => Fin.ext ?_)
  match a with
  | ⟨0, _⟩ => show win3_5.index t (0 : Fin 2) * 256 + 1 * k.val = k.val; omega
  | ⟨1, _⟩ => show win3_5.index t (1 : Fin 2) * 256 + 1 * j.val = j.val; omega

/-- Every point's block of the second relation's right weight is that whole weight. -/
theorem read_wr1 (c : Dev nD) (t : Fin cfg3.N) (k : Fin 256) (j : Fin 256) :
    iblk3 V c 6 t (ix2 k j) = V c main_v105 (ix2 k j) := by
  obtain ⟨e0, e1, e2, e3, e4, e5, e6, e7, e8, e9, e10, e11, e12, e13, e14, e15, e16, e17⟩ := idx_facts t
  show V c main_v105 (((cfg3.win 6).blk t).view.emb (ix2 k j)) = _
  refine congrArg (V c main_v105) (funext fun a => Fin.ext ?_)
  match a with
  | ⟨0, _⟩ => show win3_6.index t (0 : Fin 2) * 256 + 1 * k.val = k.val; omega
  | ⟨1, _⟩ => show win3_6.index t (1 : Fin 2) * 256 + 1 * j.val = j.val; omega

/-- Every point's block of the summed bias row is the bias row. -/
theorem read_b (c : Dev nD) (t : Fin cfg3.N) (j : Fin 256) :
    iblk3 V c 7 t (ix2 (0 : Fin 1) j) = V c main_v107 (ix2 (0 : Fin 1) j) := by
  obtain ⟨e0, e1, e2, e3, e4, e5, e6, e7, e8, e9, e10, e11, e12, e13, e14, e15, e16, e17⟩ := idx_facts t
  show V c main_v107 (((cfg3.win 7).blk t).view.emb (ix2 (0 : Fin 1) j)) = _
  refine congrArg (V c main_v107) (funext fun a => Fin.ext ?_)
  match a with
  | ⟨0, _⟩ => show win3_7.index t (0 : Fin 2) * 1 + 1 * 0 = 0; omega
  | ⟨1, _⟩ => show win3_7.index t (1 : Fin 2) * 256 + 1 * j.val = j.val; omega

/-- Row r, column j of point t's result block is the result's entry at node `row t r`, column j. -/
theorem emb_out (t : Fin cfg3.N) (r : Fin 2000) (j : Fin 256) :
    ((cfg3.win 8).blk t).view.emb (ix2 r j) = ix2 (row t r) j := by
  obtain ⟨e0, e1, e2, e3, e4, e5, e6, e7, e8, e9, e10, e11, e12, e13, e14, e15, e16, e17⟩ := idx_facts t
  refine funext fun a => Fin.ext ?_
  match a with
  | ⟨0, _⟩ => show win3_8.index t (0 : Fin 2) * 2000 + 1 * r.val = t.val * 2000 + r.val; omega
  | ⟨1, _⟩ => show win3_8.index t (1 : Fin 2) * 256 + 1 * j.val = j.val; omega

/-- WHAT POINT t WRITES BACK is block t of the two-relation combine of the arrays as the region finds them: the
    body's value at row r and column j is four sums over the 256 hidden features plus the bias, rectified, and each
    factor in those sums is, by the block-read lemmas, the whole array's entry at node `row t r`. -/
theorem flushed_eq (c : Dev nD) (t : Fin cfg3.N) :
    (dat3 V c).flushed 8 t
      = ((cfg3.win 8).blk t).view.read (Elt Ideal) (Spec.comb4relu (V c main_v63) (V c main_v85) (V c main_v7) (V c main_v99) (V c main_v101) (V c main_v103) (V c main_v105) (V c main_v107)) := by
  show (cfg3.win 8).cut (grid3.coords t) ((dat3 V c).after 8 t) = _
  rw [after3_8]
  unfold out3_8
  rw [View.canon_unit_zero hz]
  simp only [View.ld_unit_zero (S := S2000x256) hz, View.ld_unit_zero (S := S256x256) hz, View.ld_unit_zero (S := S1x256) hz]
  funext y
  obtain ⟨r, j, rfl⟩ : ∃ (r : Fin 2000) (j : Fin 256), (y : S2000x256.Idx) = ix2 r j := ⟨y 0, y 1, eq_ix2 y⟩
  show k3_pay1 (F := Ideal) (iblk3 V c 0 t) (iblk3 V c 1 t) (iblk3 V c 2 t) (iblk3 V c 3 t) (iblk3 V c 4 t) (iblk3 V c 5 t) (iblk3 V c 6 t) (iblk3 V c 7 t) (ix2 r j)
    = Spec.comb4relu (V c main_v63) (V c main_v85) (V c main_v7) (V c main_v99) (V c main_v101) (V c main_v103) (V c main_v105) (V c main_v107) (((cfg3.win 8).blk t).view.emb (ix2 r j))
  rw [emb_out t r j]
  refine (k3_pay1_apply (iblk3 V c 0 t) (iblk3 V c 1 t) (iblk3 V c 2 t) (iblk3 V c 3 t) (iblk3 V c 4 t) (iblk3 V c 5 t) (iblk3 V c 6 t) (iblk3 V c 7 t) r j).trans ?_
  show _ = max (Spec.lin4At (V c main_v63) (V c main_v85) (V c main_v7) (V c main_v99) (V c main_v101) (V c main_v103) (V c main_v105) (V c main_v107) (row t r) j) Spec.zeroWord
  unfold Spec.lin4At Spec.dotAt
  simp only [read_m0 V c t r, read_m1 V c t r, read_xd V c t r, read_wl0 V c t, read_wr0 V c t, read_wl1 V c t, read_wr1 V c t, read_b V c t j]

/-- An entry of the result is in point t's block iff each coordinate is in the block's range on its axis. -/
theorem mem_blk (t : Fin cfg3.N) (i : S50000x256.Idx) :
    i ∈ ((cfg3.win 8).blk t).view.set ↔ ∀ a : Fin 2, win3_8.index t a * S2000x256.size a ≤ (i a).val
      ∧ (i a).val < win3_8.index t a * S2000x256.size a + S2000x256.size a := by
  show i ∈ ((View.whole main_v108).slice (win3_8.rect t)).set ↔ _
  rw [View.set_slice_whole, Rect.mem_set_unit]
  exact Iff.rfl

/-- The 25 blocks tile the result: node p's row is in the block of point p / 2000, and every column is in it. -/
theorem cover (i : S50000x256.Idx) :
    ∃ t : Fin cfg3.N, (cfg3.win 8).flush t = true ∧ i ∈ ((cfg3.win 8).blk t).view.set := by
  have hi0 : (i 0).val < 50000 := idx2_lt0 i
  have hi1 : (i 1).val < 256 := idx2_lt1 i
  have hN : cfg3.N = 25 := N_3
  refine ⟨⟨(i 0).val / 2000, by rw [hN]; omega⟩, flush3_8 _, ?_⟩
  obtain ⟨e0, e1, e2, e3, e4, e5, e6, e7, e8, e9, e10, e11, e12, e13, e14, e15, e16, e17⟩ := idx_facts ⟨(i 0).val / 2000, by rw [hN]; omega⟩
  rw [mem_blk]
  intro a
  match a with
  | ⟨0, _⟩ =>
    show win3_8.index _ (0 : Fin 2) * 2000 ≤ (i 0).val ∧ (i 0).val < win3_8.index _ (0 : Fin 2) * 2000 + 2000
    rw [e16]; show (i 0).val / 2000 * 2000 ≤ (i 0).val ∧ (i 0).val < (i 0).val / 2000 * 2000 + 2000; omega
  | ⟨1, _⟩ =>
    show win3_8.index _ (1 : Fin 2) * 256 ≤ (i 1).val ∧ (i 1).val < win3_8.index _ (1 : Fin 2) * 256 + 256
    rw [e17]; omega

/-- THE RESULT ARRAY after the region: the two-relation combine, rectified, of the arrays the region found. -/
theorem final (c : Dev nD) :
    (dat3 V c).arrAt 8 cfg3.N = Spec.comb4relu (V c main_v63) (V c main_v85) (V c main_v7) (V c main_v99) (V c main_v101) (V c main_v103) (V c main_v105) (V c main_v107) :=
  (dat3 V c).arrAt_eq_of_cover 8 _ (fun t _ => flushed_eq V c t) cover

end Cert.KernelIdeal.Arr3

end
-- ==== Proof.Arr4.lean ====
/-
  The second layer's one-relation combine: its result array as ONE function of the arrays the region finds.

  The region has 25 grid points.  Point t fetches rows 2000·t … 2000·t + 1999 of the neighbour means and of the
  nodes' own features, the whole left and right weights and the whole bias row, and writes back rows
  2000·t … 2000·t + 1999 of the result.  So the result's entry at node p and column j is
  (mean row p against column j of the left weight) + (own row p against column j of the right weight) + bias j,
  each product a sum over the 256 hidden features — whichever point wrote it; this layer applies no rectifier —
  and the 25 blocks tile the 50000 rows.
-/
import proofs.«103163_j26482768347972_1_alg».proof.Proof.Gen.KernelIdeal.Frame
import proofs.«103163_j26482768347972_1_alg».proof.Proof.PayCombine
import proofs.«103163_j26482768347972_1_alg».proof.Proof.Spec
import Idealize.ShloMosaic.Lib.Pipeline.Value

set_option maxRecDepth 16384

noncomputable section

namespace Cert.KernelIdeal.Arr4

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two node-feature windows and the result window sit at block row t;
    the two weights and the bias row are always at their single block. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem t_lt (t : Fin cfg4.N) : t.val < 25 := Nat.lt_of_lt_of_eq t.isLt N_4

/-- The node whose row is row r of point t's block. -/
def row (t : Fin cfg4.N) (r : Fin 2000) : Fin 50000 := ⟨t.val * 2000 + r.val, by have := t_lt t; have := r.isLt; omega⟩

/-- Point t's block of the neighbour means, at row r and feature k, is the mean of node `row t r` at feature k. -/
theorem read_m (c : Dev nD) (t : Fin cfg4.N) (r : Fin 2000) (k : Fin 256) :
    iblk4 V c 0 t (ix2 r k) = V c main_v130 (ix2 (row t r) k) := by
  obtain ⟨e0, e1, -⟩ := idx_facts t
  show V c main_v130 (((cfg4.win 0).blk t).view.emb (ix2 r k)) = _
  refine congrArg (V c main_v130) (funext fun a => Fin.ext ?_)
  match a with
  | ⟨0, _⟩ => show win4_0.index t (0 : Fin 2) * 2000 + 1 * r.val = t.val * 2000 + r.val; omega
  | ⟨1, _⟩ => show win4_0.index t (1 : Fin 2) * 256 + 1 * k.val = k.val; omega

/-- Point t's block of the nodes' own features, at row r and feature k, is node `row t r`'s feature k. -/
theorem read_x (c : Dev nD) (t : Fin cfg4.N) (r : Fin 2000) (k : Fin 256) :
    iblk4 V c 1 t (ix2 r k) = V c main_v41 (ix2 (row t r) k) := by
  obtain ⟨-, -, e2, e3, -⟩ := idx_facts t
  show V c main_v41 (((cfg4.win 1).blk t).view.emb (ix2 r k)) = _
  refine congrArg (V c main_v41) (funext fun a => Fin.ext ?_)
  match a with
  | ⟨0, _⟩ => show win4_1.index t (0 : Fin 2) * 2000 + 1 * r.val = t.val * 2000 + r.val; omega
  | ⟨1, _⟩ => show win4_1.index t (1 : Fin 2) * 256 + 1 * k.val = k.val; omega

/-- Every point's block of the left weight is the whole left weight. -/
theorem read_wl (c : Dev nD) (t : Fin cfg4.N) (k : Fin 256) (j : Fin 256) :
    iblk4 V c 2 t (ix2 k j) = V c main_v138 (ix2 k j) := by
  obtain ⟨-, -, -, -, e4, e5, -⟩ := idx_facts t
  show V c main_v138 (((cfg4.win 2).blk t).view.emb (ix2 k j)) = _
  refine congrArg (V c main_v138) (funext fun a => Fin.ext ?_)
  match a with
  | ⟨0, _⟩ => show win4_2.index t (0 : Fin 2) * 256 + 1 * k.val = k.val; omega
  | ⟨1, _⟩ => show win4_2.index t (1 : Fin 2) * 256 + 1 * j.val = j.val; omega

/-- Every point's block of the right weight is the whole right weight. -/
theorem read_wr (c : Dev nD) (t : Fin cfg4.N) (k : Fin 256) (j : Fin 256) :
    iblk4 V c 3 t (ix2 k j) = V c main_v140 (ix2 k j) := by
  obtain ⟨-, -, -, -, -, -, e6, e7, -⟩ := idx_facts t
  show V c main_v140 (((cfg4.win 3).blk t).view.emb (ix2 k j)) = _
  refine congrArg (V c main_v140) (funext fun a => Fin.ext ?_)
  match a with
  | ⟨0, _⟩ => show win4_3.index t (0 : Fin 2) * 256 + 1 * k.val = k.val; omega
  | ⟨1, _⟩ => show win4_3.index t (1 : Fin 2) * 256 + 1 * j.val = j.val; omega

/-- Every point's block of the bias row is the bias row. -/
theorem read_b (c : Dev nD) (t : Fin cfg4.N) (j : Fin 256) :
    iblk4 V c 4 t (ix2 (0 : Fin 1) j) = V c main_v141 (ix2 (0 : Fin 1) j) := by
  obtain ⟨-, -, -, -, -, -, -, -, e8, e9, -⟩ := idx_facts t
  show V c main_v141 (((cfg4.win 4).blk t).view.emb (ix2 (0 : Fin 1) j)) = _
  refine congrArg (V c main_v141) (funext fun a => Fin.ext ?_)
  match a with
  | ⟨0, _⟩ => show win4_4.index t (0 : Fin 2) * 1 + 1 * 0 = 0; omega
  | ⟨1, _⟩ => show win4_4.index t (1 : Fin 2) * 256 + 1 * j.val = j.val; omega

/-- Row r, column j of point t's result block is the result's entry at node `row t r`, column j. -/
theorem emb_out (t : Fin cfg4.N) (r : Fin 2000) (j : Fin 256) :
    ((cfg4.win 5).blk t).view.emb (ix2 r j) = ix2 (row t r) j := by
  obtain ⟨-, -, -, -, -, -, -, -, -, -, e10, e11⟩ := idx_facts t
  refine funext fun a => Fin.ext ?_
  match a with
  | ⟨0, _⟩ => show win4_5.index t (0 : Fin 2) * 2000 + 1 * r.val = t.val * 2000 + r.val; omega
  | ⟨1, _⟩ => show win4_5.index t (1 : Fin 2) * 256 + 1 * j.val = j.val; omega

/-- WHAT POINT t WRITES BACK is block t of the combine of the arrays as the region finds them. -/
theorem flushed_eq (c : Dev nD) (t : Fin cfg4.N) :
    (dat4 V c).flushed 5 t
      = ((cfg4.win 5).blk t).view.read (Elt Ideal)
          (Spec.comb2 (V c main_v130) (V c main_v41) (V c main_v138) (V c main_v140) (V c main_v141)) := by
  show (cfg4.win 5).cut (grid4.coords t) ((dat4 V c).after 5 t) = _
  rw [after4_5]
  unfold out4_5
  rw [View.canon_unit_zero hz]
  simp only [View.ld_unit_zero (S := S2000x256) hz, View.ld_unit_zero (S := S256x256) hz, View.ld_unit_zero (S := S1x256) hz]
  funext y
  obtain ⟨r, j, rfl⟩ : ∃ (r : Fin 2000) (j : Fin 256), (y : S2000x256.Idx) = ix2 r j := ⟨y 0, y 1, eq_ix2 y⟩
  show k4_pay1 (F := Ideal) (iblk4 V c 0 t) (iblk4 V c 1 t) (iblk4 V c 2 t) (iblk4 V c 3 t) (iblk4 V c 4 t) (ix2 r j)
    = Spec.comb2 (V c main_v130) (V c main_v41) (V c main_v138) (V c main_v140) (V c main_v141) (((cfg4.win 5).blk t).view.emb (ix2 r j))
  rw [emb_out t r j]
  refine (k4_pay1_apply (iblk4 V c 0 t) (iblk4 V c 1 t) (iblk4 V c 2 t) (iblk4 V c 3 t) (iblk4 V c 4 t) r j).trans ?_
  show _ = (Spec.dotAt (V c main_v130) (V c main_v138) (row t r) j + Spec.dotAt (V c main_v41) (V c main_v140) (row t r) j)
      + (V c main_v141 (ix2 (0 : Fin 1) j) : EReal)
  unfold Spec.dotAt
  simp only [read_m V c t r, read_x V c t r, read_wl V c t, read_wr V c t, read_b V c t j]

/-- An entry of the result is in point t's block iff each coordinate is in the block's range on its axis. -/
theorem mem_blk (t : Fin cfg4.N) (i : S50000x256.Idx) :
    i ∈ ((cfg4.win 5).blk t).view.set ↔ ∀ a : Fin 2, win4_5.index t a * S2000x256.size a ≤ (i a).val
      ∧ (i a).val < win4_5.index t a * S2000x256.size a + S2000x256.size a := by
  show i ∈ ((View.whole main_v142).slice (win4_5.rect t)).set ↔ _
  rw [View.set_slice_whole, Rect.mem_set_unit]
  exact Iff.rfl

/-- The 25 blocks tile the result: node p's row lies in the block of point p / 2000. -/
theorem cover (i : S50000x256.Idx) :
    ∃ t : Fin cfg4.N, (cfg4.win 5).flush t = true ∧ i ∈ ((cfg4.win 5).blk t).view.set := by
  have hi0 : (i 0).val < 50000 := idx2_lt0 i
  have hi1 : (i 1).val < 256 := idx2_lt1 i
  have hN : cfg4.N = 25 := N_4
  refine ⟨⟨(i 0).val / 2000, by rw [hN]; omega⟩, flush4_5 _, ?_⟩
  obtain ⟨-, -, -, -, -, -, -, -, -, -, e10, e11⟩ := idx_facts ⟨(i 0).val / 2000, by rw [hN]; omega⟩
  rw [mem_blk]
  intro a
  match a with
  | ⟨0, _⟩ =>
    show win4_5.index _ (0 : Fin 2) * 2000 ≤ (i 0).val ∧ (i 0).val < win4_5.index _ (0 : Fin 2) * 2000 + 2000
    rw [e10]; show (i 0).val / 2000 * 2000 ≤ (i 0).val ∧ (i 0).val < (i 0).val / 2000 * 2000 + 2000; omega
  | ⟨1, _⟩ =>
    show win4_5.index _ (1 : Fin 2) * 256 ≤ (i 1).val ∧ (i 1).val < win4_5.index _ (1 : Fin 2) * 256 + 256
    rw [e11]; omega

/-- THE RESULT ARRAY after the region: the combine of the arrays the region found. -/
theorem final (c : Dev nD) :
    (dat4 V c).arrAt 5 cfg4.N = Spec.comb2 (V c main_v130) (V c main_v41) (V c main_v138) (V c main_v140) (V c main_v141) :=
  (dat4 V c).arrAt_eq_of_cover 5 _ (fun t _ => flushed_eq V c t) cover

end Cert.KernelIdeal.Arr4

end
-- ==== Proof.Arr5.lean ====
/-
  The second layer's two-relation combine: its result array as ONE function of the arrays the region finds.

  The region has 25 grid points.  Point t fetches rows 2000·t … 2000·t + 1999 of three 50000 × 256 arrays — the
  neighbour mean under each of the two relations, and the node's own features (here the first layer's output for
  this node type) — together with the four whole 256 × 256 weights and the whole (already summed) bias row, and
  writes back rows 2000·t … 2000·t + 1999 of the result.  So the result's entry at node p and column j is

      m0[p,·]·wl0[·,j] + xd[p,·]·wr0[·,j] + m1[p,·]·wl1[·,j] + xd[p,·]·wr1[·,j] + b[j]

  with the additions in the order the body makes them, the node's own row used against BOTH right weights, and no
  rectifier after the last layer — whichever point wrote it — and the 25 row blocks tile the 50000 rows.
-/
import proofs.«103163_j26482768347972_1_alg».proof.Proof.Gen.KernelIdeal.Frame
import proofs.«103163_j26482768347972_1_alg».proof.Proof.PayCombine
import proofs.«103163_j26482768347972_1_alg».proof.Proof.Spec
import Idealize.ShloMosaic.Lib.Pipeline.Value

set_option maxRecDepth 16384

noncomputable section

namespace Cert.KernelIdeal.Arr5

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid.  The three row-blocked operands (both neighbour means and the node's own
    features) and the result sit at block row t, block column 0; the four weights and the bias row have one block
    each, so their block indices are 0 on both axes at every point. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

theorem t_lt (t : Fin cfg5.N) : t.val < 25 := Nat.lt_of_lt_of_eq t.isLt N_5

/-- The node that row r of point t's block is: 2000 rows per block, so node 2000·t + r. -/
def row (t : Fin cfg5.N) (r : Fin 2000) : Fin 50000 := ⟨t.val * 2000 + r.val, by have := t_lt t; have := r.isLt; omega⟩

/-- Point t's block of the first relation's neighbour mean, at row r and feature k, is node `row t r`'s entry k. -/
theorem read_m0 (c : Dev nD) (t : Fin cfg5.N) (r : Fin 2000) (k : Fin 256) :
    iblk5 V c 0 t (ix2 r k) = V c main_v164 (ix2 (row t r) k) := by
  obtain ⟨e0, e1, e2, e3, e4, e5, e6, e7, e8, e9, e10, e11, e12, e13, e14, e15, e16, e17⟩ := idx_facts t
  show V c main_v164 (((cfg5.win 0).blk t).view.emb (ix2 r k)) = _
  refine congrArg (V c main_v164) (funext fun a => Fin.ext ?_)
  match a with
  | ⟨0, _⟩ => show win5_0.index t (0 : Fin 2) * 2000 + 1 * r.val = t.val * 2000 + r.val; omega
  | ⟨1, _⟩ => show win5_0.index t (1 : Fin 2) * 256 + 1 * k.val = k.val; omega

/-- The same for the second relation's neighbour mean. -/
theorem read_m1 (c : Dev nD) (t : Fin cfg5.N) (r : Fin 2000) (k : Fin 256) :
    iblk5 V c 1 t (ix2 r k) = V c main_v186 (ix2 (row t r) k) := by
  obtain ⟨e0, e1, e2, e3, e4, e5, e6, e7, e8, e9, e10, e11, e12, e13, e14, e15, e16, e17⟩ := idx_facts t
  show V c main_v186 (((cfg5.win 1).blk t).view.emb (ix2 r k)) = _
  refine congrArg (V c main_v186) (funext fun a => Fin.ext ?_)
  match a with
  | ⟨0, _⟩ => show win5_1.index t (0 : Fin 2) * 2000 + 1 * r.val = t.val * 2000 + r.val; omega
  | ⟨1, _⟩ => show win5_1.index t (1 : Fin 2) * 256 + 1 * k.val = k.val; omega

/-- The same for the node's own features. -/
theorem read_xd (c : Dev nD) (t : Fin cfg5.N) (r : Fin 2000) (k : Fin 256) :
    iblk5 V c 2 t (ix2 r k) = V c main_v108 (ix2 (row t r) k) := by
  obtain ⟨e0, e1, e2, e3, e4, e5, e6, e7, e8, e9, e10, e11, e12, e13, e14, e15, e16, e17⟩ := idx_facts t
  show V c main_v108 (((cfg5.win 2).blk t).view.emb (ix2 r k)) = _
  refine congrArg (V c main_v108) (funext fun a => Fin.ext ?_)
  match a with
  | ⟨0, _⟩ => show win5_2.index t (0 : Fin 2) * 2000 + 1 * r.val = t.val * 2000 + r.val; omega
  | ⟨1, _⟩ => show win5_2.index t (1 : Fin 2) * 256 + 1 * k.val = k.val; omega

/-- Every point's block of the first relation's left weight is that whole weight. -/
theorem read_wl0 (c : Dev nD) (t : Fin cfg5.N) (k : Fin 256) (j : Fin 256) :
    iblk5 V c 3 t (ix2 k j) = V c main_v200 (ix2 k j) := by
  obtain ⟨e0, e1, e2, e3, e4, e5, e6, e7, e8, e9, e10, e11, e12, e13, e14, e15, e16, e17⟩ := idx_facts t
  show V c main_v200 (((cfg5.win 3).blk t).view.emb (ix2 k j)) = _
  refine congrArg (V c main_v200) (funext fun a => Fin.ext ?_)
  match a with
  | ⟨0, _⟩ => show win5_3.index t (0 : Fin 2) * 256 + 1 * k.val = k.val; omega
  | ⟨1, _⟩ => show win5_3.index t (1 : Fin 2) * 256 + 1 * j.val = j.val; omega

/-- Every point's block of the first relation's right weight is that whole weight. -/
theorem read_wr0 (c : Dev nD) (t : Fin cfg5.N) (k : Fin 256) (j : Fin 256) :
    iblk5 V c 4 t (ix2 k j) = V c main_v202 (ix2 k j) := by
  obtain ⟨e0, e1, e2, e3, e4, e5, e6, e7, e8, e9, e10, e11, e12, e13, e14, e15, e16, e17⟩ := idx_facts t
  show V c main_v202 (((cfg5.win 4).blk t).view.emb (ix2 k j)) = _
  refine congrArg (V c main_v202) (funext fun a => Fin.ext ?_)
  match a with
  | ⟨0, _⟩ => show win5_4.index t (0 : Fin 2) * 256 + 1 * k.val = k.val; omega
  | ⟨1, _⟩ => show win5_4.index t (1 : Fin 2) * 256 + 1 * j.val = j.val; omega

/-- Every point's block of the second relation's left weight is that whole weight. -/
theorem read_wl1 (c : Dev nD) (t : Fin cfg5.N) (k : Fin 256) (j : Fin 256) :
    iblk5 V c 5 t (ix2 k j) = V c main_v204 (ix2 k j) := by
  obtain ⟨e0, e1, e2, e3, e4, e5, e6, e7, e8, e9, e10, e11, e12, e13, e14, e15, e16, e17⟩ := idx_facts t
  show V c main_v204 (((cfg5.win 5).blk t).view.emb (ix2 k j)) = _
  refine congrArg (V c main_v204) (funext fun a => Fin.ext ?_)
  match a with
  | ⟨0, _⟩ => show win5_5.index t (0 : Fin 2) * 256 + 1 * k.val = k.val; omega
  | ⟨1, _⟩ => show win5_5.index t (1 : Fin 2) * 256 + 1 * j.val = j.val; omega

/-- Every point's block of the second relation's right weight is that whole weight. -/
theorem read_wr1 (c : Dev nD) (t : Fin cfg5.N) (k : Fin 256) (j : Fin 256) :
    iblk5 V c 6 t (ix2 k j) = V c main_v206 (ix2 k j) := by
  obtain ⟨e0, e1, e2, e3, e4, e5, e6, e7, e8, e9, e10, e11, e12, e13, e14, e15, e16, e17⟩ := idx_facts t
  show V c main_v206 (((cfg5.win 6).blk t).view.emb (ix2 k j)) = _
  refine congrArg (V c main_v206) (funext fun a => Fin.ext ?_)
  match a with
  | ⟨0, _⟩ => show win5_6.index t (0 : Fin 2) * 256 + 1 * k.val = k.val; omega
  | ⟨1, _⟩ => show win5_6.index t (1 : Fin 2) * 256 + 1 * j.val = j.val; omega

/-- Every point's block of the summed bias row is the bias row. -/
theorem read_b (c : Dev nD) (t : Fin cfg5.N) (j : Fin 256) :
    iblk5 V c 7 t (ix2 (0 : Fin 1) j) = V c main_v208 (ix2 (0 : Fin 1) j) := by
  obtain ⟨e0, e1, e2, e3, e4, e5, e6, e7, e8, e9, e10, e11, e12, e13, e14, e15, e16, e17⟩ := idx_facts t
  show V c main_v208 (((cfg5.win 7).blk t).view.emb (ix2 (0 : Fin 1) j)) = _
  refine congrArg (V c main_v208) (funext fun a => Fin.ext ?_)
  match a with
  | ⟨0, _⟩ => show win5_7.index t (0 : Fin 2) * 1 + 1 * 0 = 0; omega
  | ⟨1, _⟩ => show win5_7.index t (1 : Fin 2) * 256 + 1 * j.val = j.val; omega

/-- Row r, column j of point t's result block is the result's entry at node `row t r`, column j. -/
theorem emb_out (t : Fin cfg5.N) (r : Fin 2000) (j : Fin 256) :
    ((cfg5.win 8).blk t).view.emb (ix2 r j) = ix2 (row t r) j := by
  obtain ⟨e0, e1, e2, e3, e4, e5, e6, e7, e8, e9, e10, e11, e12, e13, e14, e15, e16, e17⟩ := idx_facts t
  refine funext fun a => Fin.ext ?_
  match a with
  | ⟨0, _⟩ => show win5_8.index t (0 : Fin 2) * 2000 + 1 * r.val = t.val * 2000 + r.val; omega
  | ⟨1, _⟩ => show win5_8.index t (1 : Fin 2) * 256 + 1 * j.val = j.val; omega

/-- WHAT POINT t WRITES BACK is block t of the two-relation combine of the arrays as the region finds them: the
    body's value at row r and column j is four sums over the 256 hidden features plus the bias, and each
    factor in those sums is, by the block-read lemmas, the whole array's entry at node `row t r`. -/
theorem flushed_eq (c : Dev nD) (t : Fin cfg5.N) :
    (dat5 V c).flushed 8 t
      = ((cfg5.win 8).blk t).view.read (Elt Ideal) (Spec.comb4 (V c main_v164) (V c main_v186) (V c main_v108) (V c main_v200) (V c main_v202) (V c main_v204) (V c main_v206) (V c main_v208)) := by
  show (cfg5.win 8).cut (grid5.coords t) ((dat5 V c).after 8 t) = _
  rw [after5_8]
  unfold out5_8
  rw [View.canon_unit_zero hz]
  simp only [View.ld_unit_zero (S := S2000x256) hz, View.ld_unit_zero (S := S256x256) hz, View.ld_unit_zero (S := S1x256) hz]
  funext y
  obtain ⟨r, j, rfl⟩ : ∃ (r : Fin 2000) (j : Fin 256), (y : S2000x256.Idx) = ix2 r j := ⟨y 0, y 1, eq_ix2 y⟩
  show k5_pay1 (F := Ideal) (iblk5 V c 0 t) (iblk5 V c 1 t) (iblk5 V c 2 t) (iblk5 V c 3 t) (iblk5 V c 4 t) (iblk5 V c 5 t) (iblk5 V c 6 t) (iblk5 V c 7 t) (ix2 r j)
    = Spec.comb4 (V c main_v164) (V c main_v186) (V c main_v108) (V c main_v200) (V c main_v202) (V c main_v204) (V c main_v206) (V c main_v208) (((cfg5.win 8).blk t).view.emb (ix2 r j))
  rw [emb_out t r j]
  refine (k5_pay1_apply (iblk5 V c 0 t) (iblk5 V c 1 t) (iblk5 V c 2 t) (iblk5 V c 3 t) (iblk5 V c 4 t) (iblk5 V c 5 t) (iblk5 V c 6 t) (iblk5 V c 7 t) r j).trans ?_
  show _ = Spec.lin4At (V c main_v164) (V c main_v186) (V c main_v108) (V c main_v200) (V c main_v202) (V c main_v204) (V c main_v206) (V c main_v208) (row t r) j
  unfold Spec.lin4At Spec.dotAt
  simp only [read_m0 V c t r, read_m1 V c t r, read_xd V c t r, read_wl0 V c t, read_wr0 V c t, read_wl1 V c t, read_wr1 V c t, read_b V c t j]

/-- An entry of the result is in point t's block iff each coordinate is in the block's range on its axis. -/
theorem mem_blk (t : Fin cfg5.N) (i : S50000x256.Idx) :
    i ∈ ((cfg5.win 8).blk t).view.set ↔ ∀ a : Fin 2, win5_8.index t a * S2000x256.size a ≤ (i a).val
      ∧ (i a).val < win5_8.index t a * S2000x256.size a + S2000x256.size a := by
  show i ∈ ((View.whole main_v209).slice (win5_8.rect t)).set ↔ _
  rw [View.set_slice_whole, Rect.mem_set_unit]
  exact Iff.rfl

/-- The 25 blocks tile the result: node p's row is in the block of point p / 2000, and every column is in it. -/
theorem cover (i : S50000x256.Idx) :
    ∃ t : Fin cfg5.N, (cfg5.win 8).flush t = true ∧ i ∈ ((cfg5.win 8).blk t).view.set := by
  have hi0 : (i 0).val < 50000 := idx2_lt0 i
  have hi1 : (i 1).val < 256 := idx2_lt1 i
  have hN : cfg5.N = 25 := N_5
  refine ⟨⟨(i 0).val / 2000, by rw [hN]; omega⟩, flush5_8 _, ?_⟩
  obtain ⟨e0, e1, e2, e3, e4, e5, e6, e7, e8, e9, e10, e11, e12, e13, e14, e15, e16, e17⟩ := idx_facts ⟨(i 0).val / 2000, by rw [hN]; omega⟩
  rw [mem_blk]
  intro a
  match a with
  | ⟨0, _⟩ =>
    show win5_8.index _ (0 : Fin 2) * 2000 ≤ (i 0).val ∧ (i 0).val < win5_8.index _ (0 : Fin 2) * 2000 + 2000
    rw [e16]; show (i 0).val / 2000 * 2000 ≤ (i 0).val ∧ (i 0).val < (i 0).val / 2000 * 2000 + 2000; omega
  | ⟨1, _⟩ =>
    show win5_8.index _ (1 : Fin 2) * 256 ≤ (i 1).val ∧ (i 1).val < win5_8.index _ (1 : Fin 2) * 256 + 256
    rw [e17]; omega

/-- THE RESULT ARRAY after the region: the two-relation combine of the arrays the region found. -/
theorem final (c : Dev nD) :
    (dat5 V c).arrAt 8 cfg5.N = Spec.comb4 (V c main_v164) (V c main_v186) (V c main_v108) (V c main_v200) (V c main_v202) (V c main_v204) (V c main_v206) (V c main_v208) :=
  (dat5 V c).arrAt_eq_of_cover 8 _ (fun t _ => flushed_eq V c t) cover

end Cert.KernelIdeal.Arr5

end
-- ==== Proof.PayDot.lean ====
/-
  The edge classifier's body at a row.

  A grid point holds 2000 rows of each gathered node-feature operand.  What it stores at row r (the result has one
  column) is the sum over the 256 hidden features of the two operands' products at (r, k): the lane sum starts
  from zero, and the cast from a vector of 2000 entries to a 2000 × 1 column moves nothing.
-/
import proofs.«103163_j26482768347972_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- Row r of the reduced vector, with column k put back, is (r, k). -/
theorem lift_row (h : (⟨2, ![2000, 256]⟩ : Shape).Reduces [1] (⟨1, ![2000]⟩ : Shape)) (r : Fin 2000)
    (k : Fin ((⟨2, ![2000, 256]⟩ : Shape).size 1)) : h.lift (ix1 r) k = ix2 r (⟨k.val, k.isLt⟩ : Fin 256) := by
  funext c; apply Fin.ext
  fin_cases c <;> rfl

/-- The lane sum of a block, from zero, at row r: the sum of the row. -/
theorem laneSum_apply (v : FVec Ideal S2000x256 .f32) (hacc : (0x00000000#32 : BitVec 32) = 0x00000000#32) (r : Fin 2000) :
    multiReduction .add [1] S2000 v 0x00000000#32 reduces_S2000x256_S2000 (.inl rfl) hacc (ix1 r)
      = ∑ k : Fin 256, v (ix2 r k) := by
  refine (Ideal.multiReduction_add_single v 0x00000000#32 reduces_S2000x256_S2000 (.inl rfl) hacc (ix1 r)).trans ?_
  exact Finset.sum_congr rfl fun k _ => congrArg v (lift_row reduces_S2000x256_S2000 r k)

/-- A vector of 2000 entries cast to a 2000 × 1 column, read at (r, 0), is the vector at r. -/
theorem column_apply (v : FVec Ideal S2000 .f32) (r : Fin 2000) :
    shapeCast S2000x1 v shapeCasts_S2000_S2000x1 (ix2 r (0 : Fin 1)) = v (ix1 r) :=
  shapeCast_apply v shapeCasts_S2000_S2000x1 (ix2 r (0 : Fin 1)) (ix1 r) (by
    rw [Shape.rowMajor_val_two, Shape.rowMajor_val_one]; show r.val = r.val * 1 + 0; omega)

/-- The first classifier's body at row r. -/
theorem k6_pay1_apply (a b : Vec Ideal S2000x256 .f32) (r : Fin 2000) :
    k6_pay1 (F := Ideal) a b (ix2 r (0 : Fin 1)) = ∑ k : Fin 256, a (ix2 r k) * b (ix2 r k) := by
  unfold k6_pay1
  show shapeCast S2000x1 (multiReduction (F := Ideal) .add [1] S2000 (mulf (F := Ideal) (shapeCast S2000x256 a shapeCasts_S2000x256_S2000x256)
      (shapeCast S2000x256 b shapeCasts_S2000x256_S2000x256)) 0x00000000#32 reduces_S2000x256_S2000 (.inl rfl) rfl)
      shapeCasts_S2000_S2000x1 (ix2 r (0 : Fin 1)) = _
  simp only [shapeCast_self]
  refine (column_apply _ r).trans ?_
  exact laneSum_apply _ rfl r

/-- The second classifier's body is the same arithmetic. -/
theorem k7_pay1_apply (a b : Vec Ideal S2000x256 .f32) (r : Fin 2000) :
    k7_pay1 (F := Ideal) a b (ix2 r (0 : Fin 1)) = ∑ k : Fin 256, a (ix2 r k) * b (ix2 r k) :=
  k6_pay1_apply a b r

end Cert.KernelIdeal.Pay

end
-- ==== Proof.Arr6.lean ====
/-
  The first edge classifier: its score array as ONE function of the arrays the region finds.

  The region has 100 grid points.  Point t fetches rows 2000·t … 2000·t + 1999 of each of the two gathered
  node-feature operands (one row per labelled edge) and writes back rows 2000·t … 2000·t + 1999 of the one-column
  score array.  So the score of edge e is the sum over the 256 hidden features of the two operands' products at
  (e, k) — whichever point wrote it — and the 100 blocks tile the 200000 rows.
-/
import proofs.«103163_j26482768347972_1_alg».proof.Proof.Gen.KernelIdeal.Frame
import proofs.«103163_j26482768347972_1_alg».proof.Proof.PayDot
import proofs.«103163_j26482768347972_1_alg».proof.Proof.Spec
import Idealize.ShloMosaic.Lib.Pipeline.Value

set_option maxRecDepth 16384

noncomputable section

namespace Cert.KernelIdeal.Arr6

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: both gathered-row windows and the score window sit at block row t. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

theorem t_lt (t : Fin cfg6.N) : t.val < 100 := Nat.lt_of_lt_of_eq t.isLt N_6

/-- The labelled edge whose row is row r of point t's block. -/
def row (t : Fin cfg6.N) (r : Fin 2000) : Fin 200000 := ⟨t.val * 2000 + r.val, by have := t_lt t; have := r.isLt; omega⟩

/-- Point t's block of the first gathered operand, at row r and feature k, is edge `row t r`'s entry at feature k. -/
theorem read_u (c : Dev nD) (t : Fin cfg6.N) (r : Fin 2000) (k : Fin 256) :
    iblk6 V c 0 t (ix2 r k) = V c main_v218 (ix2 (row t r) k) := by
  obtain ⟨e0, e1, -⟩ := idx_facts t
  show V c main_v218 (((cfg6.win 0).blk t).view.emb (ix2 r k)) = _
  refine congrArg (V c main_v218) (funext fun a => Fin.ext ?_)
  match a with
  | ⟨0, _⟩ => show win6_0.index t (0 : Fin 2) * 2000 + 1 * r.val = t.val * 2000 + r.val; omega
  | ⟨1, _⟩ => show win6_0.index t (1 : Fin 2) * 256 + 1 * k.val = k.val; omega

/-- Point t's block of the second gathered operand, at row r and feature k, is edge `row t r`'s entry at feature k. -/
theorem read_v (c : Dev nD) (t : Fin cfg6.N) (r : Fin 2000) (k : Fin 256) :
    iblk6 V c 1 t (ix2 r k) = V c main_v227 (ix2 (row t r) k) := by
  obtain ⟨-, -, e2, e3, -⟩ := idx_facts t
  show V c main_v227 (((cfg6.win 1).blk t).view.emb (ix2 r k)) = _
  refine congrArg (V c main_v227) (funext fun a => Fin.ext ?_)
  match a with
  | ⟨0, _⟩ => show win6_1.index t (0 : Fin 2) * 2000 + 1 * r.val = t.val * 2000 + r.val; omega
  | ⟨1, _⟩ => show win6_1.index t (1 : Fin 2) * 256 + 1 * k.val = k.val; omega

/-- Row r of point t's score block (its one column) is the score array's entry at edge `row t r`. -/
theorem emb_out (t : Fin cfg6.N) (r : Fin 2000) :
    ((cfg6.win 2).blk t).view.emb (ix2 r (0 : Fin 1)) = ix2 (row t r) (0 : Fin 1) := by
  obtain ⟨-, -, -, -, e4, e5⟩ := idx_facts t
  refine funext fun a => Fin.ext ?_
  match a with
  | ⟨0, _⟩ => show win6_2.index t (0 : Fin 2) * 2000 + 1 * r.val = t.val * 2000 + r.val; omega
  | ⟨1, _⟩ => show win6_2.index t (1 : Fin 2) * 1 + 1 * 0 = 0; omega

/-- WHAT POINT t WRITES BACK is block t of the row-by-row products' sums of the arrays as the region finds them. -/
theorem flushed_eq (c : Dev nD) (t : Fin cfg6.N) :
    (dat6 V c).flushed 2 t
      = ((cfg6.win 2).blk t).view.read (Elt Ideal) (Spec.rowdot (V c main_v218) (V c main_v227)) := by
  show (cfg6.win 2).cut (grid6.coords t) ((dat6 V c).after 2 t) = _
  rw [after6_2]
  unfold out6_2
  rw [View.canon_unit_zero hz]
  simp only [View.ld_unit_zero (S := S2000x256) hz]
  funext y
  obtain ⟨r, rfl⟩ : ∃ (r : Fin 2000), (y : S2000x1.Idx) = ix2 r (0 : Fin 1) :=
    ⟨y 0, (eq_ix2 y).trans (congrArg (ix2 (y 0)) (Subsingleton.elim (α := Fin 1) (y 1) 0))⟩
  show k6_pay1 (F := Ideal) (iblk6 V c 0 t) (iblk6 V c 1 t) (ix2 r (0 : Fin 1))
    = Spec.rowdot (V c main_v218) (V c main_v227) (((cfg6.win 2).blk t).view.emb (ix2 r (0 : Fin 1)))
  rw [emb_out t r]
  refine (k6_pay1_apply (iblk6 V c 0 t) (iblk6 V c 1 t) r).trans ?_
  unfold Spec.rowdot
  rw [Spec.ofEntries_ix2]
  simp only [read_u V c t r, read_v V c t r]

/-- An entry of the score array is in point t's block iff each coordinate is in the block's range on its axis. -/
theorem mem_blk (t : Fin cfg6.N) (i : S200000x1.Idx) :
    i ∈ ((cfg6.win 2).blk t).view.set ↔ ∀ a : Fin 2, win6_2.index t a * S2000x1.size a ≤ (i a).val
      ∧ (i a).val < win6_2.index t a * S2000x1.size a + S2000x1.size a := by
  show i ∈ ((View.whole main_v228).slice (win6_2.rect t)).set ↔ _
  rw [View.set_slice_whole, Rect.mem_set_unit]
  exact Iff.rfl

/-- The 100 blocks tile the score array: edge e's entry lies in the block of point e / 2000. -/
theorem cover (i : S200000x1.Idx) :
    ∃ t : Fin cfg6.N, (cfg6.win 2).flush t = true ∧ i ∈ ((cfg6.win 2).blk t).view.set := by
  have hi0 : (i 0).val < 200000 := idx2_lt0 i
  have hi1 : (i 1).val < 1 := idx2_lt1 i
  have hN : cfg6.N = 100 := N_6
  refine ⟨⟨(i 0).val / 2000, by rw [hN]; omega⟩, flush6_2 _, ?_⟩
  obtain ⟨-, -, -, -, e4, e5⟩ := idx_facts ⟨(i 0).val / 2000, by rw [hN]; omega⟩
  rw [mem_blk]
  intro a
  match a with
  | ⟨0, _⟩ =>
    show win6_2.index _ (0 : Fin 2) * 2000 ≤ (i 0).val ∧ (i 0).val < win6_2.index _ (0 : Fin 2) * 2000 + 2000
    rw [e4]; show (i 0).val / 2000 * 2000 ≤ (i 0).val ∧ (i 0).val < (i 0).val / 2000 * 2000 + 2000; omega
  | ⟨1, _⟩ =>
    show win6_2.index _ (1 : Fin 2) * 1 ≤ (i 1).val ∧ (i 1).val < win6_2.index _ (1 : Fin 2) * 1 + 1
    rw [e5]; omega

/-- THE SCORE ARRAY after the region: each edge's sum of products of the two arrays the region found. -/
theorem final (c : Dev nD) :
    (dat6 V c).arrAt 2 cfg6.N = Spec.rowdot (V c main_v218) (V c main_v227) :=
  (dat6 V c).arrAt_eq_of_cover 2 _ (fun t _ => flushed_eq V c t) cover

end Cert.KernelIdeal.Arr6

end
-- ==== Proof.Arr7.lean ====
/-
  The second edge classifier: its score array as ONE function of the arrays the region finds.

  The region has 100 grid points.  Point t fetches rows 2000·t … 2000·t + 1999 of each of the two gathered
  node-feature operands (one row per labelled edge) and writes back rows 2000·t … 2000·t + 1999 of the one-column
  score array.  So the score of edge e is the sum over the 256 hidden features of the two operands' products at
  (e, k) — whichever point wrote it — and the 100 blocks tile the 200000 rows.
-/
import proofs.«103163_j26482768347972_1_alg».proof.Proof.Gen.KernelIdeal.Frame
import proofs.«103163_j26482768347972_1_alg».proof.Proof.PayDot
import proofs.«103163_j26482768347972_1_alg».proof.Proof.Spec
import Idealize.ShloMosaic.Lib.Pipeline.Value

set_option maxRecDepth 16384

noncomputable section

namespace Cert.KernelIdeal.Arr7

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: both gathered-row windows and the score window sit at block row t. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

theorem t_lt (t : Fin cfg7.N) : t.val < 100 := Nat.lt_of_lt_of_eq t.isLt N_7

/-- The labelled edge whose row is row r of point t's block. -/
def row (t : Fin cfg7.N) (r : Fin 2000) : Fin 200000 := ⟨t.val * 2000 + r.val, by have := t_lt t; have := r.isLt; omega⟩

/-- Point t's block of the first gathered operand, at row r and feature k, is edge `row t r`'s entry at feature k. -/
theorem read_u (c : Dev nD) (t : Fin cfg7.N) (r : Fin 2000) (k : Fin 256) :
    iblk7 V c 0 t (ix2 r k) = V c main_v238 (ix2 (row t r) k) := by
  obtain ⟨e0, e1, -⟩ := idx_facts t
  show V c main_v238 (((cfg7.win 0).blk t).view.emb (ix2 r k)) = _
  refine congrArg (V c main_v238) (funext fun a => Fin.ext ?_)
  match a with
  | ⟨0, _⟩ => show win7_0.index t (0 : Fin 2) * 2000 + 1 * r.val = t.val * 2000 + r.val; omega
  | ⟨1, _⟩ => show win7_0.index t (1 : Fin 2) * 256 + 1 * k.val = k.val; omega

/-- Point t's block of the second gathered operand, at row r and feature k, is edge `row t r`'s entry at feature k. -/
theorem read_v (c : Dev nD) (t : Fin cfg7.N) (r : Fin 2000) (k : Fin 256) :
    iblk7 V c 1 t (ix2 r k) = V c main_v247 (ix2 (row t r) k) := by
  obtain ⟨-, -, e2, e3, -⟩ := idx_facts t
  show V c main_v247 (((cfg7.win 1).blk t).view.emb (ix2 r k)) = _
  refine congrArg (V c main_v247) (funext fun a => Fin.ext ?_)
  match a with
  | ⟨0, _⟩ => show win7_1.index t (0 : Fin 2) * 2000 + 1 * r.val = t.val * 2000 + r.val; omega
  | ⟨1, _⟩ => show win7_1.index t (1 : Fin 2) * 256 + 1 * k.val = k.val; omega

/-- Row r of point t's score block (its one column) is the score array's entry at edge `row t r`. -/
theorem emb_out (t : Fin cfg7.N) (r : Fin 2000) :
    ((cfg7.win 2).blk t).view.emb (ix2 r (0 : Fin 1)) = ix2 (row t r) (0 : Fin 1) := by
  obtain ⟨-, -, -, -, e4, e5⟩ := idx_facts t
  refine funext fun a => Fin.ext ?_
  match a with
  | ⟨0, _⟩ => show win7_2.index t (0 : Fin 2) * 2000 + 1 * r.val = t.val * 2000 + r.val; omega
  | ⟨1, _⟩ => show win7_2.index t (1 : Fin 2) * 1 + 1 * 0 = 0; omega

/-- WHAT POINT t WRITES BACK is block t of the row-by-row products' sums of the arrays as the region finds them. -/
theorem flushed_eq (c : Dev nD) (t : Fin cfg7.N) :
    (dat7 V c).flushed 2 t
      = ((cfg7.win 2).blk t).view.read (Elt Ideal) (Spec.rowdot (V c main_v238) (V c main_v247)) := by
  show (cfg7.win 2).cut (grid7.coords t) ((dat7 V c).after 2 t) = _
  rw [after7_2]
  unfold out7_2
  rw [View.canon_unit_zero hz]
  simp only [View.ld_unit_zero (S := S2000x256) hz]
  funext y
  obtain ⟨r, rfl⟩ : ∃ (r : Fin 2000), (y : S2000x1.Idx) = ix2 r (0 : Fin 1) :=
    ⟨y 0, (eq_ix2 y).trans (congrArg (ix2 (y 0)) (Subsingleton.elim (α := Fin 1) (y 1) 0))⟩
  show k7_pay1 (F := Ideal) (iblk7 V c 0 t) (iblk7 V c 1 t) (ix2 r (0 : Fin 1))
    = Spec.rowdot (V c main_v238) (V c main_v247) (((cfg7.win 2).blk t).view.emb (ix2 r (0 : Fin 1)))
  rw [emb_out t r]
  refine (k7_pay1_apply (iblk7 V c 0 t) (iblk7 V c 1 t) r).trans ?_
  unfold Spec.rowdot
  rw [Spec.ofEntries_ix2]
  simp only [read_u V c t r, read_v V c t r]

/-- An entry of the score array is in point t's block iff each coordinate is in the block's range on its axis. -/
theorem mem_blk (t : Fin cfg7.N) (i : S200000x1.Idx) :
    i ∈ ((cfg7.win 2).blk t).view.set ↔ ∀ a : Fin 2, win7_2.index t a * S2000x1.size a ≤ (i a).val
      ∧ (i a).val < win7_2.index t a * S2000x1.size a + S2000x1.size a := by
  show i ∈ ((View.whole main_v248).slice (win7_2.rect t)).set ↔ _
  rw [View.set_slice_whole, Rect.mem_set_unit]
  exact Iff.rfl

/-- The 100 blocks tile the score array: edge e's entry lies in the block of point e / 2000. -/
theorem cover (i : S200000x1.Idx) :
    ∃ t : Fin cfg7.N, (cfg7.win 2).flush t = true ∧ i ∈ ((cfg7.win 2).blk t).view.set := by
  have hi0 : (i 0).val < 200000 := idx2_lt0 i
  have hi1 : (i 1).val < 1 := idx2_lt1 i
  have hN : cfg7.N = 100 := N_7
  refine ⟨⟨(i 0).val / 2000, by rw [hN]; omega⟩, flush7_2 _, ?_⟩
  obtain ⟨-, -, -, -, e4, e5⟩ := idx_facts ⟨(i 0).val / 2000, by rw [hN]; omega⟩
  rw [mem_blk]
  intro a
  match a with
  | ⟨0, _⟩ =>
    show win7_2.index _ (0 : Fin 2) * 2000 ≤ (i 0).val ∧ (i 0).val < win7_2.index _ (0 : Fin 2) * 2000 + 2000
    rw [e4]; show (i 0).val / 2000 * 2000 ≤ (i 0).val ∧ (i 0).val < (i 0).val / 2000 * 2000 + 2000; omega
  | ⟨1, _⟩ =>
    show win7_2.index _ (1 : Fin 2) * 1 ≤ (i 1).val ∧ (i 1).val < win7_2.index _ (1 : Fin 2) * 1 + 1
    rw [e5]; omega

/-- THE SCORE ARRAY after the region: each edge's sum of products of the two arrays the region found. -/
theorem final (c : Dev nD) :
    (dat7 V c).arrAt 2 cfg7.N = Spec.rowdot (V c main_v238) (V c main_v247) :=
  (dat7 V c).arrAt_eq_of_cover 2 _ (fun t _ => flushed_eq V c t) cover

end Cert.KernelIdeal.Arr7

end
-- ==== Proof.Walk.lean ====
/-
  Which buffers still hold, at a later segment boundary of the program, what they held at an earlier one.

  The program is a chain of stretches of host operations and of eight kernel regions.  A stretch of host operations
  changes exactly the buffers its operations produce — each operation has one result buffer — and a region changes
  only its result array: its input arrays come out as they went in, and a buffer that is none of its arrays is not
  touched at all.  So to carry a buffer's contents across a step it is enough to see that the buffer is not among
  the step's results.  For every stretch we list the result buffers once, in order, and show once that every
  operation of the stretch writes inside that list; a buffer outside the list then keeps its contents, and being
  outside a literal list of references is decided by comparing references.

  Two families of facts follow, each layer from the one before:
  * the arguments that carry the combine weights, the biases and the edge lists are, at every boundary up to the
    last region that uses them, still what the launch memory holds;
  * each intermediate result (the two projections, the two layers' outputs on both sides, the first score vector)
    is unchanged from the boundary where its region produced it up to the last boundary where it is read.
-/
import proofs.«103163_j26482768347972_1_alg».proof.Proof.Gen.KernelIdeal.Frame
import Idealize.ShloMosaic.PureOps.Ideal
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## A stretch of host operations keeps every buffer that is not one of its results -/

/-- An operation whose one result buffer is in a list of references writes inside that list. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The result buffers of stretch 0, in order (the first projection's transposed, narrowed weight and its bias row). -/
abbrev writes0 : List (Ref sig .tc) :=
  [main_v0, main_v1, main_v2]

/-- Every operation of stretch 0 writes inside that list: each operation's written set is its one result buffer. -/
theorem hW0 : (hostOps0 : List (HloOp τ sig (Elt Ideal))).Forall
    fun op => op.writes ⊆ (writes0.map (Proc.devRef (τ := τ) .tc)).toFinset := by
  simp only [hostOps0, List.Forall, nullary_writes, unary_writes, binary_writes, ternary_writes, reshape_writes]
  repeat' apply And.intro
  all_goals exact single_sub (by decide)

/-- A buffer that is no result of stretch 0 holds after it what it held before. -/
theorem keep0 (V : Valuation τ sig (Elt Ideal)) (r : Ref sig .tc) (hr : r ∉ writes0) :
    after hostOps0 V (Proc.devRef .tc r) = V (Proc.devRef .tc r) :=
  after_of_writes_sub hostOps0 V hW0 hr

/-- The result buffers of stretch 1, in order (the second projection's transposed, narrowed weight and its bias row). -/
abbrev writes1 : List (Ref sig .tc) :=
  [main_v4, main_v5, main_v6]

/-- Every operation of stretch 1 writes inside that list: each operation's written set is its one result buffer. -/
theorem hW1 : (hostOps1 : List (HloOp τ sig (Elt Ideal))).Forall
    fun op => op.writes ⊆ (writes1.map (Proc.devRef (τ := τ) .tc)).toFinset := by
  simp only [hostOps1, List.Forall, nullary_writes, unary_writes, binary_writes, ternary_writes, reshape_writes]
  repeat' apply And.intro
  all_goals exact single_sub (by decide)

/-- A buffer that is no result of stretch 1 holds after it what it held before. -/
theorem keep1 (V : Valuation τ sig (Elt Ideal)) (r : Ref sig .tc) (hr : r ∉ writes1) :
    after hostOps1 V (Proc.devRef .tc r) = V (Proc.devRef .tc r) :=
  after_of_writes_sub hostOps1 V hW1 hr

/-- The result buffers of stretch 2, in order (the neighbour mean for the first layer's one-relation combine, with that combine's weights and bias). -/
abbrev writes2 : List (Ref sig .tc) :=
  [main_v8, main_v9, main_c, main_v10, main_v11, main_c_0, main_v12, main_v13, main_v14, main_v15, main_v16,
   main_v17, main_v18, main_cst, main_v19, main_v20, main_v21, main_cst_1, main_v22, main_cst_2, main_v23,
   main_v24, main_v25, main_cst_3, main_v26, main_v27, main_v28, main_v29, main_v30, main_v31, main_v32, main_v33,
   main_v34, main_v35, main_v36, main_v37, main_v38, main_v39, main_v40]

/-- Every operation of stretch 2 writes inside that list: each operation's written set is its one result buffer. -/
theorem hW2 : (hostOps2 : List (HloOp τ sig (Elt Ideal))).Forall
    fun op => op.writes ⊆ (writes2.map (Proc.devRef (τ := τ) .tc)).toFinset := by
  simp only [hostOps2, List.Forall, nullary_writes, unary_writes, binary_writes, ternary_writes, reshape_writes]
  repeat' apply And.intro
  all_goals exact single_sub (by decide)

/-- A buffer that is no result of stretch 2 holds after it what it held before. -/
theorem keep2 (V : Valuation τ sig (Elt Ideal)) (r : Ref sig .tc) (hr : r ∉ writes2) :
    after hostOps2 V (Proc.devRef .tc r) = V (Proc.devRef .tc r) :=
  after_of_writes_sub hostOps2 V hW2 hr

/-- The result buffers of stretch 3, in order (the two neighbour means for the first layer's two-relation combine, with its four weights and summed bias). -/
abbrev writes3 : List (Ref sig .tc) :=
  [main_v42, main_v43, main_c_4, main_v44, main_v45, main_c_5, main_v46, main_v47, main_v48, main_v49, main_v50,
   main_v51, main_v52, main_cst_6, main_v53, main_v54, main_v55, main_cst_7, main_v56, main_cst_8, main_v57,
   main_v58, main_v59, main_cst_9, main_v60, main_v61, main_v62, main_v63, main_v64, main_v65, main_c_10, main_v66,
   main_v67, main_c_11, main_v68, main_v69, main_v70, main_v71, main_v72, main_v73, main_v74, main_cst_12,
   main_v75, main_v76, main_v77, main_cst_13, main_v78, main_cst_14, main_v79, main_v80, main_v81, main_cst_15,
   main_v82, main_v83, main_v84, main_v85, main_v86, main_v87, main_v88, main_v89, main_v90, main_v91, main_v92,
   main_v93, main_v94, main_v95, main_v96, main_v97, main_v98, main_v99, main_v100, main_v101, main_v102,
   main_v103, main_v104, main_v105, main_v106, main_v107]

/-- Every operation of stretch 3 writes inside that list: each operation's written set is its one result buffer. -/
theorem hW3 : (hostOps3 : List (HloOp τ sig (Elt Ideal))).Forall
    fun op => op.writes ⊆ (writes3.map (Proc.devRef (τ := τ) .tc)).toFinset := by
  simp only [hostOps3, List.Forall, nullary_writes, unary_writes, binary_writes, ternary_writes, reshape_writes]
  repeat' apply And.intro
  all_goals exact single_sub (by decide)

/-- A buffer that is no result of stretch 3 holds after it what it held before. -/
theorem keep3 (V : Valuation τ sig (Elt Ideal)) (r : Ref sig .tc) (hr : r ∉ writes3) :
    after hostOps3 V (Proc.devRef .tc r) = V (Proc.devRef .tc r) :=
  after_of_writes_sub hostOps3 V hW3 hr

/-- The result buffers of stretch 4, in order (the neighbour mean for the second layer's one-relation combine, with that combine's weights and bias). -/
abbrev writes4 : List (Ref sig .tc) :=
  [main_v109, main_v110, main_c_16, main_v111, main_v112, main_c_17, main_v113, main_v114, main_v115, main_v116,
   main_v117, main_v118, main_v119, main_cst_18, main_v120, main_v121, main_v122, main_cst_19, main_v123,
   main_cst_20, main_v124, main_v125, main_v126, main_cst_21, main_v127, main_v128, main_v129, main_v130,
   main_v131, main_v132, main_v133, main_v134, main_v135, main_v136, main_v137, main_v138, main_v139, main_v140,
   main_v141]

/-- Every operation of stretch 4 writes inside that list: each operation's written set is its one result buffer. -/
theorem hW4 : (hostOps4 : List (HloOp τ sig (Elt Ideal))).Forall
    fun op => op.writes ⊆ (writes4.map (Proc.devRef (τ := τ) .tc)).toFinset := by
  simp only [hostOps4, List.Forall, nullary_writes, unary_writes, binary_writes, ternary_writes, reshape_writes]
  repeat' apply And.intro
  all_goals exact single_sub (by decide)

/-- A buffer that is no result of stretch 4 holds after it what it held before. -/
theorem keep4 (V : Valuation τ sig (Elt Ideal)) (r : Ref sig .tc) (hr : r ∉ writes4) :
    after hostOps4 V (Proc.devRef .tc r) = V (Proc.devRef .tc r) :=
  after_of_writes_sub hostOps4 V hW4 hr

/-- The result buffers of stretch 5, in order (the two neighbour means for the second layer's two-relation combine, with its four weights and summed bias). -/
abbrev writes5 : List (Ref sig .tc) :=
  [main_v143, main_v144, main_c_22, main_v145, main_v146, main_c_23, main_v147, main_v148, main_v149, main_v150,
   main_v151, main_v152, main_v153, main_cst_24, main_v154, main_v155, main_v156, main_cst_25, main_v157,
   main_cst_26, main_v158, main_v159, main_v160, main_cst_27, main_v161, main_v162, main_v163, main_v164,
   main_v165, main_v166, main_c_28, main_v167, main_v168, main_c_29, main_v169, main_v170, main_v171, main_v172,
   main_v173, main_v174, main_v175, main_cst_30, main_v176, main_v177, main_v178, main_cst_31, main_v179,
   main_cst_32, main_v180, main_v181, main_v182, main_cst_33, main_v183, main_v184, main_v185, main_v186,
   main_v187, main_v188, main_v189, main_v190, main_v191, main_v192, main_v193, main_v194, main_v195, main_v196,
   main_v197, main_v198, main_v199, main_v200, main_v201, main_v202, main_v203, main_v204, main_v205, main_v206,
   main_v207, main_v208]

/-- Every operation of stretch 5 writes inside that list: each operation's written set is its one result buffer. -/
theorem hW5 : (hostOps5 : List (HloOp τ sig (Elt Ideal))).Forall
    fun op => op.writes ⊆ (writes5.map (Proc.devRef (τ := τ) .tc)).toFinset := by
  simp only [hostOps5, List.Forall, nullary_writes, unary_writes, binary_writes, ternary_writes, reshape_writes]
  repeat' apply And.intro
  all_goals exact single_sub (by decide)

/-- A buffer that is no result of stretch 5 holds after it what it held before. -/
theorem keep5 (V : Valuation τ sig (Elt Ideal)) (r : Ref sig .tc) (hr : r ∉ writes5) :
    after hostOps5 V (Proc.devRef .tc r) = V (Proc.devRef .tc r) :=
  after_of_writes_sub hostOps5 V hW5 hr

/-- The result buffers of stretch 6, in order (the two gathered row sets of the first edge score). -/
abbrev writes6 : List (Ref sig .tc) :=
  [main_v210, main_v211, main_c_34, main_v212, main_v213, main_c_35, main_v214, main_v215, main_v216, main_v217,
   main_v218, main_v219, main_v220, main_c_36, main_v221, main_v222, main_c_37, main_v223, main_v224, main_v225,
   main_v226, main_v227]

/-- Every operation of stretch 6 writes inside that list: each operation's written set is its one result buffer. -/
theorem hW6 : (hostOps6 : List (HloOp τ sig (Elt Ideal))).Forall
    fun op => op.writes ⊆ (writes6.map (Proc.devRef (τ := τ) .tc)).toFinset := by
  simp only [hostOps6, List.Forall, nullary_writes, unary_writes, binary_writes, ternary_writes, reshape_writes]
  repeat' apply And.intro
  all_goals exact single_sub (by decide)

/-- A buffer that is no result of stretch 6 holds after it what it held before. -/
theorem keep6 (V : Valuation τ sig (Elt Ideal)) (r : Ref sig .tc) (hr : r ∉ writes6) :
    after hostOps6 V (Proc.devRef .tc r) = V (Proc.devRef .tc r) :=
  after_of_writes_sub hostOps6 V hW6 hr

/-- The result buffers of stretch 8, in order (the second score vector flattened). -/
abbrev writes8 : List (Ref sig .tc) :=
  [main_v249]

/-- Every operation of stretch 8 writes inside that list: each operation's written set is its one result buffer. -/
theorem hW8 : (hostOps8 : List (HloOp τ sig (Elt Ideal))).Forall
    fun op => op.writes ⊆ (writes8.map (Proc.devRef (τ := τ) .tc)).toFinset := by
  simp only [hostOps8, List.Forall, nullary_writes, unary_writes, binary_writes, ternary_writes, reshape_writes]
  exact single_sub (by decide)

/-- A buffer that is no result of stretch 8 holds after it what it held before. -/
theorem keep8 (V : Valuation τ sig (Elt Ideal)) (r : Ref sig .tc) (hr : r ∉ writes8) :
    after hostOps8 V (Proc.devRef .tc r) = V (Proc.devRef .tc r) :=
  after_of_writes_sub hostOps8 V hW8 hr

/-! ## The arguments are still the launch memory's

    No host operation produces an argument and no region has one of these arguments among its arrays, so each
    step — across a region, then back across the stretch before it — leaves the argument's buffer alone, down to
    the launch, where the buffer holds the launch memory by definition. -/

/-! ### At region 0's exit -/

theorem W2_arg6 (c : Dev nD) : W2 m ρ c (Proc.devRef .tc main_arg6) = m ((c : Thread nD τ).loc main_arg6) := by
  rw [W2_of_ne m ρ c main_arg6 (by decide)]
  exact keep0 (W0 m ρ c) main_arg6 (by decide)
theorem W2_arg7 (c : Dev nD) : W2 m ρ c (Proc.devRef .tc main_arg7) = m ((c : Thread nD τ).loc main_arg7) := by
  rw [W2_of_ne m ρ c main_arg7 (by decide)]
  exact keep0 (W0 m ρ c) main_arg7 (by decide)
theorem W2_arg8 (c : Dev nD) : W2 m ρ c (Proc.devRef .tc main_arg8) = m ((c : Thread nD τ).loc main_arg8) := by
  rw [W2_of_ne m ρ c main_arg8 (by decide)]
  exact keep0 (W0 m ρ c) main_arg8 (by decide)
theorem W2_arg9 (c : Dev nD) : W2 m ρ c (Proc.devRef .tc main_arg9) = m ((c : Thread nD τ).loc main_arg9) := by
  rw [W2_of_ne m ρ c main_arg9 (by decide)]
  exact keep0 (W0 m ρ c) main_arg9 (by decide)
theorem W2_arg10 (c : Dev nD) : W2 m ρ c (Proc.devRef .tc main_arg10) = m ((c : Thread nD τ).loc main_arg10) := by
  rw [W2_of_ne m ρ c main_arg10 (by decide)]
  exact keep0 (W0 m ρ c) main_arg10 (by decide)
theorem W2_arg11 (c : Dev nD) : W2 m ρ c (Proc.devRef .tc main_arg11) = m ((c : Thread nD τ).loc main_arg11) := by
  rw [W2_of_ne m ρ c main_arg11 (by decide)]
  exact keep0 (W0 m ρ c) main_arg11 (by decide)
theorem W2_arg12 (c : Dev nD) : W2 m ρ c (Proc.devRef .tc main_arg12) = m ((c : Thread nD τ).loc main_arg12) := by
  rw [W2_of_ne m ρ c main_arg12 (by decide)]
  exact keep0 (W0 m ρ c) main_arg12 (by decide)
theorem W2_arg13 (c : Dev nD) : W2 m ρ c (Proc.devRef .tc main_arg13) = m ((c : Thread nD τ).loc main_arg13) := by
  rw [W2_of_ne m ρ c main_arg13 (by decide)]
  exact keep0 (W0 m ρ c) main_arg13 (by decide)
theorem W2_arg14 (c : Dev nD) : W2 m ρ c (Proc.devRef .tc main_arg14) = m ((c : Thread nD τ).loc main_arg14) := by
  rw [W2_of_ne m ρ c main_arg14 (by decide)]
  exact keep0 (W0 m ρ c) main_arg14 (by decide)
theorem W2_arg15 (c : Dev nD) : W2 m ρ c (Proc.devRef .tc main_arg15) = m ((c : Thread nD τ).loc main_arg15) := by
  rw [W2_of_ne m ρ c main_arg15 (by decide)]
  exact keep0 (W0 m ρ c) main_arg15 (by decide)
theorem W2_arg16 (c : Dev nD) : W2 m ρ c (Proc.devRef .tc main_arg16) = m ((c : Thread nD τ).loc main_arg16) := by
  rw [W2_of_ne m ρ c main_arg16 (by decide)]
  exact keep0 (W0 m ρ c) main_arg16 (by decide)

/-! ### At region 1's exit -/

theorem W4_arg6 (c : Dev nD) : W4 m ρ c (Proc.devRef .tc main_arg6) = m ((c : Thread nD τ).loc main_arg6) := by
  rw [W4_of_ne m ρ c main_arg6 (by decide)]
  exact (keep1 (W2 m ρ c) main_arg6 (by decide)).trans (W2_arg6 m ρ c)
theorem W4_arg7 (c : Dev nD) : W4 m ρ c (Proc.devRef .tc main_arg7) = m ((c : Thread nD τ).loc main_arg7) := by
  rw [W4_of_ne m ρ c main_arg7 (by decide)]
  exact (keep1 (W2 m ρ c) main_arg7 (by decide)).trans (W2_arg7 m ρ c)
theorem W4_arg8 (c : Dev nD) : W4 m ρ c (Proc.devRef .tc main_arg8) = m ((c : Thread nD τ).loc main_arg8) := by
  rw [W4_of_ne m ρ c main_arg8 (by decide)]
  exact (keep1 (W2 m ρ c) main_arg8 (by decide)).trans (W2_arg8 m ρ c)
theorem W4_arg9 (c : Dev nD) : W4 m ρ c (Proc.devRef .tc main_arg9) = m ((c : Thread nD τ).loc main_arg9) := by
  rw [W4_of_ne m ρ c main_arg9 (by decide)]
  exact (keep1 (W2 m ρ c) main_arg9 (by decide)).trans (W2_arg9 m ρ c)
theorem W4_arg10 (c : Dev nD) : W4 m ρ c (Proc.devRef .tc main_arg10) = m ((c : Thread nD τ).loc main_arg10) := by
  rw [W4_of_ne m ρ c main_arg10 (by decide)]
  exact (keep1 (W2 m ρ c) main_arg10 (by decide)).trans (W2_arg10 m ρ c)
theorem W4_arg11 (c : Dev nD) : W4 m ρ c (Proc.devRef .tc main_arg11) = m ((c : Thread nD τ).loc main_arg11) := by
  rw [W4_of_ne m ρ c main_arg11 (by decide)]
  exact (keep1 (W2 m ρ c) main_arg11 (by decide)).trans (W2_arg11 m ρ c)
theorem W4_arg12 (c : Dev nD) : W4 m ρ c (Proc.devRef .tc main_arg12) = m ((c : Thread nD τ).loc main_arg12) := by
  rw [W4_of_ne m ρ c main_arg12 (by decide)]
  exact (keep1 (W2 m ρ c) main_arg12 (by decide)).trans (W2_arg12 m ρ c)
theorem W4_arg13 (c : Dev nD) : W4 m ρ c (Proc.devRef .tc main_arg13) = m ((c : Thread nD τ).loc main_arg13) := by
  rw [W4_of_ne m ρ c main_arg13 (by decide)]
  exact (keep1 (W2 m ρ c) main_arg13 (by decide)).trans (W2_arg13 m ρ c)
theorem W4_arg14 (c : Dev nD) : W4 m ρ c (Proc.devRef .tc main_arg14) = m ((c : Thread nD τ).loc main_arg14) := by
  rw [W4_of_ne m ρ c main_arg14 (by decide)]
  exact (keep1 (W2 m ρ c) main_arg14 (by decide)).trans (W2_arg14 m ρ c)
theorem W4_arg15 (c : Dev nD) : W4 m ρ c (Proc.devRef .tc main_arg15) = m ((c : Thread nD τ).loc main_arg15) := by
  rw [W4_of_ne m ρ c main_arg15 (by decide)]
  exact (keep1 (W2 m ρ c) main_arg15 (by decide)).trans (W2_arg15 m ρ c)
theorem W4_arg16 (c : Dev nD) : W4 m ρ c (Proc.devRef .tc main_arg16) = m ((c : Thread nD τ).loc main_arg16) := by
  rw [W4_of_ne m ρ c main_arg16 (by decide)]
  exact (keep1 (W2 m ρ c) main_arg16 (by decide)).trans (W2_arg16 m ρ c)

/-! ### At region 2's exit -/

theorem W6_arg6 (c : Dev nD) : W6 m ρ c (Proc.devRef .tc main_arg6) = m ((c : Thread nD τ).loc main_arg6) := by
  rw [W6_of_ne m ρ c main_arg6 (by decide)]
  exact (keep2 (W4 m ρ c) main_arg6 (by decide)).trans (W4_arg6 m ρ c)
theorem W6_arg7 (c : Dev nD) : W6 m ρ c (Proc.devRef .tc main_arg7) = m ((c : Thread nD τ).loc main_arg7) := by
  rw [W6_of_ne m ρ c main_arg7 (by decide)]
  exact (keep2 (W4 m ρ c) main_arg7 (by decide)).trans (W4_arg7 m ρ c)
theorem W6_arg8 (c : Dev nD) : W6 m ρ c (Proc.devRef .tc main_arg8) = m ((c : Thread nD τ).loc main_arg8) := by
  rw [W6_of_ne m ρ c main_arg8 (by decide)]
  exact (keep2 (W4 m ρ c) main_arg8 (by decide)).trans (W4_arg8 m ρ c)
theorem W6_arg9 (c : Dev nD) : W6 m ρ c (Proc.devRef .tc main_arg9) = m ((c : Thread nD τ).loc main_arg9) := by
  rw [W6_of_ne m ρ c main_arg9 (by decide)]
  exact (keep2 (W4 m ρ c) main_arg9 (by decide)).trans (W4_arg9 m ρ c)
theorem W6_arg10 (c : Dev nD) : W6 m ρ c (Proc.devRef .tc main_arg10) = m ((c : Thread nD τ).loc main_arg10) := by
  rw [W6_of_ne m ρ c main_arg10 (by decide)]
  exact (keep2 (W4 m ρ c) main_arg10 (by decide)).trans (W4_arg10 m ρ c)
theorem W6_arg11 (c : Dev nD) : W6 m ρ c (Proc.devRef .tc main_arg11) = m ((c : Thread nD τ).loc main_arg11) := by
  rw [W6_of_ne m ρ c main_arg11 (by decide)]
  exact (keep2 (W4 m ρ c) main_arg11 (by decide)).trans (W4_arg11 m ρ c)
theorem W6_arg12 (c : Dev nD) : W6 m ρ c (Proc.devRef .tc main_arg12) = m ((c : Thread nD τ).loc main_arg12) := by
  rw [W6_of_ne m ρ c main_arg12 (by decide)]
  exact (keep2 (W4 m ρ c) main_arg12 (by decide)).trans (W4_arg12 m ρ c)
theorem W6_arg13 (c : Dev nD) : W6 m ρ c (Proc.devRef .tc main_arg13) = m ((c : Thread nD τ).loc main_arg13) := by
  rw [W6_of_ne m ρ c main_arg13 (by decide)]
  exact (keep2 (W4 m ρ c) main_arg13 (by decide)).trans (W4_arg13 m ρ c)
theorem W6_arg14 (c : Dev nD) : W6 m ρ c (Proc.devRef .tc main_arg14) = m ((c : Thread nD τ).loc main_arg14) := by
  rw [W6_of_ne m ρ c main_arg14 (by decide)]
  exact (keep2 (W4 m ρ c) main_arg14 (by decide)).trans (W4_arg14 m ρ c)
theorem W6_arg15 (c : Dev nD) : W6 m ρ c (Proc.devRef .tc main_arg15) = m ((c : Thread nD τ).loc main_arg15) := by
  rw [W6_of_ne m ρ c main_arg15 (by decide)]
  exact (keep2 (W4 m ρ c) main_arg15 (by decide)).trans (W4_arg15 m ρ c)
theorem W6_arg16 (c : Dev nD) : W6 m ρ c (Proc.devRef .tc main_arg16) = m ((c : Thread nD τ).loc main_arg16) := by
  rw [W6_of_ne m ρ c main_arg16 (by decide)]
  exact (keep2 (W4 m ρ c) main_arg16 (by decide)).trans (W4_arg16 m ρ c)

/-! ### At region 3's exit -/

theorem W8_arg6 (c : Dev nD) : W8 m ρ c (Proc.devRef .tc main_arg6) = m ((c : Thread nD τ).loc main_arg6) := by
  rw [W8_of_ne m ρ c main_arg6 (by decide)]
  exact (keep3 (W6 m ρ c) main_arg6 (by decide)).trans (W6_arg6 m ρ c)
theorem W8_arg7 (c : Dev nD) : W8 m ρ c (Proc.devRef .tc main_arg7) = m ((c : Thread nD τ).loc main_arg7) := by
  rw [W8_of_ne m ρ c main_arg7 (by decide)]
  exact (keep3 (W6 m ρ c) main_arg7 (by decide)).trans (W6_arg7 m ρ c)
theorem W8_arg8 (c : Dev nD) : W8 m ρ c (Proc.devRef .tc main_arg8) = m ((c : Thread nD τ).loc main_arg8) := by
  rw [W8_of_ne m ρ c main_arg8 (by decide)]
  exact (keep3 (W6 m ρ c) main_arg8 (by decide)).trans (W6_arg8 m ρ c)
theorem W8_arg9 (c : Dev nD) : W8 m ρ c (Proc.devRef .tc main_arg9) = m ((c : Thread nD τ).loc main_arg9) := by
  rw [W8_of_ne m ρ c main_arg9 (by decide)]
  exact (keep3 (W6 m ρ c) main_arg9 (by decide)).trans (W6_arg9 m ρ c)
theorem W8_arg10 (c : Dev nD) : W8 m ρ c (Proc.devRef .tc main_arg10) = m ((c : Thread nD τ).loc main_arg10) := by
  rw [W8_of_ne m ρ c main_arg10 (by decide)]
  exact (keep3 (W6 m ρ c) main_arg10 (by decide)).trans (W6_arg10 m ρ c)
theorem W8_arg11 (c : Dev nD) : W8 m ρ c (Proc.devRef .tc main_arg11) = m ((c : Thread nD τ).loc main_arg11) := by
  rw [W8_of_ne m ρ c main_arg11 (by decide)]
  exact (keep3 (W6 m ρ c) main_arg11 (by decide)).trans (W6_arg11 m ρ c)
theorem W8_arg12 (c : Dev nD) : W8 m ρ c (Proc.devRef .tc main_arg12) = m ((c : Thread nD τ).loc main_arg12) := by
  rw [W8_of_ne m ρ c main_arg12 (by decide)]
  exact (keep3 (W6 m ρ c) main_arg12 (by decide)).trans (W6_arg12 m ρ c)
theorem W8_arg13 (c : Dev nD) : W8 m ρ c (Proc.devRef .tc main_arg13) = m ((c : Thread nD τ).loc main_arg13) := by
  rw [W8_of_ne m ρ c main_arg13 (by decide)]
  exact (keep3 (W6 m ρ c) main_arg13 (by decide)).trans (W6_arg13 m ρ c)
theorem W8_arg14 (c : Dev nD) : W8 m ρ c (Proc.devRef .tc main_arg14) = m ((c : Thread nD τ).loc main_arg14) := by
  rw [W8_of_ne m ρ c main_arg14 (by decide)]
  exact (keep3 (W6 m ρ c) main_arg14 (by decide)).trans (W6_arg14 m ρ c)
theorem W8_arg15 (c : Dev nD) : W8 m ρ c (Proc.devRef .tc main_arg15) = m ((c : Thread nD τ).loc main_arg15) := by
  rw [W8_of_ne m ρ c main_arg15 (by decide)]
  exact (keep3 (W6 m ρ c) main_arg15 (by decide)).trans (W6_arg15 m ρ c)
theorem W8_arg16 (c : Dev nD) : W8 m ρ c (Proc.devRef .tc main_arg16) = m ((c : Thread nD τ).loc main_arg16) := by
  rw [W8_of_ne m ρ c main_arg16 (by decide)]
  exact (keep3 (W6 m ρ c) main_arg16 (by decide)).trans (W6_arg16 m ρ c)

/-! ### At region 4's exit -/

theorem W10_arg6 (c : Dev nD) : W10 m ρ c (Proc.devRef .tc main_arg6) = m ((c : Thread nD τ).loc main_arg6) := by
  rw [W10_of_ne m ρ c main_arg6 (by decide)]
  exact (keep4 (W8 m ρ c) main_arg6 (by decide)).trans (W8_arg6 m ρ c)
theorem W10_arg7 (c : Dev nD) : W10 m ρ c (Proc.devRef .tc main_arg7) = m ((c : Thread nD τ).loc main_arg7) := by
  rw [W10_of_ne m ρ c main_arg7 (by decide)]
  exact (keep4 (W8 m ρ c) main_arg7 (by decide)).trans (W8_arg7 m ρ c)
theorem W10_arg8 (c : Dev nD) : W10 m ρ c (Proc.devRef .tc main_arg8) = m ((c : Thread nD τ).loc main_arg8) := by
  rw [W10_of_ne m ρ c main_arg8 (by decide)]
  exact (keep4 (W8 m ρ c) main_arg8 (by decide)).trans (W8_arg8 m ρ c)
theorem W10_arg9 (c : Dev nD) : W10 m ρ c (Proc.devRef .tc main_arg9) = m ((c : Thread nD τ).loc main_arg9) := by
  rw [W10_of_ne m ρ c main_arg9 (by decide)]
  exact (keep4 (W8 m ρ c) main_arg9 (by decide)).trans (W8_arg9 m ρ c)
theorem W10_arg10 (c : Dev nD) : W10 m ρ c (Proc.devRef .tc main_arg10) = m ((c : Thread nD τ).loc main_arg10) := by
  rw [W10_of_ne m ρ c main_arg10 (by decide)]
  exact (keep4 (W8 m ρ c) main_arg10 (by decide)).trans (W8_arg10 m ρ c)
theorem W10_arg11 (c : Dev nD) : W10 m ρ c (Proc.devRef .tc main_arg11) = m ((c : Thread nD τ).loc main_arg11) := by
  rw [W10_of_ne m ρ c main_arg11 (by decide)]
  exact (keep4 (W8 m ρ c) main_arg11 (by decide)).trans (W8_arg11 m ρ c)
theorem W10_arg12 (c : Dev nD) : W10 m ρ c (Proc.devRef .tc main_arg12) = m ((c : Thread nD τ).loc main_arg12) := by
  rw [W10_of_ne m ρ c main_arg12 (by decide)]
  exact (keep4 (W8 m ρ c) main_arg12 (by decide)).trans (W8_arg12 m ρ c)
theorem W10_arg13 (c : Dev nD) : W10 m ρ c (Proc.devRef .tc main_arg13) = m ((c : Thread nD τ).loc main_arg13) := by
  rw [W10_of_ne m ρ c main_arg13 (by decide)]
  exact (keep4 (W8 m ρ c) main_arg13 (by decide)).trans (W8_arg13 m ρ c)
theorem W10_arg14 (c : Dev nD) : W10 m ρ c (Proc.devRef .tc main_arg14) = m ((c : Thread nD τ).loc main_arg14) := by
  rw [W10_of_ne m ρ c main_arg14 (by decide)]
  exact (keep4 (W8 m ρ c) main_arg14 (by decide)).trans (W8_arg14 m ρ c)
theorem W10_arg15 (c : Dev nD) : W10 m ρ c (Proc.devRef .tc main_arg15) = m ((c : Thread nD τ).loc main_arg15) := by
  rw [W10_of_ne m ρ c main_arg15 (by decide)]
  exact (keep4 (W8 m ρ c) main_arg15 (by decide)).trans (W8_arg15 m ρ c)
theorem W10_arg16 (c : Dev nD) : W10 m ρ c (Proc.devRef .tc main_arg16) = m ((c : Thread nD τ).loc main_arg16) := by
  rw [W10_of_ne m ρ c main_arg16 (by decide)]
  exact (keep4 (W8 m ρ c) main_arg16 (by decide)).trans (W8_arg16 m ρ c)

/-! ### At region 5's exit -/

theorem W12_arg15 (c : Dev nD) : W12 m ρ c (Proc.devRef .tc main_arg15) = m ((c : Thread nD τ).loc main_arg15) := by
  rw [W12_of_ne m ρ c main_arg15 (by decide)]
  exact (keep5 (W10 m ρ c) main_arg15 (by decide)).trans (W10_arg15 m ρ c)
theorem W12_arg16 (c : Dev nD) : W12 m ρ c (Proc.devRef .tc main_arg16) = m ((c : Thread nD τ).loc main_arg16) := by
  rw [W12_of_ne m ρ c main_arg16 (by decide)]
  exact (keep5 (W10 m ρ c) main_arg16 (by decide)).trans (W10_arg16 m ρ c)

/-! ### At region 6's exit -/

theorem W14_arg16 (c : Dev nD) : W14 m ρ c (Proc.devRef .tc main_arg16) = m ((c : Thread nD τ).loc main_arg16) := by
  rw [W14_of_ne m ρ c main_arg16 (by decide)]
  exact (keep6 (W12 m ρ c) main_arg16 (by decide)).trans (W12_arg16 m ρ c)

/-! ## Earlier results still in place

    A region's result stays where it is until something writes that buffer again, and nothing does: the later
    stretches produce other buffers, and a later region either does not have the buffer among its arrays or has it
    as an input array, which it leaves as it found it. -/

/-- The first projection's result across the second projection's stretch and region: neither writes it. -/
theorem W4_v3 (c : Dev nD) : W4 m ρ c (Proc.devRef .tc main_v3) = W2 m ρ c (Proc.devRef .tc main_v3) := by
  rw [W4_of_ne m ρ c main_v3 (by decide)]
  exact keep1 (W2 m ρ c) main_v3 (by decide)
/-- … and across the stretch that prepares the first one-relation combine. -/
theorem W5_v3 (c : Dev nD) : W5 m ρ c (Proc.devRef .tc main_v3) = W2 m ρ c (Proc.devRef .tc main_v3) :=
  (keep2 (W4 m ρ c) main_v3 (by decide)).trans (W4_v3 m ρ c)
/-- … and across that combine's region, which reads it as the node's own features (input array 1) and so returns
    it as it entered. -/
theorem W6_v3 (c : Dev nD) : W6 m ρ c (Proc.devRef .tc main_v3) = W2 m ρ c (Proc.devRef .tc main_v3) :=
  ((W6_arr m ρ c 1).trans (((dat2 (V5 m ρ) c).arrAt_in 1 rfl _).trans (A_eq2 (V5 m ρ) c 1))).trans (W5_v3 m ρ c)

/-- The second projection's result across the first one-relation combine's stretch (which only reads it, to gather
    rows) and region (which does not have it among its arrays). -/
theorem W6_v7 (c : Dev nD) : W6 m ρ c (Proc.devRef .tc main_v7) = W4 m ρ c (Proc.devRef .tc main_v7) := by
  rw [W6_of_ne m ρ c main_v7 (by decide)]
  exact keep2 (W4 m ρ c) main_v7 (by decide)
/-- … and across the stretch that prepares the first two-relation combine. -/
theorem W7_v7 (c : Dev nD) : W7 m ρ c (Proc.devRef .tc main_v7) = W4 m ρ c (Proc.devRef .tc main_v7) :=
  (keep3 (W6 m ρ c) main_v7 (by decide)).trans (W6_v7 m ρ c)

/-- The first layer's one-relation result across the two-relation combine's stretch and region. -/
theorem W8_v41 (c : Dev nD) : W8 m ρ c (Proc.devRef .tc main_v41) = W6 m ρ c (Proc.devRef .tc main_v41) := by
  rw [W8_of_ne m ρ c main_v41 (by decide)]
  exact keep3 (W6 m ρ c) main_v41 (by decide)
/-- … and across the stretch that prepares the second layer's one-relation combine. -/
theorem W9_v41 (c : Dev nD) : W9 m ρ c (Proc.devRef .tc main_v41) = W6 m ρ c (Proc.devRef .tc main_v41) :=
  (keep4 (W8 m ρ c) main_v41 (by decide)).trans (W8_v41 m ρ c)
/-- … and across that combine's region, which reads it as the node's own features (input array 1). -/
theorem W10_v41 (c : Dev nD) : W10 m ρ c (Proc.devRef .tc main_v41) = W6 m ρ c (Proc.devRef .tc main_v41) :=
  ((W10_arr m ρ c 1).trans (((dat4 (V9 m ρ) c).arrAt_in 1 rfl _).trans (A_eq4 (V9 m ρ) c 1))).trans (W9_v41 m ρ c)

/-- The first layer's two-relation result across the second layer's one-relation stretch (which only gathers from
    it) and region. -/
theorem W10_v108 (c : Dev nD) : W10 m ρ c (Proc.devRef .tc main_v108) = W8 m ρ c (Proc.devRef .tc main_v108) := by
  rw [W10_of_ne m ρ c main_v108 (by decide)]
  exact keep4 (W8 m ρ c) main_v108 (by decide)
/-- … and across the stretch that prepares the second layer's two-relation combine. -/
theorem W11_v108 (c : Dev nD) : W11 m ρ c (Proc.devRef .tc main_v108) = W8 m ρ c (Proc.devRef .tc main_v108) :=
  (keep5 (W10 m ρ c) main_v108 (by decide)).trans (W10_v108 m ρ c)

/-- The second layer's one-relation result across the two-relation combine's stretch and region. -/
theorem W12_v142 (c : Dev nD) : W12 m ρ c (Proc.devRef .tc main_v142) = W10 m ρ c (Proc.devRef .tc main_v142) := by
  rw [W12_of_ne m ρ c main_v142 (by decide)]
  exact keep5 (W10 m ρ c) main_v142 (by decide)

/-- The second layer's two-relation result across the first score's stretch (which only gathers from it) and
    region. -/
theorem W14_v209 (c : Dev nD) : W14 m ρ c (Proc.devRef .tc main_v209) = W12 m ρ c (Proc.devRef .tc main_v209) := by
  rw [W14_of_ne m ρ c main_v209 (by decide)]
  exact keep6 (W12 m ρ c) main_v209 (by decide)

/-- The first score vector across the second score's region and the closing reshape, which produces the other
    score vector. -/
theorem W17_v229 (c : Dev nD) : W17 m ρ c (Proc.devRef .tc main_v229) = W15 m ρ c (Proc.devRef .tc main_v229) :=
  (keep8 (W16 m ρ c) main_v229 (by decide)).trans (W16_of_ne m ρ c main_v229 (by decide))

end Cert.KernelIdeal.Walk

end
-- ==== Proof.Stretch.lean ====
/-
  What each stretch of host operations between two kernel regions leaves in the buffers that a later region, or the
  result, reads — each as one named function of the buffers the stretch finds.

  * the mean over incoming edges: the source nodes' feature rows (an index below zero counted from the end),
    summed per target node and divided by the larger of the node's edge count and one;
  * a weight: one slice of a stack of three, transposed and rounded to the narrow format;
  * a bias row: one row of a stack of three — or the sum of rows 0 and 2 — laid out as 1 × 256;
  * the rows of the node features gathered for the labelled edges, by either row of the edge list;
  * a 200000 × 1 column of scores read as a vector of 200000.
-/
import proofs.«103163_j26482768347972_1_alg».proof.Proof.Gen.KernelIdeal.Frame
import Idealize.ShloMosaic.PureOps.Ideal
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The mean over incoming edges -/

/-- The first row of a 2 × 300000 edge list (where each edge comes from), as a column: an entry below zero is first
    moved up by 50000, so that −k names node 50000 − k. -/
def srcCol (e : (⟨S2x300000, .i32⟩ : BufTy).Contents (Elt Ideal)) : (⟨S300000x1, .i32⟩ : BufTy).Contents (Elt Ideal) :=
  broadcastInDim S300000x1 ![0] bcast_S300000_S300000x1_0
    (select
      (cmpi .slt (shapeCast S300000 (extractStridedSlice S1x300000 ![0, 0] e slices_S2x300000_S1x300000_0_0) shapeCasts_S1x300000_S300000)
        (broadcastInDim S300000 ![] bcast_S_S300000 (constantI S_ 32 0#32)))
      (addi (shapeCast S300000 (extractStridedSlice S1x300000 ![0, 0] e slices_S2x300000_S1x300000_0_0) shapeCasts_S1x300000_S300000)
        (broadcastInDim S300000 ![] bcast_S_S300000 (constantI S_ 32 50000#32)))
      (shapeCast S300000 (extractStridedSlice S1x300000 ![0, 0] e slices_S2x300000_S1x300000_0_0) shapeCasts_S1x300000_S300000))

/-- The second row of the edge list (where each edge goes to), as a column, as it stands. -/
def dstCol (e : (⟨S2x300000, .i32⟩ : BufTy).Contents (Elt Ideal)) : (⟨S300000x1, .i32⟩ : BufTy).Contents (Elt Ideal) :=
  broadcastInDim S300000x1 ![0] bcast_S300000_S300000x1_0
    (shapeCast S300000 (extractStridedSlice S1x300000 ![1, 0] e slices_S2x300000_S1x300000_1_0) shapeCasts_S1x300000_S300000)

/-- Per node, the sum over its incoming edges of the source node's feature row: the rows of h at the edges' sources,
    added into a zero array at the edges' targets. -/
def segSum (h : (⟨S50000x256, .f32⟩ : BufTy).Contents (Elt Ideal)) (e : (⟨S2x300000, .i32⟩ : BufTy).Contents (Elt Ideal)) : (⟨S50000x256, .f32⟩ : BufTy).Contents (Elt Ideal) :=
  Host.scatterAdd (F := Ideal) scatter_S50000x256_S300000x1_S300000x256_1_0_0_1
    (broadcastInDim S50000x256 ![] bcast_S_S50000x256 (constant (F := Ideal) S_ .f32 0x00000000#32))
    (dstCol e)
    (Host.gather gather_S50000x256_S300000x1_S300000x256_1_0_n_n_0_1_1256 h (srcCol e))

/-- Per node, the number of its incoming edges: a one per edge added into a zero column at the edges' targets. -/
def segCount (e : (⟨S2x300000, .i32⟩ : BufTy).Contents (Elt Ideal)) : (⟨S50000x1, .f32⟩ : BufTy).Contents (Elt Ideal) :=
  Host.scatterAdd (F := Ideal) scatter_S50000x1_S300000x1_S300000x1_1_0_0_1
    (broadcastInDim S50000x1 ![] bcast_S_S50000x1 (constant (F := Ideal) S_ .f32 0x00000000#32))
    (dstCol e)
    (broadcastInDim S300000x1 ![] bcast_S_S300000x1 (constant (F := Ideal) S_ .f32 0x3F800000#32))

/-- The mean over incoming edges: each node's summed rows divided, column by column, by the larger of its edge count
    and one. -/
def segMean (h : (⟨S50000x256, .f32⟩ : BufTy).Contents (Elt Ideal)) (e : (⟨S2x300000, .i32⟩ : BufTy).Contents (Elt Ideal)) : (⟨S50000x256, .f32⟩ : BufTy).Contents (Elt Ideal) :=
  Host.divf (F := Ideal) (segSum h e)
    (broadcastInDim S50000x256 ![0, 1] bcast_S50000x1_S50000x256_0_1
      (maximumf (F := Ideal) (segCount e)
        (broadcastInDim S50000x1 ![] bcast_S_S50000x1 (constant (F := Ideal) S_ .f32 0x3F800000#32))))

/-! ## The weights and the bias rows -/

/-- Slice 0 of a stack of three 256 × 256 weights, transposed and rounded to the narrow format. -/
def weightT0 (w : (⟨S3x256x256, .f32⟩ : BufTy).Contents (Elt Ideal)) : (⟨S256x256, .bf16⟩ : BufTy).Contents (Elt Ideal) :=
  truncf (F := Ideal) .bf16
    (transpose S256x256 [1, 0]
      (shapeCast S256x256 (extractStridedSlice S1x256x256 ![0, 0, 0] w slices_S3x256x256_S1x256x256_0_0_0) shapeCasts_S1x256x256_S256x256)
      transposes_S256x256_S256x256_1_0)
    bitsLt_bf16_f32

/-- Slice 1 of a stack of three 256 × 256 weights, transposed and rounded to the narrow format. -/
def weightT1 (w : (⟨S3x256x256, .f32⟩ : BufTy).Contents (Elt Ideal)) : (⟨S256x256, .bf16⟩ : BufTy).Contents (Elt Ideal) :=
  truncf (F := Ideal) .bf16
    (transpose S256x256 [1, 0]
      (shapeCast S256x256 (extractStridedSlice S1x256x256 ![1, 0, 0] w slices_S3x256x256_S1x256x256_1_0_0) shapeCasts_S1x256x256_S256x256)
      transposes_S256x256_S256x256_1_0)
    bitsLt_bf16_f32

/-- Slice 2 of a stack of three 256 × 256 weights, transposed and rounded to the narrow format. -/
def weightT2 (w : (⟨S3x256x256, .f32⟩ : BufTy).Contents (Elt Ideal)) : (⟨S256x256, .bf16⟩ : BufTy).Contents (Elt Ideal) :=
  truncf (F := Ideal) .bf16
    (transpose S256x256 [1, 0]
      (shapeCast S256x256 (extractStridedSlice S1x256x256 ![2, 0, 0] w slices_S3x256x256_S1x256x256_2_0_0) shapeCasts_S1x256x256_S256x256)
      transposes_S256x256_S256x256_1_0)
    bitsLt_bf16_f32

/-- Row 0 of a stack of three bias vectors, laid out as a 1 × 256 row. -/
def biasRow0 (b : (⟨S3x256, .f32⟩ : BufTy).Contents (Elt Ideal)) : (⟨S1x256, .f32⟩ : BufTy).Contents (Elt Ideal) :=
  shapeCast S1x256
    (shapeCast S256 (extractStridedSlice S1x256 ![0, 0] b slices_S3x256_S1x256_0_0) shapeCasts_S1x256_S256)
    shapeCasts_S256_S1x256

/-- Row 1 of a stack of three bias vectors, laid out as a 1 × 256 row. -/
def biasRow1 (b : (⟨S3x256, .f32⟩ : BufTy).Contents (Elt Ideal)) : (⟨S1x256, .f32⟩ : BufTy).Contents (Elt Ideal) :=
  shapeCast S1x256
    (shapeCast S256 (extractStridedSlice S1x256 ![1, 0] b slices_S3x256_S1x256_1_0) shapeCasts_S1x256_S256)
    shapeCasts_S256_S1x256

/-- Row 2 of a stack of three bias vectors, laid out as a 1 × 256 row. -/
def biasRow2 (b : (⟨S3x256, .f32⟩ : BufTy).Contents (Elt Ideal)) : (⟨S1x256, .f32⟩ : BufTy).Contents (Elt Ideal) :=
  shapeCast S1x256
    (shapeCast S256 (extractStridedSlice S1x256 ![2, 0] b slices_S3x256_S1x256_2_0) shapeCasts_S1x256_S256)
    shapeCasts_S256_S1x256

/-- The sum of rows 0 and 2 of a stack of three bias vectors, laid out as a 1 × 256 row. -/
def biasRowSum02 (b : (⟨S3x256, .f32⟩ : BufTy).Contents (Elt Ideal)) : (⟨S1x256, .f32⟩ : BufTy).Contents (Elt Ideal) :=
  shapeCast S1x256
    (addf (F := Ideal) (φ := .f32)
      (shapeCast S256 (extractStridedSlice S1x256 ![0, 0] b slices_S3x256_S1x256_0_0) shapeCasts_S1x256_S256)
      (shapeCast S256 (extractStridedSlice S1x256 ![2, 0] b slices_S3x256_S1x256_2_0) shapeCasts_S1x256_S256))
    shapeCasts_S256_S1x256

/-! ## The rows gathered for the labelled edges -/

/-- Row 0 of a 2 × 200000 list of labelled edges, as a column: an entry below zero is first moved up by 50000. -/
def labCol0 (e : (⟨S2x200000, .i32⟩ : BufTy).Contents (Elt Ideal)) : (⟨S200000x1, .i32⟩ : BufTy).Contents (Elt Ideal) :=
  broadcastInDim S200000x1 ![0] bcast_S200000_S200000x1_0
    (select
      (cmpi .slt (shapeCast S200000 (extractStridedSlice S1x200000 ![0, 0] e slices_S2x200000_S1x200000_0_0) shapeCasts_S1x200000_S200000)
        (broadcastInDim S200000 ![] bcast_S_S200000 (constantI S_ 32 0#32)))
      (addi (shapeCast S200000 (extractStridedSlice S1x200000 ![0, 0] e slices_S2x200000_S1x200000_0_0) shapeCasts_S1x200000_S200000)
        (broadcastInDim S200000 ![] bcast_S_S200000 (constantI S_ 32 50000#32)))
      (shapeCast S200000 (extractStridedSlice S1x200000 ![0, 0] e slices_S2x200000_S1x200000_0_0) shapeCasts_S1x200000_S200000))

/-- One row of h per labelled edge: the row of the node that row 0 of the edge list names. -/
def gatherRows0 (h : (⟨S50000x256, .f32⟩ : BufTy).Contents (Elt Ideal)) (e : (⟨S2x200000, .i32⟩ : BufTy).Contents (Elt Ideal)) : (⟨S200000x256, .f32⟩ : BufTy).Contents (Elt Ideal) :=
  Host.gather gather_S50000x256_S200000x1_S200000x256_1_0_n_n_0_1_1256 h (labCol0 e)

/-- Row 1 of a 2 × 200000 list of labelled edges, as a column: an entry below zero is first moved up by 50000. -/
def labCol1 (e : (⟨S2x200000, .i32⟩ : BufTy).Contents (Elt Ideal)) : (⟨S200000x1, .i32⟩ : BufTy).Contents (Elt Ideal) :=
  broadcastInDim S200000x1 ![0] bcast_S200000_S200000x1_0
    (select
      (cmpi .slt (shapeCast S200000 (extractStridedSlice S1x200000 ![1, 0] e slices_S2x200000_S1x200000_1_0) shapeCasts_S1x200000_S200000)
        (broadcastInDim S200000 ![] bcast_S_S200000 (constantI S_ 32 0#32)))
      (addi (shapeCast S200000 (extractStridedSlice S1x200000 ![1, 0] e slices_S2x200000_S1x200000_1_0) shapeCasts_S1x200000_S200000)
        (broadcastInDim S200000 ![] bcast_S_S200000 (constantI S_ 32 50000#32)))
      (shapeCast S200000 (extractStridedSlice S1x200000 ![1, 0] e slices_S2x200000_S1x200000_1_0) shapeCasts_S1x200000_S200000))

/-- One row of h per labelled edge: the row of the node that row 1 of the edge list names. -/
def gatherRows1 (h : (⟨S50000x256, .f32⟩ : BufTy).Contents (Elt Ideal)) (e : (⟨S2x200000, .i32⟩ : BufTy).Contents (Elt Ideal)) : (⟨S200000x256, .f32⟩ : BufTy).Contents (Elt Ideal) :=
  Host.gather gather_S50000x256_S200000x1_S200000x256_1_0_n_n_0_1_1256 h (labCol1 e)

/-! ## Stretch 2: what the first one-relation combine finds -/

set_option maxHeartbeats 40000000 in
theorem V5_v29 (c : Dev nD) : V5 m ρ c main_v29 = segMean (W4 m ρ c (Proc.devRef .tc main_v7)) (W4 m ρ c (Proc.devRef .tc main_arg13)) := by
  show StableHlo.after hostOps2 (W4 m ρ c) (Proc.devRef .tc main_v29) = _
  after_results_simp
  rfl
set_option maxHeartbeats 40000000 in
theorem V5_v37 (c : Dev nD) : V5 m ρ c main_v37 = weightT1 (W4 m ρ c (Proc.devRef .tc main_arg6)) := by
  show StableHlo.after hostOps2 (W4 m ρ c) (Proc.devRef .tc main_v37) = _
  after_results_simp
  rfl
set_option maxHeartbeats 40000000 in
theorem V5_v39 (c : Dev nD) : V5 m ρ c main_v39 = weightT1 (W4 m ρ c (Proc.devRef .tc main_arg8)) := by
  show StableHlo.after hostOps2 (W4 m ρ c) (Proc.devRef .tc main_v39) = _
  after_results_simp
  rfl
set_option maxHeartbeats 40000000 in
theorem V5_v40 (c : Dev nD) : V5 m ρ c main_v40 = biasRow1 (W4 m ρ c (Proc.devRef .tc main_arg7)) := by
  show StableHlo.after hostOps2 (W4 m ρ c) (Proc.devRef .tc main_v40) = _
  after_results_simp
  rfl

/-! ## Stretch 3: what the first two-relation combine finds -/

set_option maxHeartbeats 40000000 in
theorem V7_v63 (c : Dev nD) : V7 m ρ c main_v63 = segMean (W6 m ρ c (Proc.devRef .tc main_v3)) (W6 m ρ c (Proc.devRef .tc main_arg12)) := by
  show StableHlo.after hostOps3 (W6 m ρ c) (Proc.devRef .tc main_v63) = _
  after_results_simp
  rfl
set_option maxHeartbeats 40000000 in
theorem V7_v85 (c : Dev nD) : V7 m ρ c main_v85 = segMean (W6 m ρ c (Proc.devRef .tc main_v7)) (W6 m ρ c (Proc.devRef .tc main_arg14)) := by
  show StableHlo.after hostOps3 (W6 m ρ c) (Proc.devRef .tc main_v85) = _
  after_results_simp
  rfl
set_option maxHeartbeats 40000000 in
theorem V7_v99 (c : Dev nD) : V7 m ρ c main_v99 = weightT0 (W6 m ρ c (Proc.devRef .tc main_arg6)) := by
  show StableHlo.after hostOps3 (W6 m ρ c) (Proc.devRef .tc main_v99) = _
  after_results_simp
  rfl
set_option maxHeartbeats 40000000 in
theorem V7_v101 (c : Dev nD) : V7 m ρ c main_v101 = weightT0 (W6 m ρ c (Proc.devRef .tc main_arg8)) := by
  show StableHlo.after hostOps3 (W6 m ρ c) (Proc.devRef .tc main_v101) = _
  after_results_simp
  rfl
set_option maxHeartbeats 40000000 in
theorem V7_v103 (c : Dev nD) : V7 m ρ c main_v103 = weightT2 (W6 m ρ c (Proc.devRef .tc main_arg6)) := by
  show StableHlo.after hostOps3 (W6 m ρ c) (Proc.devRef .tc main_v103) = _
  after_results_simp
  rfl
set_option maxHeartbeats 40000000 in
theorem V7_v105 (c : Dev nD) : V7 m ρ c main_v105 = weightT2 (W6 m ρ c (Proc.devRef .tc main_arg8)) := by
  show StableHlo.after hostOps3 (W6 m ρ c) (Proc.devRef .tc main_v105) = _
  after_results_simp
  rfl
set_option maxHeartbeats 40000000 in
theorem V7_v107 (c : Dev nD) : V7 m ρ c main_v107 = biasRowSum02 (W6 m ρ c (Proc.devRef .tc main_arg7)) := by
  show StableHlo.after hostOps3 (W6 m ρ c) (Proc.devRef .tc main_v107) = _
  after_results_simp
  rfl

/-! ## Stretch 4: what the second one-relation combine finds -/

set_option maxHeartbeats 40000000 in
theorem V9_v130 (c : Dev nD) : V9 m ρ c main_v130 = segMean (W8 m ρ c (Proc.devRef .tc main_v108)) (W8 m ρ c (Proc.devRef .tc main_arg13)) := by
  show StableHlo.after hostOps4 (W8 m ρ c) (Proc.devRef .tc main_v130) = _
  after_results_simp
  rfl
set_option maxHeartbeats 40000000 in
theorem V9_v138 (c : Dev nD) : V9 m ρ c main_v138 = weightT1 (W8 m ρ c (Proc.devRef .tc main_arg9)) := by
  show StableHlo.after hostOps4 (W8 m ρ c) (Proc.devRef .tc main_v138) = _
  after_results_simp
  rfl
set_option maxHeartbeats 40000000 in
theorem V9_v140 (c : Dev nD) : V9 m ρ c main_v140 = weightT1 (W8 m ρ c (Proc.devRef .tc main_arg11)) := by
  show StableHlo.after hostOps4 (W8 m ρ c) (Proc.devRef .tc main_v140) = _
  after_results_simp
  rfl
set_option maxHeartbeats 40000000 in
theorem V9_v141 (c : Dev nD) : V9 m ρ c main_v141 = biasRow1 (W8 m ρ c (Proc.devRef .tc main_arg10)) := by
  show StableHlo.after hostOps4 (W8 m ρ c) (Proc.devRef .tc main_v141) = _
  after_results_simp
  rfl

/-! ## Stretch 5: what the second two-relation combine finds -/

set_option maxHeartbeats 40000000 in
theorem V11_v164 (c : Dev nD) : V11 m ρ c main_v164 = segMean (W10 m ρ c (Proc.devRef .tc main_v41)) (W10 m ρ c (Proc.devRef .tc main_arg12)) := by
  show StableHlo.after hostOps5 (W10 m ρ c) (Proc.devRef .tc main_v164) = _
  after_results_simp
  rfl
set_option maxHeartbeats 40000000 in
theorem V11_v186 (c : Dev nD) : V11 m ρ c main_v186 = segMean (W10 m ρ c (Proc.devRef .tc main_v108)) (W10 m ρ c (Proc.devRef .tc main_arg14)) := by
  show StableHlo.after hostOps5 (W10 m ρ c) (Proc.devRef .tc main_v186) = _
  after_results_simp
  rfl
set_option maxHeartbeats 40000000 in
theorem V11_v200 (c : Dev nD) : V11 m ρ c main_v200 = weightT0 (W10 m ρ c (Proc.devRef .tc main_arg9)) := by
  show StableHlo.after hostOps5 (W10 m ρ c) (Proc.devRef .tc main_v200) = _
  after_results_simp
  rfl
set_option maxHeartbeats 40000000 in
theorem V11_v202 (c : Dev nD) : V11 m ρ c main_v202 = weightT0 (W10 m ρ c (Proc.devRef .tc main_arg11)) := by
  show StableHlo.after hostOps5 (W10 m ρ c) (Proc.devRef .tc main_v202) = _
  after_results_simp
  rfl
set_option maxHeartbeats 40000000 in
theorem V11_v204 (c : Dev nD) : V11 m ρ c main_v204 = weightT2 (W10 m ρ c (Proc.devRef .tc main_arg9)) := by
  show StableHlo.after hostOps5 (W10 m ρ c) (Proc.devRef .tc main_v204) = _
  after_results_simp
  rfl
set_option maxHeartbeats 40000000 in
theorem V11_v206 (c : Dev nD) : V11 m ρ c main_v206 = weightT2 (W10 m ρ c (Proc.devRef .tc main_arg11)) := by
  show StableHlo.after hostOps5 (W10 m ρ c) (Proc.devRef .tc main_v206) = _
  after_results_simp
  rfl
set_option maxHeartbeats 40000000 in
theorem V11_v208 (c : Dev nD) : V11 m ρ c main_v208 = biasRowSum02 (W10 m ρ c (Proc.devRef .tc main_arg10)) := by
  show StableHlo.after hostOps5 (W10 m ρ c) (Proc.devRef .tc main_v208) = _
  after_results_simp
  rfl

/-! ## Stretches 6 and 7: what the two edge classifiers find; stretches 7 and 8: the scores as vectors -/

set_option maxHeartbeats 40000000 in
theorem V13_v218 (c : Dev nD) : V13 m ρ c main_v218 = gatherRows0 (W12 m ρ c (Proc.devRef .tc main_v142)) (W12 m ρ c (Proc.devRef .tc main_arg15)) := by
  show StableHlo.after hostOps6 (W12 m ρ c) (Proc.devRef .tc main_v218) = _
  after_results_simp
  rfl
set_option maxHeartbeats 40000000 in
theorem V13_v227 (c : Dev nD) : V13 m ρ c main_v227 = gatherRows1 (W12 m ρ c (Proc.devRef .tc main_v209)) (W12 m ρ c (Proc.devRef .tc main_arg15)) := by
  show StableHlo.after hostOps6 (W12 m ρ c) (Proc.devRef .tc main_v227) = _
  after_results_simp
  rfl
set_option maxHeartbeats 40000000 in
theorem V15_v238 (c : Dev nD) : V15 m ρ c main_v238 = gatherRows0 (W14 m ρ c (Proc.devRef .tc main_v209)) (W14 m ρ c (Proc.devRef .tc main_arg16)) := by
  show StableHlo.after hostOps7 (W14 m ρ c) (Proc.devRef .tc main_v238) = _
  after_results_simp
  rfl
set_option maxHeartbeats 40000000 in
theorem V15_v247 (c : Dev nD) : V15 m ρ c main_v247 = gatherRows1 (W14 m ρ c (Proc.devRef .tc main_v209)) (W14 m ρ c (Proc.devRef .tc main_arg16)) := by
  show StableHlo.after hostOps7 (W14 m ρ c) (Proc.devRef .tc main_v247) = _
  after_results_simp
  rfl
set_option maxHeartbeats 40000000 in
theorem W15_v229 (c : Dev nD) : W15 m ρ c (Proc.devRef .tc main_v229) = shapeCast S200000 (W14 m ρ c (Proc.devRef .tc main_v228)) shapeCasts_S200000x1_S200000 := by
  show StableHlo.after hostOps7 (W14 m ρ c) (Proc.devRef .tc main_v229) = _
  after_results_simp
  rfl
set_option maxHeartbeats 40000000 in
theorem W17_v249 (c : Dev nD) : W17 m ρ c (Proc.devRef .tc main_v249) = shapeCast S200000 (W16 m ρ c (Proc.devRef .tc main_v248)) shapeCasts_S200000x1_S200000 := by
  show StableHlo.after hostOps8 (W16 m ρ c) (Proc.devRef .tc main_v249) = _
  after_results_simp
  rfl

end Cert.KernelIdeal.Stretch

end
-- ==== Proof.Net.lean ====
/-
  The whole computation as functions of the seventeen argument arrays.

  Two projections give the peptide and protein features.  A layer of message passing forms, for each relation, the
  mean of the source features over a node's incoming edges, and combines: the peptide side from one relation, the
  protein side from two.  The first layer is rectified, the second is not.  Each labelled edge's score is the sum
  over the hidden features of its two endpoint rows' products.  The neighbour mean, the transposed weights, the bias
  rows and the row gathers are the host's own chains of operations; they are applied here, never opened.
-/
import proofs.«103163_j26482768347972_1_alg».proof.Proof.Stretch
import proofs.«103163_j26482768347972_1_alg».proof.Proof.SpecLaws
import Idealize.ShloMosaic.Lib.Pipeline.Value

noncomputable section

namespace Cert.KernelIdeal.Net

open Cert.KernelIdeal Cert.KernelIdeal.Gen Cert.KernelIdeal.Stretch Idealize.ShloMosaic Idealize.ShloMosaic.ValueIdx

/-- The argument arrays, in @main's order: the two feature arrays, the two projections' weights and biases, the
    two layers' stacked weights and biases, the three relations' edge lists, the two lists of labelled edges. -/
structure Args where
  x0 : (⟨S50000x1280, .f32⟩ : BufTy).Contents (Elt Ideal)
  x1 : (⟨S50000x1280, .f32⟩ : BufTy).Contents (Elt Ideal)
  x2 : (⟨S256x1280, .f32⟩ : BufTy).Contents (Elt Ideal)
  x3 : (⟨S256, .f32⟩ : BufTy).Contents (Elt Ideal)
  x4 : (⟨S256x1280, .f32⟩ : BufTy).Contents (Elt Ideal)
  x5 : (⟨S256, .f32⟩ : BufTy).Contents (Elt Ideal)
  x6 : (⟨S3x256x256, .f32⟩ : BufTy).Contents (Elt Ideal)
  x7 : (⟨S3x256, .f32⟩ : BufTy).Contents (Elt Ideal)
  x8 : (⟨S3x256x256, .f32⟩ : BufTy).Contents (Elt Ideal)
  x9 : (⟨S3x256x256, .f32⟩ : BufTy).Contents (Elt Ideal)
  x10 : (⟨S3x256, .f32⟩ : BufTy).Contents (Elt Ideal)
  x11 : (⟨S3x256x256, .f32⟩ : BufTy).Contents (Elt Ideal)
  x12 : (⟨S2x300000, .i32⟩ : BufTy).Contents (Elt Ideal)
  x13 : (⟨S2x300000, .i32⟩ : BufTy).Contents (Elt Ideal)
  x14 : (⟨S2x300000, .i32⟩ : BufTy).Contents (Elt Ideal)
  x15 : (⟨S2x200000, .i32⟩ : BufTy).Contents (Elt Ideal)
  x16 : (⟨S2x200000, .i32⟩ : BufTy).Contents (Elt Ideal)

variable (a : Args)

/-- Peptide and protein features. -/
def hpep : (⟨S50000x256, .f32⟩ : BufTy).Contents (Elt Ideal) := Spec.projN a.x0 a.x2 a.x3
def hprot : (⟨S50000x256, .f32⟩ : BufTy).Contents (Elt Ideal) := Spec.projN a.x1 a.x4 a.x5

/-! First layer -/
def mrp1 : (⟨S50000x256, .f32⟩ : BufTy).Contents (Elt Ideal) := segMean (hprot a) a.x13
def p1 : (⟨S50000x256, .f32⟩ : BufTy).Contents (Elt Ideal) := Spec.comb2relu (mrp1 a) (hpep a) (weightT1 a.x6) (weightT1 a.x8) (biasRow1 a.x7)
def mpp1 : (⟨S50000x256, .f32⟩ : BufTy).Contents (Elt Ideal) := segMean (hpep a) a.x12
def mprot1 : (⟨S50000x256, .f32⟩ : BufTy).Contents (Elt Ideal) := segMean (hprot a) a.x14
def q1 : (⟨S50000x256, .f32⟩ : BufTy).Contents (Elt Ideal) :=
  Spec.comb4relu (mpp1 a) (mprot1 a) (hprot a) (weightT0 a.x6) (weightT0 a.x8) (weightT2 a.x6) (weightT2 a.x8) (biasRowSum02 a.x7)

/-! Second layer -/
def mrp2 : (⟨S50000x256, .f32⟩ : BufTy).Contents (Elt Ideal) := segMean (q1 a) a.x13
def p2 : (⟨S50000x256, .f32⟩ : BufTy).Contents (Elt Ideal) := Spec.comb2 (mrp2 a) (p1 a) (weightT1 a.x9) (weightT1 a.x11) (biasRow1 a.x10)
def mpp2 : (⟨S50000x256, .f32⟩ : BufTy).Contents (Elt Ideal) := segMean (p1 a) a.x12
def mprot2 : (⟨S50000x256, .f32⟩ : BufTy).Contents (Elt Ideal) := segMean (q1 a) a.x14
def q2 : (⟨S50000x256, .f32⟩ : BufTy).Contents (Elt Ideal) :=
  Spec.comb4 (mpp2 a) (mprot2 a) (q1 a) (weightT0 a.x9) (weightT0 a.x11) (weightT2 a.x9) (weightT2 a.x11) (biasRowSum02 a.x10)

/-! Edge scores, one column each -/
def het : (⟨S200000x1, .f32⟩ : BufTy).Contents (Elt Ideal) := Spec.rowdot (gatherRows0 (p2 a) a.x15) (gatherRows1 (q2 a) a.x15)
def homo : (⟨S200000x1, .f32⟩ : BufTy).Contents (Elt Ideal) := Spec.rowdot (gatherRows0 (q2 a) a.x16) (gatherRows1 (q2 a) a.x16)

/-- A 200000 × 1 column read as a vector of 200000 entries: the kernel's last host operation on each result. -/
def asVector (v : (⟨S200000x1, .f32⟩ : BufTy).Contents (Elt Ideal)) : (⟨S200000, .f32⟩ : BufTy).Contents (Elt Ideal) :=
  shapeCast S200000 v shapeCasts_S200000x1_S200000

/-- Entry e of the vector is row e of the column. -/
theorem asVector_apply (v : (⟨S200000x1, .f32⟩ : BufTy).Contents (Elt Ideal)) (e : Fin 200000) :
    asVector v (ix1 e) = v (ix2 e (0 : Fin 1)) :=
  shapeCast_apply v shapeCasts_S200000x1_S200000 (ix1 e) (ix2 e (0 : Fin 1)) (by
    rw [Shape.rowMajor_val_two, Shape.rowMajor_val_one]; show e.val * 1 + 0 = e.val; omega)

end Cert.KernelIdeal.Net

end
-- ==== Proof.KNet.lean ====
/-
  The kernel's buffers at the boundaries, in the arguments.

  Region by region: the region leaves in its result array the specification's function of the arrays it found
  (the region-array theorems); a stretch of host operations leaves in each buffer a named chain of the previous
  boundary's buffers (the stretch theorems); buffers nobody writes in between are carried along (the walk-back
  facts).  Substituting backwards, every result array is the network's term of the seventeen arguments.
-/
import proofs.«103163_j26482768347972_1_alg».proof.Proof.Chain0
import proofs.«103163_j26482768347972_1_alg».proof.Proof.Arr2
import proofs.«103163_j26482768347972_1_alg».proof.Proof.Arr3
import proofs.«103163_j26482768347972_1_alg».proof.Proof.Arr4
import proofs.«103163_j26482768347972_1_alg».proof.Proof.Arr5
import proofs.«103163_j26482768347972_1_alg».proof.Proof.Arr6
import proofs.«103163_j26482768347972_1_alg».proof.Proof.Arr7
import proofs.«103163_j26482768347972_1_alg».proof.Proof.Walk
import proofs.«103163_j26482768347972_1_alg».proof.Proof.Stretch
import proofs.«103163_j26482768347972_1_alg».proof.Proof.Net

set_option maxRecDepth 16384

noncomputable section

namespace Cert.KernelIdeal.KNet

open Cert.KernelIdeal Cert.KernelIdeal.Gen Cert.KernelIdeal.Net
open Idealize.ShloMosaic Idealize.ShloMosaic.TcCoe Idealize.SL.Sem Idealize.ShloMosaic.StableHlo

variable (m : (ℓ : Loc nD τ sig) → Buf (Elt Ideal) ℓ) (ρ : Dev nD → PrngReg)

/-- Core c's argument arrays at launch. -/
def argsOf (c : Dev nD) : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16)⟩

theorem k_hpep (c : Dev nD) : W2 m ρ c (Proc.devRef .tc main_v3) = hpep (argsOf m c) := Chain.hpep m ρ c

theorem k_hprot (c : Dev nD) : W4 m ρ c (Proc.devRef .tc main_v7) = hprot (argsOf m c) := Chain.hprot m ρ c

/-- First layer, peptide side. -/
theorem k_p1 (c : Dev nD) : W6 m ρ c (Proc.devRef .tc main_v41) = p1 (argsOf m c) := by
  refine ((W6_arr m ρ c 5).trans (Arr2.final (V5 m ρ) c)).trans ?_
  rw [Stretch.V5_v29, Stretch.V5_v37, Stretch.V5_v39, Stretch.V5_v40,
    show V5 m ρ c main_v3 = W2 m ρ c (Proc.devRef .tc main_v3) from Walk.W5_v3 m ρ c,
    k_hprot, k_hpep, Walk.W4_arg13, Walk.W4_arg6, Walk.W4_arg8, Walk.W4_arg7]
  rfl

/-- First layer, protein side. -/
theorem k_q1 (c : Dev nD) : W8 m ρ c (Proc.devRef .tc main_v108) = q1 (argsOf m c) := by
  refine ((W8_arr m ρ c 8).trans (Arr3.final (V7 m ρ) c)).trans ?_
  rw [Stretch.V7_v63, Stretch.V7_v85, Stretch.V7_v99, Stretch.V7_v101, Stretch.V7_v103, Stretch.V7_v105, Stretch.V7_v107,
    show V7 m ρ c main_v7 = W4 m ρ c (Proc.devRef .tc main_v7) from Walk.W7_v7 m ρ c,
    Walk.W6_v3, Walk.W6_v7, k_hprot, k_hpep, Walk.W6_arg12, Walk.W6_arg14, Walk.W6_arg6, Walk.W6_arg8, Walk.W6_arg7]
  rfl

/-- Second layer, peptide side. -/
theorem k_p2 (c : Dev nD) : W10 m ρ c (Proc.devRef .tc main_v142) = p2 (argsOf m c) := by
  refine ((W10_arr m ρ c 5).trans (Arr4.final (V9 m ρ) c)).trans ?_
  rw [Stretch.V9_v130, Stretch.V9_v138, Stretch.V9_v140, Stretch.V9_v141,
    show V9 m ρ c main_v41 = W6 m ρ c (Proc.devRef .tc main_v41) from Walk.W9_v41 m ρ c,
    k_q1, k_p1, Walk.W8_arg13, Walk.W8_arg9, Walk.W8_arg11, Walk.W8_arg10]
  rfl

/-- Second layer, protein side. -/
theorem k_q2 (c : Dev nD) : W12 m ρ c (Proc.devRef .tc main_v209) = q2 (argsOf m c) := by
  refine ((W12_arr m ρ c 8).trans (Arr5.final (V11 m ρ) c)).trans ?_
  rw [Stretch.V11_v164, Stretch.V11_v186, Stretch.V11_v200, Stretch.V11_v202, Stretch.V11_v204, Stretch.V11_v206, Stretch.V11_v208,
    show V11 m ρ c main_v108 = W8 m ρ c (Proc.devRef .tc main_v108) from Walk.W11_v108 m ρ c,
    Walk.W10_v41, Walk.W10_v108, k_q1, k_p1, Walk.W10_arg12, Walk.W10_arg14, Walk.W10_arg9, Walk.W10_arg11, Walk.W10_arg10]
  rfl

/-- The scores of the labelled peptide–protein edges, as a column. -/
theorem k_het (c : Dev nD) : W14 m ρ c (Proc.devRef .tc main_v228) = het (argsOf m c) := by
  refine ((W14_arr m ρ c 2).trans (Arr6.final (V13 m ρ) c)).trans ?_
  rw [Stretch.V13_v218, Stretch.V13_v227, Walk.W12_v142, k_p2, k_q2, Walk.W12_arg15]
  rfl

/-- The scores of the labelled protein–protein edges, as a column. -/
theorem k_homo (c : Dev nD) : W16 m ρ c (Proc.devRef .tc main_v248) = homo (argsOf m c) := by
  refine ((W16_arr m ρ c 2).trans (Arr7.final (V15 m ρ) c)).trans ?_
  rw [Stretch.V15_v238, Stretch.V15_v247, Walk.W14_v209, k_q2, Walk.W14_arg16]
  rfl

/-- The kernel's first result: the peptide–protein scores as a vector. -/
theorem k_res0 (c : Dev nD) :
    W17 m ρ c (Proc.devRef .tc main_v229) = asVector (het (argsOf m c)) := by
  rw [Walk.W17_v229, Stretch.W15_v229, k_het]
  rfl

/-- The kernel's second result: the protein–protein scores as a vector. -/
theorem k_res1 (c : Dev nD) :
    W17 m ρ c (Proc.devRef .tc main_v249) = asVector (homo (argsOf m c)) := by
  rw [Stretch.W17_v249, k_homo]
  rfl

end Cert.KernelIdeal.KNet

end
-- ==== Proof.RefStage.lean ====
/-
  The reference's four layer results, each as the specification's function (in the reference's own order of
  addition) of the stages it is computed from.

  Read at node p and column j, a product of two arrays is the sum over the 256 hidden features, a broadcast bias is
  the bias at j, the sum of arrays is the sum of entries, and the rectifier compares with the zero word.
-/
import proofs.«103163_j26482768347972_1_alg».proof.Proof.RefRead
import proofs.«103163_j26482768347972_1_alg».proof.Proof.SpecLaws
import proofs.«103163_j26482768347972_1_alg».proof.Proof.Net

set_option maxRecDepth 16384

noncomputable section

namespace Cert.ReferenceIdeal.Stage

open Cert.ReferenceIdeal Cert.ReferenceIdeal.Gen Cert.ReferenceIdeal.ReadP
open Idealize.ShloMosaic Idealize.ShloMosaic.TcCoe Idealize.SL.Sem Idealize.ShloMosaic.ValueIdx
open Cert.Spec (Mat Vec1)
open Cert.KernelIdeal.Net (Args)

/-- First layer, peptide side. -/
theorem p1_stage (a : Args) : val_main_v46 (F := Ideal) a.x0 a.x1 a.x2 a.x3 a.x4 a.x5 a.x6 a.x7 a.x8 a.x13
    = Spec.comb2reluR (val_main_v37 (F := Ideal) a.x1 a.x4 a.x5 a.x13) (val_main_v4 (F := Ideal) a.x0 a.x2 a.x3) (val_main_v38 (F := Ideal) a.x6) (val_main_v43 (F := Ideal) a.x8) (val_main_v13 (F := Ideal) a.x7) := by
  funext i
  obtain ⟨p, j, rfl⟩ : ∃ (p : Fin 50000) (j : Fin 256), i = ix2 p j := ⟨i 0, i 1, eq_ix2 i⟩
  rw [val_main_v46_apply, val_main_v45_apply, val_main_v42_apply, val_main_v39_apply, val_main_v44_apply, val_main_v41_apply, val_main_v40_apply, val_main_call0_v0_apply, val_main_call0_cst_apply]
  have l1 : ∀ k : Fin 256, lidx_main_v39 (ix2 p j) k = ix2 p k := fun k =>
    funext fun a => Fin.ext (by match a with | ⟨0, _⟩ => rfl | ⟨1, _⟩ => rfl)
  have r1 : ∀ k : Fin 256, ridx_main_v39 (ix2 p j) k = ix2 k j := fun k =>
    funext fun a => Fin.ext (by match a with | ⟨0, _⟩ => rfl | ⟨1, _⟩ => rfl)
  have l2 : ∀ k : Fin 256, lidx_main_v44 (ix2 p j) k = ix2 p k := fun k =>
    funext fun a => Fin.ext (by match a with | ⟨0, _⟩ => rfl | ⟨1, _⟩ => rfl)
  have r2 : ∀ k : Fin 256, ridx_main_v44 (ix2 p j) k = ix2 k j := fun k =>
    funext fun a => Fin.ext (by match a with | ⟨0, _⟩ => rfl | ⟨1, _⟩ => rfl)
  have eb : idx_main_v40 (idx_main_v41 (ix2 p j)) = ix1 j :=
    funext fun a => Fin.ext (by match a with | ⟨0, _⟩ => rfl)
  simp only [l1, r1, l2, r2, eb]
  rfl

/-- First layer, protein side. -/
theorem q1_stage (a : Args) : val_main_v120 (F := Ideal) a.x0 a.x1 a.x2 a.x3 a.x4 a.x5 a.x6 a.x7 a.x8 a.x12 a.x14
    = Spec.comb4reluR (val_main_v74 (F := Ideal) a.x0 a.x2 a.x3 a.x12) (val_main_v110 (F := Ideal) a.x1 a.x4 a.x5 a.x14) (val_main_v9 (F := Ideal) a.x1 a.x4 a.x5) (val_main_v75 (F := Ideal) a.x6) (val_main_v80 (F := Ideal) a.x8) (val_main_v111 (F := Ideal) a.x6) (val_main_v116 (F := Ideal) a.x8) (val_main_v50 (F := Ideal) a.x7) (val_main_v86 (F := Ideal) a.x7) := by
  funext i
  obtain ⟨p, j, rfl⟩ : ∃ (p : Fin 50000) (j : Fin 256), i = ix2 p j := ⟨i 0, i 1, eq_ix2 i⟩
  rw [val_main_v120_apply, val_main_v119_apply, val_main_v82_apply, val_main_v79_apply, val_main_v76_apply, val_main_v81_apply, val_main_v78_apply, val_main_v77_apply, val_main_v118_apply, val_main_v115_apply, val_main_v112_apply, val_main_v117_apply, val_main_v114_apply, val_main_v113_apply, val_main_call1_v0_apply, val_main_call1_cst_apply]
  have lA1 : ∀ k : Fin 256, lidx_main_v76 (ix2 p j) k = ix2 p k := fun k =>
    funext fun a => Fin.ext (by match a with | ⟨0, _⟩ => rfl | ⟨1, _⟩ => rfl)
  have rA1 : ∀ k : Fin 256, ridx_main_v76 (ix2 p j) k = ix2 k j := fun k =>
    funext fun a => Fin.ext (by match a with | ⟨0, _⟩ => rfl | ⟨1, _⟩ => rfl)
  have lA2 : ∀ k : Fin 256, lidx_main_v81 (ix2 p j) k = ix2 p k := fun k =>
    funext fun a => Fin.ext (by match a with | ⟨0, _⟩ => rfl | ⟨1, _⟩ => rfl)
  have rA2 : ∀ k : Fin 256, ridx_main_v81 (ix2 p j) k = ix2 k j := fun k =>
    funext fun a => Fin.ext (by match a with | ⟨0, _⟩ => rfl | ⟨1, _⟩ => rfl)
  have lB1 : ∀ k : Fin 256, lidx_main_v112 (ix2 p j) k = ix2 p k := fun k =>
    funext fun a => Fin.ext (by match a with | ⟨0, _⟩ => rfl | ⟨1, _⟩ => rfl)
  have rB1 : ∀ k : Fin 256, ridx_main_v112 (ix2 p j) k = ix2 k j := fun k =>
    funext fun a => Fin.ext (by match a with | ⟨0, _⟩ => rfl | ⟨1, _⟩ => rfl)
  have lB2 : ∀ k : Fin 256, lidx_main_v117 (ix2 p j) k = ix2 p k := fun k =>
    funext fun a => Fin.ext (by match a with | ⟨0, _⟩ => rfl | ⟨1, _⟩ => rfl)
  have rB2 : ∀ k : Fin 256, ridx_main_v117 (ix2 p j) k = ix2 k j := fun k =>
    funext fun a => Fin.ext (by match a with | ⟨0, _⟩ => rfl | ⟨1, _⟩ => rfl)
  have ebA : idx_main_v77 (idx_main_v78 (ix2 p j)) = ix1 j :=
    funext fun a => Fin.ext (by match a with | ⟨0, _⟩ => rfl)
  have ebB : idx_main_v113 (idx_main_v114 (ix2 p j)) = ix1 j :=
    funext fun a => Fin.ext (by match a with | ⟨0, _⟩ => rfl)
  simp only [lA1, rA1, lA2, rA2, lB1, rB1, lB2, rB2, ebA, ebB]
  rfl

/-- Second layer, peptide side. -/
theorem p2_stage (a : Args) : val_main_v156 (F := Ideal) a.x0 a.x1 a.x2 a.x3 a.x4 a.x5 a.x6 a.x7 a.x8 a.x9 a.x10 a.x11 a.x12 a.x13 a.x14
    = Spec.comb2R (val_main_v148 (F := Ideal) a.x0 a.x1 a.x2 a.x3 a.x4 a.x5 a.x6 a.x7 a.x8 a.x12 a.x13 a.x14) (val_main_v46 (F := Ideal) a.x0 a.x1 a.x2 a.x3 a.x4 a.x5 a.x6 a.x7 a.x8 a.x13) (val_main_v149 (F := Ideal) a.x9) (val_main_v154 (F := Ideal) a.x11) (val_main_v124 (F := Ideal) a.x10) := by
  funext i
  obtain ⟨p, j, rfl⟩ : ∃ (p : Fin 50000) (j : Fin 256), i = ix2 p j := ⟨i 0, i 1, eq_ix2 i⟩
  rw [val_main_v156_apply, val_main_v153_apply, val_main_v150_apply, val_main_v155_apply, val_main_v152_apply, val_main_v151_apply]
  have l1 : ∀ k : Fin 256, lidx_main_v150 (ix2 p j) k = ix2 p k := fun k =>
    funext fun a => Fin.ext (by match a with | ⟨0, _⟩ => rfl | ⟨1, _⟩ => rfl)
  have r1 : ∀ k : Fin 256, ridx_main_v150 (ix2 p j) k = ix2 k j := fun k =>
    funext fun a => Fin.ext (by match a with | ⟨0, _⟩ => rfl | ⟨1, _⟩ => rfl)
  have l2 : ∀ k : Fin 256, lidx_main_v155 (ix2 p j) k = ix2 p k := fun k =>
    funext fun a => Fin.ext (by match a with | ⟨0, _⟩ => rfl | ⟨1, _⟩ => rfl)
  have r2 : ∀ k : Fin 256, ridx_main_v155 (ix2 p j) k = ix2 k j := fun k =>
    funext fun a => Fin.ext (by match a with | ⟨0, _⟩ => rfl | ⟨1, _⟩ => rfl)
  have eb : idx_main_v151 (idx_main_v152 (ix2 p j)) = ix1 j :=
    funext fun a => Fin.ext (by match a with | ⟨0, _⟩ => rfl)
  simp only [l1, r1, l2, r2, eb]
  rfl

/-- Second layer, protein side. -/
theorem q2_stage (a : Args) : val_main_v229 (F := Ideal) a.x0 a.x1 a.x2 a.x3 a.x4 a.x5 a.x6 a.x7 a.x8 a.x9 a.x10 a.x11 a.x12 a.x13 a.x14
    = Spec.comb4R (val_main_v184 (F := Ideal) a.x0 a.x1 a.x2 a.x3 a.x4 a.x5 a.x6 a.x7 a.x8 a.x12 a.x13) (val_main_v220 (F := Ideal) a.x0 a.x1 a.x2 a.x3 a.x4 a.x5 a.x6 a.x7 a.x8 a.x12 a.x14) (val_main_v120 (F := Ideal) a.x0 a.x1 a.x2 a.x3 a.x4 a.x5 a.x6 a.x7 a.x8 a.x12 a.x14) (val_main_v185 (F := Ideal) a.x9) (val_main_v190 (F := Ideal) a.x11) (val_main_v221 (F := Ideal) a.x9) (val_main_v226 (F := Ideal) a.x11) (val_main_v160 (F := Ideal) a.x10) (val_main_v196 (F := Ideal) a.x10) := by
  funext i
  obtain ⟨p, j, rfl⟩ : ∃ (p : Fin 50000) (j : Fin 256), i = ix2 p j := ⟨i 0, i 1, eq_ix2 i⟩
  rw [val_main_v229_apply, val_main_v192_apply, val_main_v189_apply, val_main_v186_apply, val_main_v191_apply, val_main_v188_apply, val_main_v187_apply, val_main_v228_apply, val_main_v225_apply, val_main_v222_apply, val_main_v227_apply, val_main_v224_apply, val_main_v223_apply]
  have lA1 : ∀ k : Fin 256, lidx_main_v186 (ix2 p j) k = ix2 p k := fun k =>
    funext fun a => Fin.ext (by match a with | ⟨0, _⟩ => rfl | ⟨1, _⟩ => rfl)
  have rA1 : ∀ k : Fin 256, ridx_main_v186 (ix2 p j) k = ix2 k j := fun k =>
    funext fun a => Fin.ext (by match a with | ⟨0, _⟩ => rfl | ⟨1, _⟩ => rfl)
  have lA2 : ∀ k : Fin 256, lidx_main_v191 (ix2 p j) k = ix2 p k := fun k =>
    funext fun a => Fin.ext (by match a with | ⟨0, _⟩ => rfl | ⟨1, _⟩ => rfl)
  have rA2 : ∀ k : Fin 256, ridx_main_v191 (ix2 p j) k = ix2 k j := fun k =>
    funext fun a => Fin.ext (by match a with | ⟨0, _⟩ => rfl | ⟨1, _⟩ => rfl)
  have lB1 : ∀ k : Fin 256, lidx_main_v222 (ix2 p j) k = ix2 p k := fun k =>
    funext fun a => Fin.ext (by match a with | ⟨0, _⟩ => rfl | ⟨1, _⟩ => rfl)
  have rB1 : ∀ k : Fin 256, ridx_main_v222 (ix2 p j) k = ix2 k j := fun k =>
    funext fun a => Fin.ext (by match a with | ⟨0, _⟩ => rfl | ⟨1, _⟩ => rfl)
  have lB2 : ∀ k : Fin 256, lidx_main_v227 (ix2 p j) k = ix2 p k := fun k =>
    funext fun a => Fin.ext (by match a with | ⟨0, _⟩ => rfl | ⟨1, _⟩ => rfl)
  have rB2 : ∀ k : Fin 256, ridx_main_v227 (ix2 p j) k = ix2 k j := fun k =>
    funext fun a => Fin.ext (by match a with | ⟨0, _⟩ => rfl | ⟨1, _⟩ => rfl)
  have ebA : idx_main_v187 (idx_main_v188 (ix2 p j)) = ix1 j :=
    funext fun a => Fin.ext (by match a with | ⟨0, _⟩ => rfl)
  have ebB : idx_main_v223 (idx_main_v224 (ix2 p j)) = ix1 j :=
    funext fun a => Fin.ext (by match a with | ⟨0, _⟩ => rfl)
  simp only [lA1, rA1, lA2, rA2, lB1, rB1, lB2, rB2, ebA, ebB]
  rfl

end Cert.ReferenceIdeal.Stage

end
-- ==== Proof.RefProj.lean ====
/-
  The reference's two projections, in the arguments.

  The reference multiplies the node features by the transposed weight and adds the bias broadcast over the nodes.
  Read at node p and column j, its product is the sum over the 1280 features of feature k of node p times the
  weight at (j, k) — the transpose read back — and the broadcast bias is the bias at j.
-/
import proofs.«103163_j26482768347972_1_alg».proof.Proof.RefRead
import proofs.«103163_j26482768347972_1_alg».proof.Proof.SpecLaws

set_option maxRecDepth 16384

noncomputable section

namespace Cert.ReferenceIdeal.Stage

open Cert.ReferenceIdeal Cert.ReferenceIdeal.Gen Cert.ReferenceIdeal.ReadP
open Idealize.ShloMosaic Idealize.ShloMosaic.TcCoe Idealize.SL.Sem Idealize.ShloMosaic.ValueIdx
open Cert.Spec (Mat Vec1)

/-- The peptide nodes' projected features. -/
theorem proj_pep (a0 : (⟨S50000x1280, .f32⟩ : BufTy).Contents (Elt Ideal)) (a2 : (⟨S256x1280, .f32⟩ : BufTy).Contents (Elt Ideal))
    (a3 : (⟨S256, .f32⟩ : BufTy).Contents (Elt Ideal)) :
    val_main_v4 (F := Ideal) a0 a2 a3 = Spec.projN a0 a2 a3 := by
  funext i
  obtain ⟨p, j, rfl⟩ : ∃ (p : Fin 50000) (j : Fin 256), i = ix2 p j := ⟨i 0, i 1, eq_ix2 i⟩
  rw [val_main_v4_apply, val_main_v1_apply, val_main_v3_apply, val_main_v2_apply]
  simp only [val_main_v0_apply]
  have e1 : ∀ k : Fin 1280, lidx_main_v1 (ix2 p j) k = ix2 p k := fun k =>
    funext fun a => Fin.ext (by match a with | ⟨0, _⟩ => rfl | ⟨1, _⟩ => rfl)
  have e2 : ∀ k : Fin 1280, idx_main_v0 (ridx_main_v1 (ix2 p j) k) = ix2 j k := fun k =>
    funext fun a => Fin.ext (by match a with | ⟨0, _⟩ => rfl | ⟨1, _⟩ => rfl)
  have e3 : idx_main_v2 (idx_main_v3 (ix2 p j)) = ix1 j :=
    funext fun a => Fin.ext (by match a with | ⟨0, _⟩ => rfl)
  simp only [e1, e2, e3]
  rfl

/-- The protein nodes' projected features. -/
theorem proj_prot (a1 : (⟨S50000x1280, .f32⟩ : BufTy).Contents (Elt Ideal)) (a4 : (⟨S256x1280, .f32⟩ : BufTy).Contents (Elt Ideal))
    (a5 : (⟨S256, .f32⟩ : BufTy).Contents (Elt Ideal)) :
    val_main_v9 (F := Ideal) a1 a4 a5 = Spec.projN a1 a4 a5 := by
  funext i
  obtain ⟨p, j, rfl⟩ : ∃ (p : Fin 50000) (j : Fin 256), i = ix2 p j := ⟨i 0, i 1, eq_ix2 i⟩
  rw [val_main_v9_apply, val_main_v6_apply, val_main_v8_apply, val_main_v7_apply]
  simp only [val_main_v5_apply]
  have e1 : ∀ k : Fin 1280, lidx_main_v6 (ix2 p j) k = ix2 p k := fun k =>
    funext fun a => Fin.ext (by match a with | ⟨0, _⟩ => rfl | ⟨1, _⟩ => rfl)
  have e2 : ∀ k : Fin 1280, idx_main_v5 (ridx_main_v6 (ix2 p j) k) = ix2 j k := fun k =>
    funext fun a => Fin.ext (by match a with | ⟨0, _⟩ => rfl | ⟨1, _⟩ => rfl)
  have e3 : idx_main_v7 (idx_main_v8 (ix2 p j)) = ix1 j :=
    funext fun a => Fin.ext (by match a with | ⟨0, _⟩ => rfl)
  simp only [e1, e2, e3]
  rfl

end Cert.ReferenceIdeal.Stage

end
-- ==== Proof.RefWeights.lean ====
/-
  The reference's transposed weights and bias vectors are the host's own chains.

  Both programs slice one of the three stacked weights, reshape it to 256 × 256 and transpose it; the kernel's copy
  is then rounded to a narrower float format, which moves nothing on the extended reals.  A bias vector laid out as a
  1 × 256 row, read at column j, is the vector at j; the row of a sum of two vectors is the sum of the entries.
-/
import proofs.«103163_j26482768347972_1_alg».proof.Proof.RefRead
import proofs.«103163_j26482768347972_1_alg».proof.Proof.Net
import proofs.«103163_j26482768347972_1_alg».proof.Proof.Chain0

set_option maxRecDepth 16384

noncomputable section

namespace Cert.ReferenceIdeal.Stage

open Cert.ReferenceIdeal Cert.ReferenceIdeal.Gen Cert.ReferenceIdeal.ReadP
open Idealize.ShloMosaic Idealize.ShloMosaic.TcCoe Idealize.SL.Sem Idealize.ShloMosaic.ValueIdx
open Cert.Spec (Mat Vec1)
open Cert.KernelIdeal.Net

theorem w_v38 (a : Args) : (val_main_v38 (F := Ideal) a.x6 : Spec.Mat 256 256) = Cert.KernelIdeal.Stretch.weightT1 a.x6 := by
  unfold val_main_v38 val_main_v11 val_main_v10 Cert.KernelIdeal.Stretch.weightT1
  rfl

theorem w_v43 (a : Args) : (val_main_v43 (F := Ideal) a.x8 : Spec.Mat 256 256) = Cert.KernelIdeal.Stretch.weightT1 a.x8 := by
  unfold val_main_v43 val_main_v15 val_main_v14 Cert.KernelIdeal.Stretch.weightT1
  rfl

theorem w_v75 (a : Args) : (val_main_v75 (F := Ideal) a.x6 : Spec.Mat 256 256) = Cert.KernelIdeal.Stretch.weightT0 a.x6 := by
  unfold val_main_v75 val_main_v48 val_main_v47 Cert.KernelIdeal.Stretch.weightT0
  rfl

theorem w_v80 (a : Args) : (val_main_v80 (F := Ideal) a.x8 : Spec.Mat 256 256) = Cert.KernelIdeal.Stretch.weightT0 a.x8 := by
  unfold val_main_v80 val_main_v52 val_main_v51 Cert.KernelIdeal.Stretch.weightT0
  rfl

theorem w_v111 (a : Args) : (val_main_v111 (F := Ideal) a.x6 : Spec.Mat 256 256) = Cert.KernelIdeal.Stretch.weightT2 a.x6 := by
  unfold val_main_v111 val_main_v84 val_main_v83 Cert.KernelIdeal.Stretch.weightT2
  rfl

theorem w_v116 (a : Args) : (val_main_v116 (F := Ideal) a.x8 : Spec.Mat 256 256) = Cert.KernelIdeal.Stretch.weightT2 a.x8 := by
  unfold val_main_v116 val_main_v88 val_main_v87 Cert.KernelIdeal.Stretch.weightT2
  rfl

theorem w_v149 (a : Args) : (val_main_v149 (F := Ideal) a.x9 : Spec.Mat 256 256) = Cert.KernelIdeal.Stretch.weightT1 a.x9 := by
  unfold val_main_v149 val_main_v122 val_main_v121 Cert.KernelIdeal.Stretch.weightT1
  rfl

theorem w_v154 (a : Args) : (val_main_v154 (F := Ideal) a.x11 : Spec.Mat 256 256) = Cert.KernelIdeal.Stretch.weightT1 a.x11 := by
  unfold val_main_v154 val_main_v126 val_main_v125 Cert.KernelIdeal.Stretch.weightT1
  rfl

theorem w_v185 (a : Args) : (val_main_v185 (F := Ideal) a.x9 : Spec.Mat 256 256) = Cert.KernelIdeal.Stretch.weightT0 a.x9 := by
  unfold val_main_v185 val_main_v158 val_main_v157 Cert.KernelIdeal.Stretch.weightT0
  rfl

theorem w_v190 (a : Args) : (val_main_v190 (F := Ideal) a.x11 : Spec.Mat 256 256) = Cert.KernelIdeal.Stretch.weightT0 a.x11 := by
  unfold val_main_v190 val_main_v162 val_main_v161 Cert.KernelIdeal.Stretch.weightT0
  rfl

theorem w_v221 (a : Args) : (val_main_v221 (F := Ideal) a.x9 : Spec.Mat 256 256) = Cert.KernelIdeal.Stretch.weightT2 a.x9 := by
  unfold val_main_v221 val_main_v194 val_main_v193 Cert.KernelIdeal.Stretch.weightT2
  rfl

theorem w_v226 (a : Args) : (val_main_v226 (F := Ideal) a.x11 : Spec.Mat 256 256) = Cert.KernelIdeal.Stretch.weightT2 a.x11 := by
  unfold val_main_v226 val_main_v198 val_main_v197 Cert.KernelIdeal.Stretch.weightT2
  rfl

theorem b_v13 (a : Args) (j : Fin 256) : Cert.KernelIdeal.Stretch.biasRow1 a.x7 (ix2 (0 : Fin 1) j) = val_main_v13 (F := Ideal) a.x7 (ix1 j) := by
  unfold Cert.KernelIdeal.Stretch.biasRow1 val_main_v13 val_main_v12
  exact Cert.KernelIdeal.Chain.biasRow_apply _ j

theorem b_v124 (a : Args) (j : Fin 256) : Cert.KernelIdeal.Stretch.biasRow1 a.x10 (ix2 (0 : Fin 1) j) = val_main_v124 (F := Ideal) a.x10 (ix1 j) := by
  unfold Cert.KernelIdeal.Stretch.biasRow1 val_main_v124 val_main_v123
  exact Cert.KernelIdeal.Chain.biasRow_apply _ j

theorem b_v50_v86 (a : Args) (j : Fin 256) :
    Cert.KernelIdeal.Stretch.biasRowSum02 a.x7 (ix2 (0 : Fin 1) j) = val_main_v50 (F := Ideal) a.x7 (ix1 j) + val_main_v86 (F := Ideal) a.x7 (ix1 j) := by
  unfold Cert.KernelIdeal.Stretch.biasRowSum02 val_main_v50 val_main_v49 val_main_v86 val_main_v85
  exact Cert.KernelIdeal.Chain.biasRow_apply _ j

theorem b_v160_v196 (a : Args) (j : Fin 256) :
    Cert.KernelIdeal.Stretch.biasRowSum02 a.x10 (ix2 (0 : Fin 1) j) = val_main_v160 (F := Ideal) a.x10 (ix1 j) + val_main_v196 (F := Ideal) a.x10 (ix1 j) := by
  unfold Cert.KernelIdeal.Stretch.biasRowSum02 val_main_v160 val_main_v159 val_main_v196 val_main_v195
  exact Cert.KernelIdeal.Chain.biasRow_apply _ j

end Cert.ReferenceIdeal.Stage

end
-- ==== Proof.RefMeans.lean ====
/-
  The reference's neighbour means and row gathers are the host's own chains.

  Given that the source features agree, the reference's twenty-odd host operations from those features to the mean
  over incoming edges (or to the gathered rows of the labelled edges) are, one by one, the operations the kernel's
  program applies on the host: the same slices of the same edge list, the same wrap of negative indices, the same
  gather, segment sum, count, and division.  Nothing is opened; the two chains are one term.
-/
import proofs.«103163_j26482768347972_1_alg».proof.Proof.RefRead
import proofs.«103163_j26482768347972_1_alg».proof.Proof.Net

set_option maxRecDepth 16384

noncomputable section

namespace Cert.ReferenceIdeal.Stage

open Cert.ReferenceIdeal Cert.ReferenceIdeal.Gen Cert.ReferenceIdeal.ReadP
open Idealize.ShloMosaic Idealize.ShloMosaic.TcCoe Idealize.SL.Sem Idealize.ShloMosaic.ValueIdx
open Cert.Spec (Mat Vec1)
open Cert.KernelIdeal.Net

/-- The neighbour mean `mrp1`: from equal source features, the reference's chain is the host's chain, operation by operation. -/
theorem m_mrp1 (a : Args) (hsrc : val_main_v9 (F := Ideal) a.x1 a.x4 a.x5 = hprot a) : val_main_v37 (F := Ideal) a.x1 a.x4 a.x5 a.x13 = mrp1 a := by
  unfold val_main_v37 val_main_v29 val_main_v27 val_main_cst val_main_v28 val_main_v26 val_main_v25 val_main_v24 val_main_v23 val_main_v22 val_main_v19 val_main_v17 val_main_v16 val_main_v18 val_main_c val_main_v21 val_main_v20 val_main_c_0 val_main_v36 val_main_v35 val_main_v33 val_main_v31 val_main_cst_2 val_main_v32 val_main_v30 val_main_cst_1 val_main_v34 val_main_cst_3
  rw [hsrc]
  rfl

/-- The neighbour mean `mpp1`: from equal source features, the reference's chain is the host's chain, operation by operation. -/
theorem m_mpp1 (a : Args) (hsrc : val_main_v4 (F := Ideal) a.x0 a.x2 a.x3 = hpep a) : val_main_v74 (F := Ideal) a.x0 a.x2 a.x3 a.x12 = mpp1 a := by
  unfold val_main_v74 val_main_v66 val_main_v64 val_main_cst_6 val_main_v65 val_main_v63 val_main_v62 val_main_v61 val_main_v60 val_main_v59 val_main_v56 val_main_v54 val_main_v53 val_main_v55 val_main_c_4 val_main_v58 val_main_v57 val_main_c_5 val_main_v73 val_main_v72 val_main_v70 val_main_v68 val_main_cst_8 val_main_v69 val_main_v67 val_main_cst_7 val_main_v71 val_main_cst_9
  rw [hsrc]
  rfl

/-- The neighbour mean `mprot1`: from equal source features, the reference's chain is the host's chain, operation by operation. -/
theorem m_mprot1 (a : Args) (hsrc : val_main_v9 (F := Ideal) a.x1 a.x4 a.x5 = hprot a) : val_main_v110 (F := Ideal) a.x1 a.x4 a.x5 a.x14 = mprot1 a := by
  unfold val_main_v110 val_main_v102 val_main_v100 val_main_cst_12 val_main_v101 val_main_v99 val_main_v98 val_main_v97 val_main_v96 val_main_v95 val_main_v92 val_main_v90 val_main_v89 val_main_v91 val_main_c_10 val_main_v94 val_main_v93 val_main_c_11 val_main_v109 val_main_v108 val_main_v106 val_main_v104 val_main_cst_14 val_main_v105 val_main_v103 val_main_cst_13 val_main_v107 val_main_cst_15
  rw [hsrc]
  rfl

/-- The neighbour mean `mrp2`: from equal source features, the reference's chain is the host's chain, operation by operation. -/
theorem m_mrp2 (a : Args) (hsrc : val_main_v120 (F := Ideal) a.x0 a.x1 a.x2 a.x3 a.x4 a.x5 a.x6 a.x7 a.x8 a.x12 a.x14 = q1 a) : val_main_v148 (F := Ideal) a.x0 a.x1 a.x2 a.x3 a.x4 a.x5 a.x6 a.x7 a.x8 a.x12 a.x13 a.x14 = mrp2 a := by
  unfold val_main_v148 val_main_v140 val_main_v138 val_main_cst_18 val_main_v139 val_main_v137 val_main_v136 val_main_v135 val_main_v134 val_main_v133 val_main_v130 val_main_v128 val_main_v127 val_main_v129 val_main_c_16 val_main_v132 val_main_v131 val_main_c_17 val_main_v147 val_main_v146 val_main_v144 val_main_v142 val_main_cst_20 val_main_v143 val_main_v141 val_main_cst_19 val_main_v145 val_main_cst_21
  rw [hsrc]
  rfl

/-- The neighbour mean `mpp2`: from equal source features, the reference's chain is the host's chain, operation by operation. -/
theorem m_mpp2 (a : Args) (hsrc : val_main_v46 (F := Ideal) a.x0 a.x1 a.x2 a.x3 a.x4 a.x5 a.x6 a.x7 a.x8 a.x13 = p1 a) : val_main_v184 (F := Ideal) a.x0 a.x1 a.x2 a.x3 a.x4 a.x5 a.x6 a.x7 a.x8 a.x12 a.x13 = mpp2 a := by
  unfold val_main_v184 val_main_v176 val_main_v174 val_main_cst_24 val_main_v175 val_main_v173 val_main_v172 val_main_v171 val_main_v170 val_main_v169 val_main_v166 val_main_v164 val_main_v163 val_main_v165 val_main_c_22 val_main_v168 val_main_v167 val_main_c_23 val_main_v183 val_main_v182 val_main_v180 val_main_v178 val_main_cst_26 val_main_v179 val_main_v177 val_main_cst_25 val_main_v181 val_main_cst_27
  rw [hsrc]
  rfl

/-- The neighbour mean `mprot2`: from equal source features, the reference's chain is the host's chain, operation by operation. -/
theorem m_mprot2 (a : Args) (hsrc : val_main_v120 (F := Ideal) a.x0 a.x1 a.x2 a.x3 a.x4 a.x5 a.x6 a.x7 a.x8 a.x12 a.x14 = q1 a) : val_main_v220 (F := Ideal) a.x0 a.x1 a.x2 a.x3 a.x4 a.x5 a.x6 a.x7 a.x8 a.x12 a.x14 = mprot2 a := by
  unfold val_main_v220 val_main_v212 val_main_v210 val_main_cst_30 val_main_v211 val_main_v209 val_main_v208 val_main_v207 val_main_v206 val_main_v205 val_main_v202 val_main_v200 val_main_v199 val_main_v201 val_main_c_28 val_main_v204 val_main_v203 val_main_c_29 val_main_v219 val_main_v218 val_main_v216 val_main_v214 val_main_cst_32 val_main_v215 val_main_v213 val_main_cst_31 val_main_v217 val_main_cst_33
  rw [hsrc]
  rfl

theorem g_238 (a : Args) (hsrc : val_main_v156 (F := Ideal) a.x0 a.x1 a.x2 a.x3 a.x4 a.x5 a.x6 a.x7 a.x8 a.x9 a.x10 a.x11 a.x12 a.x13 a.x14 = p2 a) : val_main_v238 (F := Ideal) a.x0 a.x1 a.x2 a.x3 a.x4 a.x5 a.x6 a.x7 a.x8 a.x9 a.x10 a.x11 a.x12 a.x13 a.x14 a.x15 = Cert.KernelIdeal.Stretch.gatherRows0 (p2 a) a.x15 := by
  unfold val_main_v238 val_main_v237 val_main_v236 val_main_v233 val_main_v231 val_main_v230 val_main_v232 val_main_c_34 val_main_v235 val_main_v234 val_main_c_35
  rw [hsrc]
  rfl

theorem g_247 (a : Args) (hsrc : val_main_v229 (F := Ideal) a.x0 a.x1 a.x2 a.x3 a.x4 a.x5 a.x6 a.x7 a.x8 a.x9 a.x10 a.x11 a.x12 a.x13 a.x14 = q2 a) : val_main_v247 (F := Ideal) a.x0 a.x1 a.x2 a.x3 a.x4 a.x5 a.x6 a.x7 a.x8 a.x9 a.x10 a.x11 a.x12 a.x13 a.x14 a.x15 = Cert.KernelIdeal.Stretch.gatherRows1 (q2 a) a.x15 := by
  unfold val_main_v247 val_main_v246 val_main_v245 val_main_v242 val_main_v240 val_main_v239 val_main_v241 val_main_c_36 val_main_v244 val_main_v243 val_main_c_37
  rw [hsrc]
  rfl

theorem g_258 (a : Args) (hsrc : val_main_v229 (F := Ideal) a.x0 a.x1 a.x2 a.x3 a.x4 a.x5 a.x6 a.x7 a.x8 a.x9 a.x10 a.x11 a.x12 a.x13 a.x14 = q2 a) : val_main_v258 (F := Ideal) a.x0 a.x1 a.x2 a.x3 a.x4 a.x5 a.x6 a.x7 a.x8 a.x9 a.x10 a.x11 a.x12 a.x13 a.x14 a.x16 = Cert.KernelIdeal.Stretch.gatherRows0 (q2 a) a.x16 := by
  unfold val_main_v258 val_main_v257 val_main_v256 val_main_v253 val_main_v251 val_main_v250 val_main_v252 val_main_c_39 val_main_v255 val_main_v254 val_main_c_40
  rw [hsrc]
  rfl

theorem g_267 (a : Args) (hsrc : val_main_v229 (F := Ideal) a.x0 a.x1 a.x2 a.x3 a.x4 a.x5 a.x6 a.x7 a.x8 a.x9 a.x10 a.x11 a.x12 a.x13 a.x14 = q2 a) : val_main_v267 (F := Ideal) a.x0 a.x1 a.x2 a.x3 a.x4 a.x5 a.x6 a.x7 a.x8 a.x9 a.x10 a.x11 a.x12 a.x13 a.x14 a.x16 = Cert.KernelIdeal.Stretch.gatherRows1 (q2 a) a.x16 := by
  unfold val_main_v267 val_main_v266 val_main_v265 val_main_v262 val_main_v260 val_main_v259 val_main_v261 val_main_c_41 val_main_v264 val_main_v263 val_main_c_42
  rw [hsrc]
  rfl

end Cert.ReferenceIdeal.Stage

end
-- ==== Proof.RNet.lean ====
/-
  The reference's stages are the network's terms, in the program's order.

  The projections are in the arguments already.  Each layer result is the specification's function, in the
  reference's order of addition, of a neighbour mean, the node features, two transposed weights and a bias vector;
  the means, weights and biases are the host's own chains; and the reference's order of addition is the kernel's by
  commutativity and associativity of the sum on the extended reals.  Each score is the float sum, from zero, of the
  two gathered rows' products.
-/
import proofs.«103163_j26482768347972_1_alg».proof.Proof.RefStage
import proofs.«103163_j26482768347972_1_alg».proof.Proof.RefProj
import proofs.«103163_j26482768347972_1_alg».proof.Proof.RefWeights
import proofs.«103163_j26482768347972_1_alg».proof.Proof.RefMeans
import Idealize.ShloMosaic.PureOps.Ideal.Laws

set_option maxRecDepth 16384

noncomputable section

namespace Cert.ReferenceIdeal.Stage

open Cert.ReferenceIdeal Cert.ReferenceIdeal.Gen Cert.ReferenceIdeal.ReadP
open Idealize.ShloMosaic Idealize.ShloMosaic.TcCoe Idealize.SL.Sem Idealize.ShloMosaic.ValueIdx
open Cert.Spec (Mat Vec1)
open Cert.KernelIdeal.Net

theorem r_hpep (a : Args) : val_main_v4 (F := Ideal) a.x0 a.x2 a.x3 = hpep a := proj_pep a.x0 a.x2 a.x3

theorem r_hprot (a : Args) : val_main_v9 (F := Ideal) a.x1 a.x4 a.x5 = hprot a := proj_prot a.x1 a.x4 a.x5

/-- First layer, peptide side. -/
theorem r_p1 (a : Args) : val_main_v46 (F := Ideal) a.x0 a.x1 a.x2 a.x3 a.x4 a.x5 a.x6 a.x7 a.x8 a.x13 = p1 a := by
  rw [p1_stage, m_mrp1 a (r_hprot a), r_hpep, w_v38, w_v43]
  exact (Spec.comb2relu_eq_comb2reluR _ _ _ _ _ _ (b_v13 a)).symm

/-- First layer, protein side. -/
theorem r_q1 (a : Args) : val_main_v120 (F := Ideal) a.x0 a.x1 a.x2 a.x3 a.x4 a.x5 a.x6 a.x7 a.x8 a.x12 a.x14 = q1 a := by
  rw [q1_stage, m_mpp1 a (r_hpep a), m_mprot1 a (r_hprot a), r_hprot, w_v75, w_v80, w_v111, w_v116]
  exact (Spec.comb4relu_eq_comb4reluR _ _ _ _ _ _ _ _ _ _ (b_v50_v86 a)).symm

/-- Second layer, peptide side. -/
theorem r_p2 (a : Args) : val_main_v156 (F := Ideal) a.x0 a.x1 a.x2 a.x3 a.x4 a.x5 a.x6 a.x7 a.x8 a.x9 a.x10 a.x11 a.x12 a.x13 a.x14 = p2 a := by
  rw [p2_stage, m_mrp2 a (r_q1 a), r_p1, w_v149, w_v154]
  exact (Spec.comb2_eq_comb2R _ _ _ _ _ _ (b_v124 a)).symm

/-- Second layer, protein side. -/
theorem r_q2 (a : Args) : val_main_v229 (F := Ideal) a.x0 a.x1 a.x2 a.x3 a.x4 a.x5 a.x6 a.x7 a.x8 a.x9 a.x10 a.x11 a.x12 a.x13 a.x14 = q2 a := by
  rw [q2_stage, m_mpp2 a (r_p1 a), m_mprot2 a (r_q1 a), r_q1, w_v185, w_v190, w_v221, w_v226]
  exact (Spec.comb4_eq_comb4R _ _ _ _ _ _ _ _ _ _ (b_v160_v196 a)).symm

/-- The reference's first result: the peptide–protein scores. -/
theorem r_res0 (a : Args) : val_main_v249 (F := Ideal) a.x0 a.x1 a.x2 a.x3 a.x4 a.x5 a.x6 a.x7 a.x8 a.x9 a.x10 a.x11 a.x12 a.x13 a.x14 a.x15 = asVector (het a) := by
  funext i
  obtain ⟨e, rfl⟩ : ∃ e : Fin 200000, i = ix1 e := ⟨i 0, eq_ix1 i⟩
  rw [asVector_apply, val_main_v249_apply]
  have ei : ∀ k : Fin 256, idx_main_v249 (ix1 e) k = ix2 e k := fun k =>
    funext fun b => Fin.ext (by match b with | ⟨0, _⟩ => rfl | ⟨1, _⟩ => rfl)
  simp only [val_main_v248_apply, g_238 a (r_p2 a), g_247 a (r_q2 a), ei]
  show (Ideal.ofBits .f32 0x00000000#32 : EReal) + _ = _
  rw [Ideal.ofBits_zero_f32, zero_add]
  rfl

/-- The reference's second result: the protein–protein scores. -/
theorem r_res1 (a : Args) : val_main_v269 (F := Ideal) a.x0 a.x1 a.x2 a.x3 a.x4 a.x5 a.x6 a.x7 a.x8 a.x9 a.x10 a.x11 a.x12 a.x13 a.x14 a.x16 = asVector (homo a) := by
  funext i
  obtain ⟨e, rfl⟩ : ∃ e : Fin 200000, i = ix1 e := ⟨i 0, eq_ix1 i⟩
  rw [asVector_apply, val_main_v269_apply]
  have ei : ∀ k : Fin 256, idx_main_v269 (ix1 e) k = ix2 e k := fun k =>
    funext fun b => Fin.ext (by match b with | ⟨0, _⟩ => rfl | ⟨1, _⟩ => rfl)
  simp only [val_main_v268_apply, g_258 a (r_q2 a), g_267 a (r_q2 a), ei]
  show (Ideal.ofBits .f32 0x00000000#32 : EReal) + _ = _
  rw [Ideal.ofBits_zero_f32, zero_add]
  rfl

end Cert.ReferenceIdeal.Stage

end
-- ==== Proof.lean ====
/-
  The proof of `Cert.Claim`: the three programs run and leave their arguments alone, and the idealized kernel and
  the idealized reference, run from memories that agree on the arguments, end with the same two score vectors.

  THE COMPUTATION.  Two node types (peptides, proteins) with 1280 input features are projected to 256 hidden
  features.  Two layers of message passing follow: for each relation the mean of the source features over a node's
  incoming edges is multiplied by one weight, the node's own features by another, and a bias is added; the protein
  side sums two relations.  The first layer is rectified.  Each labelled edge is scored by the sum over the hidden
  features of its endpoint rows' products.

  THE KERNEL runs the dense parts as eight regions (two projections, four combines, two scorings), each over blocks of
  2000 rows, and leaves the neighbour means and the row gathers to the host.  Each region's result array is the
  specification's function of the arrays it found; each stretch of host operations applies named chains to the
  previous boundary; so every buffer at the last boundary is a term of the seventeen arguments.

  THE REFERENCE computes the same stages on the host.  Its products are the same sums over the contracted axis; it
  adds each relation's bias before the second product where the kernel adds the (summed) bias last.  On the extended
  reals the sum is commutative and associative also at the infinities, so the two orders agree with no assumption
  on the inputs: the precondition is never opened.  The neighbour means and gathers are the same chains of host
  operations on both sides and are never opened either.

  `preserves` is trivial: the idealized kernel is the kernel's own text read on the extended reals.
-/
import proofs.«103163_j26482768347972_1_alg».proof.Defs
import proofs.«103163_j26482768347972_1_alg».proof.Proof.Gen.Kernel
import proofs.«103163_j26482768347972_1_alg».proof.Proof.Gen.Kernel.Skeleton
import proofs.«103163_j26482768347972_1_alg».proof.Proof.Gen.Kernel.Launch
import proofs.«103163_j26482768347972_1_alg».proof.Proof.Gen.Kernel.Points
import proofs.«103163_j26482768347972_1_alg».proof.Proof.Gen.Kernel.Frame
import proofs.«103163_j26482768347972_1_alg».proof.Proof.Gen.KernelIdeal
import proofs.«103163_j26482768347972_1_alg».proof.Proof.Gen.KernelIdeal.Skeleton
import proofs.«103163_j26482768347972_1_alg».proof.Proof.Gen.KernelIdeal.Launch
import proofs.«103163_j26482768347972_1_alg».proof.Proof.Gen.KernelIdeal.Points
import proofs.«103163_j26482768347972_1_alg».proof.Proof.Gen.KernelIdeal.Frame
import proofs.«103163_j26482768347972_1_alg».proof.Proof.Gen.ReferenceIdeal
import proofs.«103163_j26482768347972_1_alg».proof.Proof.Gen.Pre_finite_inputs
import proofs.«103163_j26482768347972_1_alg».proof.Proof.Boundary
import proofs.«103163_j26482768347972_1_alg».proof.Proof.KNet
import proofs.«103163_j26482768347972_1_alg».proof.Proof.RNet
import Idealize.ShloMosaic.Adequacy
import Idealize.ShloMosaic.Init

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both idealized programs end with the network's two score vectors of the (shared) arguments. -/
theorem algebraic : Cert.algebraic_KernelIdeal_ReferenceIdeal := by
  intro m ρ m' ρ' _ hagree
  refine ⟨fun c => Cert.KernelIdeal.Net.asVector (Cert.KernelIdeal.Net.het (Cert.KernelIdeal.KNet.argsOf m c)),
    fun c => Cert.KernelIdeal.Net.asVector (Cert.KernelIdeal.Net.homo (Cert.KernelIdeal.KNet.argsOf m c)), ?_, ?_⟩
  · refine (θ_run Cert.KernelIdeal.defs _ _).mono (fun r h c => ?_) (Cert.KernelIdeal.Boundary.run m ρ)
    exact ⟨(h c _ (Cert.KernelIdeal.Gen.mem_uc Cert.KernelIdeal.main_v229 (by decide))).trans (Cert.KernelIdeal.KNet.k_res0 m ρ c),
      (h c _ (Cert.KernelIdeal.Gen.mem_uc Cert.KernelIdeal.main_v249 (by decide))).trans (Cert.KernelIdeal.KNet.k_res1 m ρ c),
      (h c _ (Cert.KernelIdeal.Gen.mem_uc Cert.KernelIdeal.main_arg0 (by decide))).trans (Cert.KernelIdeal.Gen.W17_main_arg0 m ρ c),
      (h c _ (Cert.KernelIdeal.Gen.mem_uc Cert.KernelIdeal.main_arg1 (by decide))).trans (Cert.KernelIdeal.Gen.W17_main_arg1 m ρ c),
      (h c _ (Cert.KernelIdeal.Gen.mem_uc Cert.KernelIdeal.main_arg2 (by decide))).trans (Cert.KernelIdeal.Gen.W17_main_arg2 m ρ c),
      (h c _ (Cert.KernelIdeal.Gen.mem_uc Cert.KernelIdeal.main_arg3 (by decide))).trans (Cert.KernelIdeal.Gen.W17_main_arg3 m ρ c),
      (h c _ (Cert.KernelIdeal.Gen.mem_uc Cert.KernelIdeal.main_arg4 (by decide))).trans (Cert.KernelIdeal.Gen.W17_main_arg4 m ρ c),
      (h c _ (Cert.KernelIdeal.Gen.mem_uc Cert.KernelIdeal.main_arg5 (by decide))).trans (Cert.KernelIdeal.Gen.W17_main_arg5 m ρ c),
      (h c _ (Cert.KernelIdeal.Gen.mem_uc Cert.KernelIdeal.main_arg6 (by decide))).trans (Cert.KernelIdeal.Gen.W17_main_arg6 m ρ c),
      (h c _ (Cert.KernelIdeal.Gen.mem_uc Cert.KernelIdeal.main_arg7 (by decide))).trans (Cert.KernelIdeal.Gen.W17_main_arg7 m ρ c),
      (h c _ (Cert.KernelIdeal.Gen.mem_uc Cert.KernelIdeal.main_arg8 (by decide))).trans (Cert.KernelIdeal.Gen.W17_main_arg8 m ρ c),
      (h c _ (Cert.KernelIdeal.Gen.mem_uc Cert.KernelIdeal.main_arg9 (by decide))).trans (Cert.KernelIdeal.Gen.W17_main_arg9 m ρ c),
      (h c _ (Cert.KernelIdeal.Gen.mem_uc Cert.KernelIdeal.main_arg10 (by decide))).trans (Cert.KernelIdeal.Gen.W17_main_arg10 m ρ c),
      (h c _ (Cert.KernelIdeal.Gen.mem_uc Cert.KernelIdeal.main_arg11 (by decide))).trans (Cert.KernelIdeal.Gen.W17_main_arg11 m ρ c),
      (h c _ (Cert.KernelIdeal.Gen.mem_uc Cert.KernelIdeal.main_arg12 (by decide))).trans (Cert.KernelIdeal.Gen.W17_main_arg12 m ρ c),
      (h c _ (Cert.KernelIdeal.Gen.mem_uc Cert.KernelIdeal.main_arg13 (by decide))).trans (Cert.KernelIdeal.Gen.W17_main_arg13 m ρ c),
      (h c _ (Cert.KernelIdeal.Gen.mem_uc Cert.KernelIdeal.main_arg14 (by decide))).trans (Cert.KernelIdeal.Gen.W17_main_arg14 m ρ c),
      (h c _ (Cert.KernelIdeal.Gen.mem_uc Cert.KernelIdeal.main_arg15 (by decide))).trans (Cert.KernelIdeal.Gen.W17_main_arg15 m ρ c),
      (h c _ (Cert.KernelIdeal.Gen.mem_uc Cert.KernelIdeal.main_arg16 (by decide))).trans (Cert.KernelIdeal.Gen.W17_main_arg16 m ρ c)⟩
  · refine (θ_run Cert.ReferenceIdeal.defs _ _).mono
      (fun r h c => ⟨(h c).1.trans ?_, (h c).2.1.trans ?_, (h c).2.2⟩)
      (Cert.ReferenceIdeal.ValueP.run (F := Ideal) m' ρ')
    · obtain ⟨e0, e1, e2, e3, e4, e5, e6, e7, e8, e9, e10, e11, e12, e13, e14, e15, e16⟩ := hagree c
      rw [Cert.ReferenceIdeal.ReadP.val_main_v249_eq, e0, e1, e2, e3, e4, e5, e6, e7, e8, e9, e10, e11, e12, e13, e14, e15]
      exact Cert.ReferenceIdeal.Stage.r_res0 (Cert.KernelIdeal.KNet.argsOf m c)
    · obtain ⟨e0, e1, e2, e3, e4, e5, e6, e7, e8, e9, e10, e11, e12, e13, e14, e15, e16⟩ := hagree c
      rw [Cert.ReferenceIdeal.ReadP.val_main_v269_eq, e0, e1, e2, e3, e4, e5, e6, e7, e8, e9, e10, e11, e12, e13, e14, e16]
      exact Cert.ReferenceIdeal.Stage.r_res1 (Cert.KernelIdeal.KNet.argsOf m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
